-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 127
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S50000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S1x600000, .i32⟩
  | .hbm, ⟨17, _⟩ => ⟨S600000, .i32⟩
  | .hbm, ⟨18, _⟩ => ⟨S650000, .i32⟩
  | .hbm, ⟨19, _⟩ => ⟨S_, .f32⟩
  | .hbm, ⟨20, _⟩ => ⟨S650000, .f32⟩
  | .hbm, ⟨21, _⟩ => ⟨S_, .f32⟩
  | .hbm, ⟨22, _⟩ => ⟨S50000, .f32⟩
  | .hbm, ⟨23, _⟩ => ⟨S650000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000, .f32⟩
  | .hbm, ⟨54, _⟩ => ⟨S650000, .f32⟩
  | .hbm, ⟨55, _⟩ => ⟨S50000x128, .f32⟩
  | .hbm, ⟨56, _⟩ => ⟨S_, .i32⟩
  | .hbm, ⟨57, _⟩ => ⟨S650000, .i32⟩
  | .hbm, ⟨58, _⟩ => ⟨S650000, .i1⟩
  | .hbm, ⟨59, _⟩ => ⟨S_, .i32⟩
  | .hbm, ⟨60, _⟩ => ⟨S650000, .i32⟩
  | .hbm, ⟨61, _⟩ => ⟨S650000, .i32⟩
  | .hbm, ⟨62, _⟩ => ⟨S650000, .i32⟩
  | .hbm, ⟨63, _⟩ => ⟨S650000x1, .i32⟩
  | .hbm, ⟨64, _⟩ => ⟨S650000x128, .f32⟩
  | .hbm, ⟨65, _⟩ => ⟨S650000x1, .f32⟩
  | .hbm, ⟨66, _⟩ => ⟨S650000x128, .f32⟩
  | .hbm, ⟨67, _⟩ => ⟨S650000x128, .f32⟩
  | .hbm, ⟨68, _⟩ => ⟨S_, .f32⟩
  | .hbm, ⟨69, _⟩ => ⟨S50000x128, .f32⟩
  | .hbm, ⟨70, _⟩ => ⟨S650000x1, .i32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .i32⟩
  | .hbm, ⟨92, _⟩ => ⟨S650000, .i32⟩
  | .hbm, ⟨93, _⟩ => ⟨S650000, .i1⟩
  | .hbm, ⟨94, _⟩ => ⟨S_, .i32⟩
  | .hbm, ⟨95, _⟩ => ⟨S650000, .i32⟩
  | .hbm, ⟨96, _⟩ => ⟨S650000, .i32⟩
  | .hbm, ⟨97, _⟩ => ⟨S650000, .i32⟩
  | .hbm, ⟨98, _⟩ => ⟨S650000x1, .i32⟩
  | .hbm, ⟨99, _⟩ => ⟨S650000x128, .f32⟩
  | .hbm, ⟨100, _⟩ => ⟨S650000x1, .f32⟩
  | .hbm, ⟨101, _⟩ => ⟨S650000x128, .f32⟩
  | .hbm, ⟨102, _⟩ => ⟨S650000x128, .f32⟩
  | .hbm, ⟨103, _⟩ => ⟨S_, .f32⟩
  | .hbm, ⟨104, _⟩ => ⟨S50000x128, .f32⟩
  | .hbm, ⟨105, _⟩ => ⟨S650000x1, .i32⟩
  | .hbm, ⟨106, _⟩ => ⟨S50000x128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S_, .f32⟩
  | .hbm, ⟨111, _⟩ => ⟨S1x128, .f32⟩
  | .hbm, ⟨112, _⟩ => ⟨S1x128, .f32⟩
  | .hbm, ⟨113, _⟩ => ⟨S_, .f32⟩
  | .hbm, ⟨114, _⟩ => ⟨S1x128, .f32⟩
  | .hbm, ⟨115, _⟩ => ⟨S1x128, .f32⟩
  | .hbm, ⟨116, _⟩ => ⟨S1x128, .f32⟩
  | .hbm, ⟨117, _⟩ => ⟨S1x128, .f32⟩
  | .hbm, ⟨118, _⟩ => ⟨S_, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S1x128, .f32⟩
  | .hbm, ⟨123, _⟩ => ⟨S1x128, .f32⟩
  | .hbm, ⟨124, _⟩ => ⟨S50000x128, .f32⟩
  | .hbm, ⟨125, _⟩ => ⟨S1x64, .f32⟩
  | .hbm, ⟨126, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47_0 : Ref sig .tc := ⟨.hbm, 73, rfl⟩
abbrev main_v47_1 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75_0 : Ref sig .tc := ⟨.hbm, 108, rfl⟩
abbrev main_v75_1 : Ref sig .tc := ⟨.hbm, 109, rfl⟩
abbrev main_cst_16 : Ref sig .tc := ⟨.hbm, 110, rfl⟩
abbrev main_v76 : Ref sig .tc := ⟨.hbm, 111, rfl⟩
abbrev main_v77 : Ref sig .tc := ⟨.hbm, 112, rfl⟩
abbrev main_cst_17 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem3_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v87) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v87) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v89) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 229
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S50000, .i32⟩
  | 13 => ⟨S1x600000, .i32⟩
  | 14 => ⟨S600000, .i32⟩
  | 15 => ⟨S650000, .i32⟩
  | 16 => ⟨S1x600000, .i32⟩
  | 17 => ⟨S600000, .i32⟩
  | 18 => ⟨S650000, .i32⟩
  | 19 => ⟨S50000x128, .f32⟩
  | 20 => ⟨S_, .f32⟩
  | 21 => ⟨S650000, .f32⟩
  | 22 => ⟨S_, .f32⟩
  | 23 => ⟨S50000, .f32⟩
  | 24 => ⟨S650000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000, .f32⟩
  | 55 => ⟨S650000, .f32⟩
  | 56 => ⟨S650000x1, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000x128, .f32⟩
  | 66 => ⟨S650000x128, .f32⟩
  | 67 => ⟨S650000x128, .f32⟩
  | 68 => ⟨S_, .f32⟩
  | 69 => ⟨S50000x128, .f32⟩
  | 70 => ⟨S650000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S_, .f32⟩
  | 124 => ⟨S650000, .f32⟩
  | 125 => ⟨S_, .f32⟩
  | 126 => ⟨S50000, .f32⟩
  | 127 => ⟨S650000x1, .i32⟩
  | _ => ⟨S50000x128, .f32⟩

abbrev hbmTy0_1 (i : Nat) : BufTy := match i % 128 with
  | 0 => ⟨S50000, .f32⟩
  | 1 => ⟨S_, .f32⟩
  | 2 => ⟨S50000, .f32⟩
  | 3 => ⟨S50000, .i1⟩
  | 4 => ⟨S_, .f32⟩
  | 5 => ⟨S50000, .f32⟩
  | 6 => ⟨S50000, .f32⟩
  | 7 => ⟨S50000, .f32⟩
  | 8 => ⟨S_, .f32⟩
  | 9 => ⟨S_, .f32⟩
  | 10 => ⟨S50000, .f32⟩
  | 11 => ⟨S50000, .f32⟩
  | 12 => ⟨S_, .i32⟩
  | 13 => ⟨S650000, .i32⟩
  | 14 => ⟨S650000, .i1⟩
  | 15 => ⟨S_, .i32⟩
  | 16 => ⟨S650000, .i32⟩
  | 17 => ⟨S650000, .i32⟩
  | 18 => ⟨S650000, .i32⟩
  | 19 => ⟨S650000x1, .i32⟩
  | 20 => ⟨S650000, .f32⟩
  | 21 => ⟨S_, .i32⟩
  | 22 => ⟨S650000, .i32⟩
  | 23 => ⟨S650000, .i1⟩
  | 24 => ⟨S_, .i32⟩
  | 25 => ⟨S650000, .i32⟩
  | 26 => ⟨S650000, .i32⟩
  | 27 => ⟨S650000, .i32⟩
  | 28 => ⟨S650000x1, .i32⟩
  | 29 => ⟨S650000, .f32⟩
  | 30 => ⟨S650000, .f32⟩
  | 31 => ⟨S650000x1, .f32⟩
  | 32 => ⟨S_, .i32⟩
  | 33 => ⟨S650000, .i32⟩
  | 34 => ⟨S650000, .i1⟩
  | 35 => ⟨S_, .i32⟩
  | 36 => ⟨S650000, .i32⟩
  | 37 => ⟨S650000, .i32⟩
  | 38 => ⟨S650000, .i32⟩
  | 39 => ⟨S650000x1, .i32⟩
  | 40 => ⟨S650000x128, .f32⟩
  | 41 => ⟨S650000x128, .f32⟩
  | 42 => ⟨S650000x128, .f32⟩
  | 43 => ⟨S_, .f32⟩
  | 44 => ⟨S50000x128, .f32⟩
  | 45 => ⟨S650000x1, .i32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S50000x128, .f32⟩
  | 63 => ⟨S50000x128, .f32⟩
  | 64 => ⟨S50000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x64, .f32⟩
  | 98 => ⟨S1x64, .f32⟩
  | 99 => ⟨S50000x64, .f32⟩
  | 100 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_cst_3 : Ref sig .tc := ⟨.hbm, 97, rfl⟩
abbrev main_call1_v12 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_13 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_call2_cst : Ref sig .tc := ⟨.hbm, 119, rfl⟩
abbrev main_call2_v0 : Ref sig .tc := ⟨.hbm, 120, rfl⟩
abbrev main_v68 : Ref sig .tc := ⟨.hbm, 121, rfl⟩
abbrev main_v69 : Ref sig .tc := ⟨.hbm, 122, rfl⟩
abbrev main_cst_14 : Ref sig .tc := ⟨.hbm, 123, rfl⟩
abbrev main_v70 : Ref sig .tc := ⟨.hbm, 124, rfl⟩
abbrev main_cst_15 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_16 : Ref sig .tc := ⟨.hbm, 129, rfl⟩
abbrev main_v74 : Ref sig .tc := ⟨.hbm, 130, rfl⟩
abbrev main_v75 : Ref sig .tc := ⟨.hbm, 131, rfl⟩
abbrev main_cst_17 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_18 : Ref sig .tc := ⟨.hbm, 136, rfl⟩
abbrev main_call3_v0 : Ref sig .tc := ⟨.hbm, 137, rfl⟩
abbrev main_call3_v1 : Ref sig .tc := ⟨.hbm, 138, rfl⟩
abbrev main_v79 : Ref sig .tc := ⟨.hbm, 139, rfl⟩
abbrev main_c_19 : Ref sig .tc := ⟨.hbm, 140, rfl⟩
abbrev main_v80 : Ref sig .tc := ⟨.hbm, 141, rfl⟩
abbrev main_v81 : Ref sig .tc := ⟨.hbm, 142, rfl⟩
abbrev main_c_20 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_c_21 : Ref sig .tc := ⟨.hbm, 149, rfl⟩
abbrev main_v87 : Ref sig .tc := ⟨.hbm, 150, rfl⟩
abbrev main_v88 : Ref sig .tc := ⟨.hbm, 151, rfl⟩
abbrev main_c_22 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_c_23 : Ref sig .tc := ⟨.hbm, 160, rfl⟩
abbrev main_v96 : Ref sig .tc := ⟨.hbm, 161, rfl⟩
abbrev main_v97 : Ref sig .tc := ⟨.hbm, 162, rfl⟩
abbrev main_c_24 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_25 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_cst_26 : Ref sig .tc := ⟨.hbm, 178, rfl⟩
abbrev main_v111 : Ref sig .tc := ⟨.hbm, 179, rfl⟩
abbrev main_cst_27 : Ref sig .tc := ⟨.hbm, 180, rfl⟩
abbrev main_v112 : Ref sig .tc := ⟨.hbm, 181, rfl⟩
abbrev main_v113 : Ref sig .tc := ⟨.hbm, 182, rfl⟩
abbrev main_c_28 : Ref sig .tc := ⟨.hbm, 183, rfl⟩
abbrev main_call4_cst : Ref sig .tc := ⟨.hbm, 184, rfl⟩
abbrev main_call4_v0 : Ref sig .tc := ⟨.hbm, 185, rfl⟩
abbrev main_call4_v1 : Ref sig .tc := ⟨.hbm, 186, rfl⟩
abbrev main_call4_cst_0 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_v6 : Ref sig .tc := ⟨.hbm, 192, rfl⟩
abbrev main_call4_v7 : Ref sig .tc := ⟨.hbm, 193, rfl⟩
abbrev main_call4_cst_1 : Ref sig .tc := ⟨.hbm, 194, rfl⟩
abbrev main_call4_v8 : Ref sig .tc := ⟨.hbm, 195, rfl⟩
abbrev main_call4_cst_2 : Ref sig .tc := ⟨.hbm, 196, rfl⟩
abbrev main_call4_v9 : Ref sig .tc := ⟨.hbm, 197, rfl⟩
abbrev main_call4_v10 : Ref sig .tc := ⟨.hbm, 198, rfl⟩
abbrev main_call4_v11 : Ref sig .tc := ⟨.hbm, 199, rfl⟩
abbrev main_call4_cst_3 : Ref sig .tc := ⟨.hbm, 200, rfl⟩
abbrev main_call4_v12 : Ref sig .tc := ⟨.hbm, 201, rfl⟩
abbrev main_call4_cst_4 : Ref sig .tc := ⟨.hbm, 202, rfl⟩
abbrev main_call4_call0_v0 : Ref sig .tc := ⟨.hbm, 203, rfl⟩
abbrev main_call4_call0_v1 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_cst_29 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_call5_cst : Ref sig .tc := ⟨.hbm, 222, rfl⟩
abbrev main_call5_v0 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result buffer named: every weakly fair execution of the seven-region
  program terminates, the result buffer holds the fold of the program's fifteen segments over the launch memory
  at that buffer, and the twelve argument arrays are as launched. The fold is then read, segment by segment, in
  the value modules.
-/
import proofs.«150636_j78039555768704_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the segments' fold over the
    launch memory, and each argument array ends as launched. -/
theorem run : θ_run defs (onTc (τ := τ) (main (F := F))) ⟨m, fun _ => 0, ρ⟩ (fun r => ∀ c : Dev nD,
      r.2.mem ((c.tc : Thread nD τ).loc main_v89) = W15 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v89 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.Run

end
-- ==== Proof.Spec.lean ====
/-
  The mathematics of the two-layer graph network, stated once over extended-real matrices, index by index.
  A matrix is a function on index pairs; every entry below is written with literal coordinate types so that
  sums range over `Fin n` for a literal `n`.

  * `mm x w`      : the matrix product, entry (p, q) = Σ_k x(p,k) · w(k,q).
  * `addRow x b`  : a one-row matrix added to every row.
  * `colSum x`    : the column sums, as a one-row matrix.
  * `sqr x`       : entrywise square.
  * `bnRelu`      : the normalisation ((x + b) − μ) · rsqrt(σ² + ε) · γ + β followed by max(·, 0),
                     with per-column statistics given as one-row matrices.
-/
import Idealize.ShloMosaic.PureOps.Ideal
import Idealize.ShloMosaic.Lib.ValueIdx

noncomputable section

open scoped BigOperators

namespace Cert.Gcn

open Idealize.ShloMosaic Idealize.ShloMosaic.ValueIdx

/-- An `r × c` matrix of extended reals. -/
abbrev Mat (r c : Nat) : Type := (⟨2, ![r, c]⟩ : Shape).Idx → EReal

/-- The row coordinate of an index, typed by the literal row count. -/
abbrev rowOf {r c : Nat} (i : (⟨2, ![r, c]⟩ : Shape).Idx) : Fin r := ⟨(i 0).val, idx2_lt0 i⟩
/-- The column coordinate of an index, typed by the literal column count. -/
abbrev colOf {r c : Nat} (i : (⟨2, ![r, c]⟩ : Shape).Idx) : Fin c := ⟨(i 1).val, idx2_lt1 i⟩

/-- The matrix product: entry (p, q) is Σ_k x(p,k) · w(k,q). -/
def mm {r k c : Nat} (x : Mat r k) (w : Mat k c) : Mat r c :=
  fun i => ∑ q : Fin k, x (ix2 (rowOf i) q) * w (ix2 q (colOf i))

/-- A one-row matrix added to every row. -/
def addRow {r c : Nat} (x : Mat r c) (b : Mat 1 c) : Mat r c :=
  fun i => x i + b (ix2 (0 : Fin 1) (colOf i))

/-- The column sums, as a one-row matrix. -/
def colSum {r c : Nat} (x : Mat r c) : Mat 1 c :=
  fun j => ∑ p : Fin r, x (ix2 p (colOf j))

/-- Entrywise square. -/
def sqr {r c : Nat} (x : Mat r c) : Mat r c := fun i => x i * x i

/-- The stabiliser added to the variance: the single-precision number nearest 10⁻⁵, as the exact real it is. -/
def eps : EReal := Ideal.ofBits .f32 0x3727C5AC#32

/-- Zero, as the single-precision word of +0. -/
def zeroW : EReal := Ideal.ofBits .f32 0x00000000#32

/-- Normalise with given per-column statistics, scale, shift, and clamp below at zero:
    max( ((x + b) − μ) · rsqrt(σ² + ε) · γ + β , 0 ), columnwise. -/
def bnRelu {r c : Nat} (x : Mat r c) (b mu var g be : Mat 1 c) : Mat r c :=
  fun i =>
    max ((((x i + b (ix2 (0 : Fin 1) (colOf i))) - mu (ix2 (0 : Fin 1) (colOf i)))
            * Ideal.rsqrt (var (ix2 (0 : Fin 1) (colOf i)) + eps))
          * g (ix2 (0 : Fin 1) (colOf i)) + be (ix2 (0 : Fin 1) (colOf i)))
      zeroW

end Cert.Gcn

end
-- ==== Proof.KStages.lean ====
/-
  The small host steps of the kernel program between its regions, as named functions:
  a length-n vector laid out as a one-row matrix, the node count and zero as one-row matrices,
  the column means Σz/n from the column sums, and the column variances max(Σz²/n − (Σz/n)², 0)
  from the sums and the sums of squares.
-/
import proofs.«150636_j78039555768704_1_alg».proof.Proof.Gen.KernelIdeal
import proofs.«150636_j78039555768704_1_alg».proof.Proof.Spec

noncomputable section

namespace Cert.KernelIdeal.Val

open Cert.KernelIdeal Idealize.ShloMosaic

/-- A length-128 vector as a one-row matrix. -/
def rowvec128 (b : FVec Ideal S128 .f32) : FVec Ideal S1x128 .f32 := fun i => shapeCast S1x128 b Facts₀.shapeCasts_S128_S1x128 i
/-- A length-64 vector as a one-row matrix. -/
def rowvec64 (b : FVec Ideal S64 .f32) : FVec Ideal S1x64 .f32 := fun i => shapeCast S1x64 b Facts₀.shapeCasts_S64_S1x64 i
/-- The node count n = 50000 in every column. -/
def nrow : FVec Ideal S1x128 .f32 := broadcastInDim S1x128 ![] Facts₀.bcast_S_S1x128 (constant (F := Ideal) S_ .f32 0x47435000#32)
/-- Zero in every column. -/
def zrow : FVec Ideal S1x128 .f32 := broadcastInDim S1x128 ![] Facts₀.bcast_S_S1x128 (constant (F := Ideal) S_ .f32 0x00000000#32)
/-- The column means from the column sums: Σz / n. -/
def meanK (s : FVec Ideal S1x128 .f32) : FVec Ideal S1x128 .f32 := Host.divf (F := Ideal) s nrow
/-- The column variances from the sums and the sums of squares: max(Σz²/n − (Σz/n)², 0). -/
def varK (s q : FVec Ideal S1x128 .f32) : FVec Ideal S1x128 .f32 :=
  maximumf (subf (Host.divf (F := Ideal) q nrow) (mulf (meanK s) (meanK s))) zrow

end Cert.KernelIdeal.Val

end
-- ==== Proof.GraphChain.lean ====
/-
  The graph part of both programs, as named functions: the edge list with self-loops appended, the symmetric
  degree normalisation, and the normalised neighbourhood sum. Both programs apply these same host operations;
  naming them once lets every later step treat them as opaque functions of their operands.

  * `rowV e`, `colV e`   : source and target node of every edge, the `n` self-loops (i, i) appended.
  * `wrapIdx r`          : a node index below zero is shifted up by `n` (the indexing convention), as an index column.
  * `dinvV col`          : deg⁻¹ᐟ² per node, deg the number of edges arriving at it (zero where the degree is zero).
  * `coefV row col`      : the edge weight deg⁻¹ᐟ²(source) · deg⁻¹ᐟ²(target).
  * `aggV h coef row col`: node i receives Σ over edges arriving at i of weight · (row of h at the edge's source).
-/
import proofs.«150636_j78039555768704_1_alg».proof.Proof.Gen.ReferenceIdeal

noncomputable section

namespace Cert.ReferenceIdeal.Graph

open Cert.ReferenceIdeal Idealize.ShloMosaic
open Cert.ReferenceIdeal.Facts₀ Cert.ReferenceIdeal.Facts

variable {F : FTy → Type} [FloatOps F]

/-- Source node of every edge, then the self-loops' 0 … n−1. -/
def rowV (e : IVec S2x600000 32) : IVec S650000 32 :=
  concatenate S650000 0
    [⟨S600000, shapeCast S600000 (extractStridedSlice S1x600000 ![0, 0] e slices_S2x600000_S1x600000_0_0) shapeCasts_S1x600000_S600000⟩,
     ⟨S50000, iotaInDim S50000 32 0⟩] concatenates_S600000_S50000_S650000_d0

/-- Target node of every edge, then the self-loops' 0 … n−1. -/
def colV (e : IVec S2x600000 32) : IVec S650000 32 :=
  concatenate S650000 0
    [⟨S600000, shapeCast S600000 (extractStridedSlice S1x600000 ![1, 0] e slices_S2x600000_S1x600000_1_0) shapeCasts_S1x600000_S600000⟩,
     ⟨S50000, iotaInDim S50000 32 0⟩] concatenates_S600000_S50000_S650000_d0

/-- A negative node index is shifted up by the node count; the result as a one-column index array. -/
def wrapIdx (r : IVec S650000 32) : IVec S650000x1 32 :=
  broadcastInDim S650000x1 ![0] bcast_S650000_S650000x1_0
    (select (cmpi .slt r (broadcastInDim S650000 ![] bcast_S_S650000 (constantI S_ 32 0#32)))
      (addi r (broadcastInDim S650000 ![] bcast_S_S650000 (constantI S_ 32 50000#32))) r)

/-- The number of edges arriving at each node: ones accumulated at the target indices. -/
def degV (col : IVec S650000 32) : FVec F S50000 .f32 :=
  Host.scatterAdd scatter_S50000_S650000x1_S650000_n_0_0_1
    (broadcastInDim S50000 ![] bcast_S_S50000 (constant S_ .f32 0x00000000#32))
    (broadcastInDim S650000x1 ![0] bcast_S650000_S650000x1_0 col)
    (broadcastInDim S650000 ![] bcast_S_S650000 (constant S_ .f32 0x3F800000#32))

/-- deg⁻¹ᐟ² where the degree is positive (computed on max(deg, 1)), zero elsewhere. -/
def dinvV (col : IVec S650000 32) : FVec F S50000 .f32 :=
  select (cmpf .ogt (degV (F := F) col) (broadcastInDim S50000 ![] bcast_S_S50000 (constant S_ .f32 0x00000000#32)))
    (Host.rsqrt (maximumf (degV (F := F) col) (broadcastInDim S50000 ![] bcast_S_S50000 (constant S_ .f32 0x3F800000#32))))
    (broadcastInDim S50000 ![] bcast_S_S50000 (id (constant S_ .f32 0x00000000#32)))

/-- The weight of every edge: deg⁻¹ᐟ² at its source times deg⁻¹ᐟ² at its target. -/
def coefV (row col : IVec S650000 32) : FVec F S650000 .f32 :=
  mulf (Host.gather gather_S50000_S650000x1_S650000_n_0_n_n_0_1_1 (dinvV (F := F) col) (wrapIdx row))
    (Host.gather gather_S50000_S650000x1_S650000_n_0_n_n_0_1_1 (dinvV (F := F) col) (wrapIdx col))

/-- The normalised neighbourhood sum: every edge carries weight · (the source node's row of `h`) to its target. -/
def aggV (h : FVec F S50000x128 .f32) (coef : FVec F S650000 .f32) (row col : IVec S650000 32) : FVec F S50000x128 .f32 :=
  Host.scatterAdd scatter_S50000x128_S650000x1_S650000x128_1_0_0_1
    (broadcastInDim S50000x128 ![] bcast_S_S50000x128 (constant S_ .f32 0x00000000#32))
    (broadcastInDim S650000x1 ![0] bcast_S650000_S650000x1_0 col)
    (mulf (broadcastInDim S650000x128 ![0, 1] bcast_S650000x1_S650000x128_0_1
            (broadcastInDim S650000x1 ![0] bcast_S650000_S650000x1_0 coef))
      (Host.gather gather_S50000x128_S650000x1_S650000x128_1_0_n_n_0_1_1128 h (wrapIdx row)))

end Cert.ReferenceIdeal.Graph

end
-- ==== Proof.KValue.lean ====
/-
  The idealized kernel's value, piece by piece, as functions of the launch memory:
  with e the edge list and A the normalised adjacency action (the neighbourhood sum with the edge weights),
    h₁ = x·W₁,  z₁ = A h₁ + b₁,  μ₁ = Σz₁/n,  σ₁² = max(Σz₁²/n − μ₁², 0),
    x₁ = max(((z₁ − μ₁)·rsqrt(σ₁² + ε))·γ₁ + β₁, 0),   the same again from x₁ with the second layer's parameters,
    out = x₂·W_fc + b_fc.
-/
import proofs.«150636_j78039555768704_1_alg».proof.Proof.KStages
import proofs.«150636_j78039555768704_1_alg».proof.Proof.GraphChain

noncomputable section

namespace Cert.KernelIdeal.Val

open Cert.KernelIdeal Idealize.ShloMosaic Idealize.ShloMosaic.TcCoe Idealize.SL.Sem
open Cert.ReferenceIdeal.Graph (rowV colV wrapIdx degV dinvV coefV aggV)

section Values
variable (m : (ℓ : Loc nD τ sig) → Buf (Elt Ideal) ℓ) (c : Dev nD)

abbrev a0 : FVec Ideal S50000x128 .f32 := m ((c.tc : Thread nD τ).loc main_arg0)
abbrev a1 : IVec S2x600000 32 := m ((c.tc : Thread nD τ).loc main_arg1)
abbrev a2 : FVec Ideal S128x128 .f32 := m ((c.tc : Thread nD τ).loc main_arg2)
abbrev a3 : FVec Ideal S128 .f32 := m ((c.tc : Thread nD τ).loc main_arg3)
abbrev a4 : FVec Ideal S128 .f32 := m ((c.tc : Thread nD τ).loc main_arg4)
abbrev a5 : FVec Ideal S128 .f32 := m ((c.tc : Thread nD τ).loc main_arg5)
abbrev a6 : FVec Ideal S128x128 .f32 := m ((c.tc : Thread nD τ).loc main_arg6)
abbrev a7 : FVec Ideal S128 .f32 := m ((c.tc : Thread nD τ).loc main_arg7)
abbrev a8 : FVec Ideal S128 .f32 := m ((c.tc : Thread nD τ).loc main_arg8)
abbrev a9 : FVec Ideal S128 .f32 := m ((c.tc : Thread nD τ).loc main_arg9)
abbrev a10 : FVec Ideal S128x64 .f32 := m ((c.tc : Thread nD τ).loc main_arg10)
abbrev a11 : FVec Ideal S64 .f32 := m ((c.tc : Thread nD τ).loc main_arg11)

/-- Edge sources with self-loops. -/
def rowK : IVec S650000 32 := rowV (a1 m c)
/-- Edge targets with self-loops. -/
def colK : IVec S650000 32 := colV (a1 m c)
/-- Edge weights deg⁻¹ᐟ²(source)·deg⁻¹ᐟ²(target). -/
def coefK : FVec Ideal S650000 .f32 := coefV (F := Ideal) (rowK m c) (colK m c)
/-- First layer: x·W₁. -/
def h1 : FVec Ideal S50000x128 .f32 := Cert.Gcn.mm (a0 m c) (a2 m c)
/-- First layer's neighbourhood sum. -/
def agg1 : FVec Ideal S50000x128 .f32 := aggV (F := Ideal) (h1 m c) (coefK m c) (rowK m c) (colK m c)
def b1r : FVec Ideal S1x128 .f32 := rowvec128 (a3 m c)
def g1r : FVec Ideal S1x128 .f32 := rowvec128 (a4 m c)
def be1r : FVec Ideal S1x128 .f32 := rowvec128 (a5 m c)
/-- Column sums of z₁ = agg₁ + b₁. -/
def s1 : FVec Ideal S1x128 .f32 := Cert.Gcn.colSum (Cert.Gcn.addRow (agg1 m c) (b1r m c))
/-- Column sums of z₁². -/
def q1 : FVec Ideal S1x128 .f32 := Cert.Gcn.colSum (Cert.Gcn.sqr (Cert.Gcn.addRow (agg1 m c) (b1r m c)))
def mu1 : FVec Ideal S1x128 .f32 := meanK (s1 m c)
def var1 : FVec Ideal S1x128 .f32 := varK (s1 m c) (q1 m c)
/-- First layer's output. -/
def x1 : FVec Ideal S50000x128 .f32 := Cert.Gcn.bnRelu (agg1 m c) (b1r m c) (mu1 m c) (var1 m c) (g1r m c) (be1r m c)
/-- Second layer: x₁·W₂. -/
def h2 : FVec Ideal S50000x128 .f32 := Cert.Gcn.mm (x1 m c) (a6 m c)
def agg2 : FVec Ideal S50000x128 .f32 := aggV (F := Ideal) (h2 m c) (coefK m c) (rowK m c) (colK m c)
def b2r : FVec Ideal S1x128 .f32 := rowvec128 (a7 m c)
def g2r : FVec Ideal S1x128 .f32 := rowvec128 (a8 m c)
def be2r : FVec Ideal S1x128 .f32 := rowvec128 (a9 m c)
def s2 : FVec Ideal S1x128 .f32 := Cert.Gcn.colSum (Cert.Gcn.addRow (agg2 m c) (b2r m c))
def q2 : FVec Ideal S1x128 .f32 := Cert.Gcn.colSum (Cert.Gcn.sqr (Cert.Gcn.addRow (agg2 m c) (b2r m c)))
def mu2 : FVec Ideal S1x128 .f32 := meanK (s2 m c)
def var2 : FVec Ideal S1x128 .f32 := varK (s2 m c) (q2 m c)
/-- Second layer's output. -/
def x2 : FVec Ideal S50000x128 .f32 := Cert.Gcn.bnRelu (agg2 m c) (b2r m c) (mu2 m c) (var2 m c) (g2r m c) (be2r m c)
def bfr : FVec Ideal S1x64 .f32 := rowvec64 (a11 m c)
/-- The result: x₂·W_fc + b_fc. -/
def out : FVec Ideal S50000x64 .f32 := Cert.Gcn.addRow (Cert.Gcn.mm (x2 m c) (a10 m c)) (bfr m c)

end Values

end Cert.KernelIdeal.Val

end
-- ==== Proof.KernelVal.lean ====
/-
  The idealized kernel's result as ONE function of the twelve argument arrays.

  The program is fifteen segments: stretches of host operations and seven kernel regions. Its buffer contents at
  every segment boundary are a fold from the launch memory. Here the fold is read at the buffers that matter,
  boundary by boundary: a host stretch applies its operations to the buffers it reads (everything else is kept),
  a region leaves each output array at the whole-array function its grid of blocks computes (the seven region
  facts, taken as hypotheses `RegionFinals` and supplied by the region modules) and keeps every other buffer.

  In the mathematics' own words, with e the edge list, A the normalised adjacency action `aggV · coef row col`:
    h₁ = x·W₁,  z₁ = A h₁ (+ b₁ rowwise),  μ₁ = Σz₁/n,  σ₁² = max(Σz₁²/n − μ₁², 0),
    x₁ = max(((z₁ − μ₁)·rsqrt(σ₁² + ε))·γ₁ + β₁, 0),   the same again from x₁ with the second layer's parameters,
    out = x₂·W_fc + b_fc.
-/
import proofs.«150636_j78039555768704_1_alg».proof.Proof.Gen.KernelIdeal.Frame
import proofs.«150636_j78039555768704_1_alg».proof.Proof.KValue
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.ReferenceIdeal.Graph (rowV colV wrapIdx degV dinvV coefV aggV)

/-- What each region leaves in its output arrays, as whole-array functions of the arrays it finds at entry. -/
structure RegionFinals : Prop where
  final0 : ∀ (V : (c : Dev nD) → (b : Ref sig .tc) → Buf (Elt Ideal) ((c : Thread nD τ).loc b)) (c : Dev nD),
    (Gen.dat0 (F := Ideal) V c).arrAt 2 cfg0.N = Cert.Gcn.mm (V c main_arg0) (V c main_arg2)
  final1_sum : ∀ (V : (c : Dev nD) → (b : Ref sig .tc) → Buf (Elt Ideal) ((c : Thread nD τ).loc b)) (c : Dev nD),
    (Gen.dat1 (F := Ideal) V c).arrAt 2 cfg1.N = Cert.Gcn.colSum (Cert.Gcn.addRow (V c main_v45) (V c main_v46))
  final1_sq : ∀ (V : (c : Dev nD) → (b : Ref sig .tc) → Buf (Elt Ideal) ((c : Thread nD τ).loc b)) (c : Dev nD),
    (Gen.dat1 (F := Ideal) V c).arrAt 3 cfg1.N = Cert.Gcn.colSum (Cert.Gcn.sqr (Cert.Gcn.addRow (V c main_v45) (V c main_v46)))
  final2 : ∀ (V : (c : Dev nD) → (b : Ref sig .tc) → Buf (Elt Ideal) ((c : Thread nD τ).loc b)) (c : Dev nD),
    (Gen.dat2 (F := Ideal) V c).arrAt 6 cfg2.N = Cert.Gcn.bnRelu (V c main_v45) (V c main_v56) (V c main_v49) (V c main_v55) (V c main_v57) (V c main_v58)
  final3 : ∀ (V : (c : Dev nD) → (b : Ref sig .tc) → Buf (Elt Ideal) ((c : Thread nD τ).loc b)) (c : Dev nD),
    (Gen.dat3 (F := Ideal) V c).arrAt 2 cfg3.N = Cert.Gcn.mm (V c main_v59) (V c main_arg6)
  final4_sum : ∀ (V : (c : Dev nD) → (b : Ref sig .tc) → Buf (Elt Ideal) ((c : Thread nD τ).loc b)) (c : Dev nD),
    (Gen.dat4 (F := Ideal) V c).arrAt 2 cfg4.N = Cert.Gcn.colSum (Cert.Gcn.addRow (V c main_v73) (V c main_v74))
  final4_sq : ∀ (V : (c : Dev nD) → (b : Ref sig .tc) → Buf (Elt Ideal) ((c : Thread nD τ).loc b)) (c : Dev nD),
    (Gen.dat4 (F := Ideal) V c).arrAt 3 cfg4.N = Cert.Gcn.colSum (Cert.Gcn.sqr (Cert.Gcn.addRow (V c main_v73) (V c main_v74)))
  final5 : ∀ (V : (c : Dev nD) → (b : Ref sig .tc) → Buf (Elt Ideal) ((c : Thread nD τ).loc b)) (c : Dev nD),
    (Gen.dat5 (F := Ideal) V c).arrAt 6 cfg5.N = Cert.Gcn.bnRelu (V c main_v73) (V c main_v84) (V c main_v77) (V c main_v83) (V c main_v85) (V c main_v86)
  final6 : ∀ (V : (c : Dev nD) → (b : Ref sig .tc) → Buf (Elt Ideal) ((c : Thread nD τ).loc b)) (c : Dev nD),
    (Gen.dat6 (F := Ideal) V c).arrAt 3 cfg6.N = Cert.Gcn.addRow (Cert.Gcn.mm (V c main_v87) (V c main_arg10)) (V c main_v88)

/-! ## The fold, read boundary by boundary -/

section Fold
variable (hf : RegionFinals)
variable (m : (ℓ : Loc nD τ sig) → Buf (Elt Ideal) ℓ) (ρ : Dev nD → PrngReg) (c : Dev nD)
include hf

/-! ### Boundary 3: the three leading host stretches, from the launch memory -/
theorem L3_arg0 : W3 m ρ c (Proc.devRef .tc main_arg0) = a0 m c := by
  show StableHlo.after hostOps0_2 (StableHlo.after hostOps0_1 (StableHlo.after hostOps0 (W0 m ρ c))) _ = _
  after_results_simp
  try rfl
theorem L3_arg2 : W3 m ρ c (Proc.devRef .tc main_arg2) = a2 m c := by
  show StableHlo.after hostOps0_2 (StableHlo.after hostOps0_1 (StableHlo.after hostOps0 (W0 m ρ c))) _ = _
  after_results_simp
  try rfl
theorem L3_arg3 : W3 m ρ c (Proc.devRef .tc main_arg3) = a3 m c := by
  show StableHlo.after hostOps0_2 (StableHlo.after hostOps0_1 (StableHlo.after hostOps0 (W0 m ρ c))) _ = _
  after_results_simp
  try rfl
theorem L3_arg4 : W3 m ρ c (Proc.devRef .tc main_arg4) = a4 m c := by
  show StableHlo.after hostOps0_2 (StableHlo.after hostOps0_1 (StableHlo.after hostOps0 (W0 m ρ c))) _ = _
  after_results_simp
  try rfl
theorem L3_arg5 : W3 m ρ c (Proc.devRef .tc main_arg5) = a5 m c := by
  show StableHlo.after hostOps0_2 (StableHlo.after hostOps0_1 (StableHlo.after hostOps0 (W0 m ρ c))) _ = _
  after_results_simp
  try rfl
theorem L3_arg6 : W3 m ρ c (Proc.devRef .tc main_arg6) = a6 m c := by
  show StableHlo.after hostOps0_2 (StableHlo.after hostOps0_1 (StableHlo.after hostOps0 (W0 m ρ c))) _ = _
  after_results_simp
  try rfl
theorem L3_arg7 : W3 m ρ c (Proc.devRef .tc main_arg7) = a7 m c := by
  show StableHlo.after hostOps0_2 (StableHlo.after hostOps0_1 (StableHlo.after hostOps0 (W0 m ρ c))) _ = _
  after_results_simp
  try rfl
theorem L3_arg8 : W3 m ρ c (Proc.devRef .tc main_arg8) = a8 m c := by
  show StableHlo.after hostOps0_2 (StableHlo.after hostOps0_1 (StableHlo.after hostOps0 (W0 m ρ c))) _ = _
  after_results_simp
  try rfl
theorem L3_arg9 : W3 m ρ c (Proc.devRef .tc main_arg9) = a9 m c := by
  show StableHlo.after hostOps0_2 (StableHlo.after hostOps0_1 (StableHlo.after hostOps0 (W0 m ρ c))) _ = _
  after_results_simp
  try rfl
theorem L3_arg10 : W3 m ρ c (Proc.devRef .tc main_arg10) = a10 m c := by
  show StableHlo.after hostOps0_2 (StableHlo.after hostOps0_1 (StableHlo.after hostOps0 (W0 m ρ c))) _ = _
  after_results_simp
  try rfl
theorem L3_arg11 : W3 m ρ c (Proc.devRef .tc main_arg11) = a11 m c := by
  show StableHlo.after hostOps0_2 (StableHlo.after hostOps0_1 (StableHlo.after hostOps0 (W0 m ρ c))) _ = _
  after_results_simp
  try rfl
theorem L3_v3 : W3 m ρ c (Proc.devRef .tc main_v3) = rowK m c := by
  show StableHlo.after hostOps0_2 (StableHlo.after hostOps0_1 (StableHlo.after hostOps0 (W0 m ρ c))) _ = _
  after_results_simp
  try rfl
theorem L3_v6 : W3 m ρ c (Proc.devRef .tc main_v6) = colK m c := by
  show StableHlo.after hostOps0_2 (StableHlo.after hostOps0_1 (StableHlo.after hostOps0 (W0 m ρ c))) _ = _
  after_results_simp
  try rfl
/-! The edge weights, stretch by stretch: the degrees and their comparison and inverse root after the first
    stretch, the selected inverse root after the second, the product of the two gathered factors after the third. -/

theorem L1_v3 : W1 m ρ c (Proc.devRef .tc main_v3) = rowK m c := by
  show StableHlo.after hostOps0 (W0 m ρ c) _ = _
  after_results_simp
  try rfl
theorem L1_v6 : W1 m ρ c (Proc.devRef .tc main_v6) = colK m c := by
  show StableHlo.after hostOps0 (W0 m ρ c) _ = _
  after_results_simp
  try rfl
theorem L1_v12 : W1 m ρ c (Proc.devRef .tc main_v12)
    = cmpf .ogt (degV (F := Ideal) (colK m c))
        (broadcastInDim S50000 ![] Facts₀.bcast_S_S50000 (constant (F := Ideal) S_ .f32 0x00000000#32)) := by
  show StableHlo.after hostOps0 (W0 m ρ c) _ = _
  after_results_simp
  try rfl
theorem L1_v15 : W1 m ρ c (Proc.devRef .tc main_v15)
    = Host.rsqrt (maximumf (degV (F := Ideal) (colK m c))
        (broadcastInDim S50000 ![] Facts₀.bcast_S_S50000 (constant (F := Ideal) S_ .f32 0x3F800000#32))) := by
  show StableHlo.after hostOps0 (W0 m ρ c) _ = _
  after_results_simp
  try rfl
theorem L1_cst_3 : W1 m ρ c (Proc.devRef .tc main_cst_3) = constant (F := Ideal) S_ .f32 0x00000000#32 := by
  show StableHlo.after hostOps0 (W0 m ρ c) _ = _
  after_results_simp
  try rfl

attribute [local irreducible] degV Host.rsqrt maximumf broadcastInDim constant cmpf select in
theorem L2_v16 : W2 m ρ c (Proc.devRef .tc main_v16) = dinvV (F := Ideal) (colK m c) := by
  have h12 := L1_v12 hf m ρ c
  have h15 := L1_v15 hf m ρ c
  have hc3 := L1_cst_3 hf m ρ c
  show StableHlo.after hostOps0_1 (W1 m ρ c) _ = _
  generalize W1 m ρ c = Wx at h12 h15 hc3 ⊢
  after_results_simp
  rw [h12, h15, hc3]
  rfl
theorem L2_v3 : W2 m ρ c (Proc.devRef .tc main_v3) = rowK m c := by
  have h := L1_v3 hf m ρ c
  show StableHlo.after hostOps0_1 (W1 m ρ c) _ = _
  generalize W1 m ρ c = Wx at h ⊢
  after_results_simp
  exact h
theorem L2_v6 : W2 m ρ c (Proc.devRef .tc main_v6) = colK m c := by
  have h := L1_v6 hf m ρ c
  show StableHlo.after hostOps0_1 (W1 m ρ c) _ = _
  generalize W1 m ρ c = Wx at h ⊢
  after_results_simp
  exact h

theorem L3_v31 : W3 m ρ c (Proc.devRef .tc main_v31) = coefK m c := by
  have h16 := L2_v16 hf m ρ c
  have h3 := L2_v3 hf m ρ c
  have h6 := L2_v6 hf m ρ c
  show StableHlo.after hostOps0_2 (W2 m ρ c) _ = _
  generalize W2 m ρ c = Wx at h16 h3 h6 ⊢
  after_results_simp
  rw [h16, h3, h6]
  rfl

/-! ### Boundary 4 -/
theorem L4_v32 : W4 m ρ c (Proc.devRef .tc main_v32) = h1 m c :=
  (W4_arr m ρ c 2).trans ((hf.final0 (V3 m ρ) c).trans (by
    rw [show V3 m ρ c main_arg0 = a0 m c from L3_arg0 hf m ρ c, show V3 m ρ c main_arg2 = a2 m c from L3_arg2 hf m ρ c]
    try rfl))
theorem L4_v3 : W4 m ρ c (Proc.devRef .tc main_v3) = rowK m c :=
  (W4_of_ne m ρ c main_v3 (by decide)).trans (L3_v3 hf m ρ c)
theorem L4_v6 : W4 m ρ c (Proc.devRef .tc main_v6) = colK m c :=
  (W4_of_ne m ρ c main_v6 (by decide)).trans (L3_v6 hf m ρ c)
theorem L4_v31 : W4 m ρ c (Proc.devRef .tc main_v31) = coefK m c :=
  (W4_of_ne m ρ c main_v31 (by decide)).trans (L3_v31 hf m ρ c)
theorem L4_arg3 : W4 m ρ c (Proc.devRef .tc main_arg3) = a3 m c :=
  (W4_of_ne m ρ c main_arg3 (by decide)).trans (L3_arg3 hf m ρ c)
theorem L4_arg4 : W4 m ρ c (Proc.devRef .tc main_arg4) = a4 m c :=
  (W4_of_ne m ρ c main_arg4 (by decide)).trans (L3_arg4 hf m ρ c)
theorem L4_arg5 : W4 m ρ c (Proc.devRef .tc main_arg5) = a5 m c :=
  (W4_of_ne m ρ c main_arg5 (by decide)).trans (L3_arg5 hf m ρ c)
theorem L4_arg6 : W4 m ρ c (Proc.devRef .tc main_arg6) = a6 m c :=
  (W4_of_ne m ρ c main_arg6 (by decide)).trans (L3_arg6 hf m ρ c)
theorem L4_arg7 : W4 m ρ c (Proc.devRef .tc main_arg7) = a7 m c :=
  (W4_of_ne m ρ c main_arg7 (by decide)).trans (L3_arg7 hf m ρ c)
theorem L4_arg8 : W4 m ρ c (Proc.devRef .tc main_arg8) = a8 m c :=
  (W4_of_ne m ρ c main_arg8 (by decide)).trans (L3_arg8 hf m ρ c)
theorem L4_arg9 : W4 m ρ c (Proc.devRef .tc main_arg9) = a9 m c :=
  (W4_of_ne m ρ c main_arg9 (by decide)).trans (L3_arg9 hf m ρ c)
theorem L4_arg10 : W4 m ρ c (Proc.devRef .tc main_arg10) = a10 m c :=
  (W4_of_ne m ρ c main_arg10 (by decide)).trans (L3_arg10 hf m ρ c)
theorem L4_arg11 : W4 m ρ c (Proc.devRef .tc main_arg11) = a11 m c :=
  (W4_of_ne m ρ c main_arg11 (by decide)).trans (L3_arg11 hf m ρ c)

/-! ### Boundary 5 -/
theorem L5_v45 : W5 m ρ c (Proc.devRef .tc main_v45) = agg1 m c := by
  show StableHlo.after hostOps1 (W4 m ρ c) _ = _
  after_results_simp
  rw [L4_v32 hf m ρ c, L4_v31 hf m ρ c, L4_v3 hf m ρ c, L4_v6 hf m ρ c]
  try rfl
theorem L5_v46 : W5 m ρ c (Proc.devRef .tc main_v46) = b1r m c := by
  show StableHlo.after hostOps1 (W4 m ρ c) _ = _
  after_results_simp
  rw [L4_arg3 hf m ρ c]
  try rfl
theorem L5_v3 : W5 m ρ c (Proc.devRef .tc main_v3) = rowK m c := by
  show StableHlo.after hostOps1 (W4 m ρ c) _ = _
  after_results_simp
  exact L4_v3 hf m ρ c
theorem L5_v6 : W5 m ρ c (Proc.devRef .tc main_v6) = colK m c := by
  show StableHlo.after hostOps1 (W4 m ρ c) _ = _
  after_results_simp
  exact L4_v6 hf m ρ c
theorem L5_v31 : W5 m ρ c (Proc.devRef .tc main_v31) = coefK m c := by
  show StableHlo.after hostOps1 (W4 m ρ c) _ = _
  after_results_simp
  exact L4_v31 hf m ρ c
theorem L5_arg3 : W5 m ρ c (Proc.devRef .tc main_arg3) = a3 m c := by
  show StableHlo.after hostOps1 (W4 m ρ c) _ = _
  after_results_simp
  exact L4_arg3 hf m ρ c
theorem L5_arg4 : W5 m ρ c (Proc.devRef .tc main_arg4) = a4 m c := by
  show StableHlo.after hostOps1 (W4 m ρ c) _ = _
  after_results_simp
  exact L4_arg4 hf m ρ c
theorem L5_arg5 : W5 m ρ c (Proc.devRef .tc main_arg5) = a5 m c := by
  show StableHlo.after hostOps1 (W4 m ρ c) _ = _
  after_results_simp
  exact L4_arg5 hf m ρ c
theorem L5_arg6 : W5 m ρ c (Proc.devRef .tc main_arg6) = a6 m c := by
  show StableHlo.after hostOps1 (W4 m ρ c) _ = _
  after_results_simp
  exact L4_arg6 hf m ρ c
theorem L5_arg7 : W5 m ρ c (Proc.devRef .tc main_arg7) = a7 m c := by
  show StableHlo.after hostOps1 (W4 m ρ c) _ = _
  after_results_simp
  exact L4_arg7 hf m ρ c
theorem L5_arg8 : W5 m ρ c (Proc.devRef .tc main_arg8) = a8 m c := by
  show StableHlo.after hostOps1 (W4 m ρ c) _ = _
  after_results_simp
  exact L4_arg8 hf m ρ c
theorem L5_arg9 : W5 m ρ c (Proc.devRef .tc main_arg9) = a9 m c := by
  show StableHlo.after hostOps1 (W4 m ρ c) _ = _
  after_results_simp
  exact L4_arg9 hf m ρ c
theorem L5_arg10 : W5 m ρ c (Proc.devRef .tc main_arg10) = a10 m c := by
  show StableHlo.after hostOps1 (W4 m ρ c) _ = _
  after_results_simp
  exact L4_arg10 hf m ρ c
theorem L5_arg11 : W5 m ρ c (Proc.devRef .tc main_arg11) = a11 m c := by
  show StableHlo.after hostOps1 (W4 m ρ c) _ = _
  after_results_simp
  exact L4_arg11 hf m ρ c

/-! ### Boundary 6 -/
theorem L6_v47_0 : W6 m ρ c (Proc.devRef .tc main_v47_0) = s1 m c :=
  (W6_arr m ρ c 2).trans ((hf.final1_sum (V5 m ρ) c).trans (by
    rw [show V5 m ρ c main_v45 = agg1 m c from L5_v45 hf m ρ c, show V5 m ρ c main_v46 = b1r m c from L5_v46 hf m ρ c]
    try rfl))
theorem L6_v47_1 : W6 m ρ c (Proc.devRef .tc main_v47_1) = q1 m c :=
  (W6_arr m ρ c 3).trans ((hf.final1_sq (V5 m ρ) c).trans (by
    rw [show V5 m ρ c main_v45 = agg1 m c from L5_v45 hf m ρ c, show V5 m ρ c main_v46 = b1r m c from L5_v46 hf m ρ c]
    try rfl))
theorem L6_v45 : W6 m ρ c (Proc.devRef .tc main_v45) = agg1 m c :=
  ((W6_arr m ρ c 0).trans (((dat1 (V5 m ρ) c).arrAt_in 0 rfl _).trans (A_eq1 (V5 m ρ) c 0))).trans (L5_v45 hf m ρ c)
theorem L6_v3 : W6 m ρ c (Proc.devRef .tc main_v3) = rowK m c :=
  (W6_of_ne m ρ c main_v3 (by decide)).trans (L5_v3 hf m ρ c)
theorem L6_v6 : W6 m ρ c (Proc.devRef .tc main_v6) = colK m c :=
  (W6_of_ne m ρ c main_v6 (by decide)).trans (L5_v6 hf m ρ c)
theorem L6_v31 : W6 m ρ c (Proc.devRef .tc main_v31) = coefK m c :=
  (W6_of_ne m ρ c main_v31 (by decide)).trans (L5_v31 hf m ρ c)
theorem L6_arg3 : W6 m ρ c (Proc.devRef .tc main_arg3) = a3 m c :=
  (W6_of_ne m ρ c main_arg3 (by decide)).trans (L5_arg3 hf m ρ c)
theorem L6_arg4 : W6 m ρ c (Proc.devRef .tc main_arg4) = a4 m c :=
  (W6_of_ne m ρ c main_arg4 (by decide)).trans (L5_arg4 hf m ρ c)
theorem L6_arg5 : W6 m ρ c (Proc.devRef .tc main_arg5) = a5 m c :=
  (W6_of_ne m ρ c main_arg5 (by decide)).trans (L5_arg5 hf m ρ c)
theorem L6_arg6 : W6 m ρ c (Proc.devRef .tc main_arg6) = a6 m c :=
  (W6_of_ne m ρ c main_arg6 (by decide)).trans (L5_arg6 hf m ρ c)
theorem L6_arg7 : W6 m ρ c (Proc.devRef .tc main_arg7) = a7 m c :=
  (W6_of_ne m ρ c main_arg7 (by decide)).trans (L5_arg7 hf m ρ c)
theorem L6_arg8 : W6 m ρ c (Proc.devRef .tc main_arg8) = a8 m c :=
  (W6_of_ne m ρ c main_arg8 (by decide)).trans (L5_arg8 hf m ρ c)
theorem L6_arg9 : W6 m ρ c (Proc.devRef .tc main_arg9) = a9 m c :=
  (W6_of_ne m ρ c main_arg9 (by decide)).trans (L5_arg9 hf m ρ c)
theorem L6_arg10 : W6 m ρ c (Proc.devRef .tc main_arg10) = a10 m c :=
  (W6_of_ne m ρ c main_arg10 (by decide)).trans (L5_arg10 hf m ρ c)
theorem L6_arg11 : W6 m ρ c (Proc.devRef .tc main_arg11) = a11 m c :=
  (W6_of_ne m ρ c main_arg11 (by decide)).trans (L5_arg11 hf m ρ c)

/-! ### Boundary 7 -/
theorem L7_v49 : W7 m ρ c (Proc.devRef .tc main_v49) = mu1 m c := by
  show StableHlo.after hostOps2 (W6 m ρ c) _ = _
  after_results_simp
  rw [L6_v47_0 hf m ρ c]
  try rfl
theorem L7_v55 : W7 m ρ c (Proc.devRef .tc main_v55) = var1 m c := by
  show StableHlo.after hostOps2 (W6 m ρ c) _ = _
  after_results_simp
  rw [L6_v47_0 hf m ρ c, L6_v47_1 hf m ρ c]
  try rfl
theorem L7_v56 : W7 m ρ c (Proc.devRef .tc main_v56) = b1r m c := by
  show StableHlo.after hostOps2 (W6 m ρ c) _ = _
  after_results_simp
  rw [L6_arg3 hf m ρ c]
  try rfl
theorem L7_v57 : W7 m ρ c (Proc.devRef .tc main_v57) = g1r m c := by
  show StableHlo.after hostOps2 (W6 m ρ c) _ = _
  after_results_simp
  rw [L6_arg4 hf m ρ c]
  try rfl
theorem L7_v58 : W7 m ρ c (Proc.devRef .tc main_v58) = be1r m c := by
  show StableHlo.after hostOps2 (W6 m ρ c) _ = _
  after_results_simp
  rw [L6_arg5 hf m ρ c]
  try rfl
theorem L7_v45 : W7 m ρ c (Proc.devRef .tc main_v45) = agg1 m c := by
  show StableHlo.after hostOps2 (W6 m ρ c) _ = _
  after_results_simp
  exact L6_v45 hf m ρ c
theorem L7_v3 : W7 m ρ c (Proc.devRef .tc main_v3) = rowK m c := by
  show StableHlo.after hostOps2 (W6 m ρ c) _ = _
  after_results_simp
  exact L6_v3 hf m ρ c
theorem L7_v6 : W7 m ρ c (Proc.devRef .tc main_v6) = colK m c := by
  show StableHlo.after hostOps2 (W6 m ρ c) _ = _
  after_results_simp
  exact L6_v6 hf m ρ c
theorem L7_v31 : W7 m ρ c (Proc.devRef .tc main_v31) = coefK m c := by
  show StableHlo.after hostOps2 (W6 m ρ c) _ = _
  after_results_simp
  exact L6_v31 hf m ρ c
theorem L7_arg6 : W7 m ρ c (Proc.devRef .tc main_arg6) = a6 m c := by
  show StableHlo.after hostOps2 (W6 m ρ c) _ = _
  after_results_simp
  exact L6_arg6 hf m ρ c
theorem L7_arg7 : W7 m ρ c (Proc.devRef .tc main_arg7) = a7 m c := by
  show StableHlo.after hostOps2 (W6 m ρ c) _ = _
  after_results_simp
  exact L6_arg7 hf m ρ c
theorem L7_arg8 : W7 m ρ c (Proc.devRef .tc main_arg8) = a8 m c := by
  show StableHlo.after hostOps2 (W6 m ρ c) _ = _
  after_results_simp
  exact L6_arg8 hf m ρ c
theorem L7_arg9 : W7 m ρ c (Proc.devRef .tc main_arg9) = a9 m c := by
  show StableHlo.after hostOps2 (W6 m ρ c) _ = _
  after_results_simp
  exact L6_arg9 hf m ρ c
theorem L7_arg10 : W7 m ρ c (Proc.devRef .tc main_arg10) = a10 m c := by
  show StableHlo.after hostOps2 (W6 m ρ c) _ = _
  after_results_simp
  exact L6_arg10 hf m ρ c
theorem L7_arg11 : W7 m ρ c (Proc.devRef .tc main_arg11) = a11 m c := by
  show StableHlo.after hostOps2 (W6 m ρ c) _ = _
  after_results_simp
  exact L6_arg11 hf m ρ c

/-! ### Boundary 8 -/
theorem L8_v59 : W8 m ρ c (Proc.devRef .tc main_v59) = x1 m c :=
  (W8_arr m ρ c 6).trans ((hf.final2 (V7 m ρ) c).trans (by
    rw [show V7 m ρ c main_v45 = agg1 m c from L7_v45 hf m ρ c, show V7 m ρ c main_v56 = b1r m c from L7_v56 hf m ρ c, show V7 m ρ c main_v49 = mu1 m c from L7_v49 hf m ρ c, show V7 m ρ c main_v55 = var1 m c from L7_v55 hf m ρ c, show V7 m ρ c main_v57 = g1r m c from L7_v57 hf m ρ c, show V7 m ρ c main_v58 = be1r m c from L7_v58 hf m ρ c]
    try rfl))
theorem L8_v3 : W8 m ρ c (Proc.devRef .tc main_v3) = rowK m c :=
  (W8_of_ne m ρ c main_v3 (by decide)).trans (L7_v3 hf m ρ c)
theorem L8_v6 : W8 m ρ c (Proc.devRef .tc main_v6) = colK m c :=
  (W8_of_ne m ρ c main_v6 (by decide)).trans (L7_v6 hf m ρ c)
theorem L8_v31 : W8 m ρ c (Proc.devRef .tc main_v31) = coefK m c :=
  (W8_of_ne m ρ c main_v31 (by decide)).trans (L7_v31 hf m ρ c)
theorem L8_arg6 : W8 m ρ c (Proc.devRef .tc main_arg6) = a6 m c :=
  (W8_of_ne m ρ c main_arg6 (by decide)).trans (L7_arg6 hf m ρ c)
theorem L8_arg7 : W8 m ρ c (Proc.devRef .tc main_arg7) = a7 m c :=
  (W8_of_ne m ρ c main_arg7 (by decide)).trans (L7_arg7 hf m ρ c)
theorem L8_arg8 : W8 m ρ c (Proc.devRef .tc main_arg8) = a8 m c :=
  (W8_of_ne m ρ c main_arg8 (by decide)).trans (L7_arg8 hf m ρ c)
theorem L8_arg9 : W8 m ρ c (Proc.devRef .tc main_arg9) = a9 m c :=
  (W8_of_ne m ρ c main_arg9 (by decide)).trans (L7_arg9 hf m ρ c)
theorem L8_arg10 : W8 m ρ c (Proc.devRef .tc main_arg10) = a10 m c :=
  (W8_of_ne m ρ c main_arg10 (by decide)).trans (L7_arg10 hf m ρ c)
theorem L8_arg11 : W8 m ρ c (Proc.devRef .tc main_arg11) = a11 m c :=
  (W8_of_ne m ρ c main_arg11 (by decide)).trans (L7_arg11 hf m ρ c)

/-! ### Boundary 9 -/
theorem L9_v60 : W9 m ρ c (Proc.devRef .tc main_v60) = h2 m c :=
  (W9_arr m ρ c 2).trans ((hf.final3 (V8 m ρ) c).trans (by
    rw [show V8 m ρ c main_v59 = x1 m c from L8_v59 hf m ρ c, show V8 m ρ c main_arg6 = a6 m c from L8_arg6 hf m ρ c]
    try rfl))
theorem L9_v3 : W9 m ρ c (Proc.devRef .tc main_v3) = rowK m c :=
  (W9_of_ne m ρ c main_v3 (by decide)).trans (L8_v3 hf m ρ c)
theorem L9_v6 : W9 m ρ c (Proc.devRef .tc main_v6) = colK m c :=
  (W9_of_ne m ρ c main_v6 (by decide)).trans (L8_v6 hf m ρ c)
theorem L9_v31 : W9 m ρ c (Proc.devRef .tc main_v31) = coefK m c :=
  (W9_of_ne m ρ c main_v31 (by decide)).trans (L8_v31 hf m ρ c)
theorem L9_arg7 : W9 m ρ c (Proc.devRef .tc main_arg7) = a7 m c :=
  (W9_of_ne m ρ c main_arg7 (by decide)).trans (L8_arg7 hf m ρ c)
theorem L9_arg8 : W9 m ρ c (Proc.devRef .tc main_arg8) = a8 m c :=
  (W9_of_ne m ρ c main_arg8 (by decide)).trans (L8_arg8 hf m ρ c)
theorem L9_arg9 : W9 m ρ c (Proc.devRef .tc main_arg9) = a9 m c :=
  (W9_of_ne m ρ c main_arg9 (by decide)).trans (L8_arg9 hf m ρ c)
theorem L9_arg10 : W9 m ρ c (Proc.devRef .tc main_arg10) = a10 m c :=
  (W9_of_ne m ρ c main_arg10 (by decide)).trans (L8_arg10 hf m ρ c)
theorem L9_arg11 : W9 m ρ c (Proc.devRef .tc main_arg11) = a11 m c :=
  (W9_of_ne m ρ c main_arg11 (by decide)).trans (L8_arg11 hf m ρ c)

/-! ### Boundary 10 -/
theorem L10_v73 : W10 m ρ c (Proc.devRef .tc main_v73) = agg2 m c := by
  show StableHlo.after hostOps4 (W9 m ρ c) _ = _
  after_results_simp
  rw [L9_v60 hf m ρ c, L9_v31 hf m ρ c, L9_v3 hf m ρ c, L9_v6 hf m ρ c]
  try rfl
theorem L10_v74 : W10 m ρ c (Proc.devRef .tc main_v74) = b2r m c := by
  show StableHlo.after hostOps4 (W9 m ρ c) _ = _
  after_results_simp
  rw [L9_arg7 hf m ρ c]
  try rfl
theorem L10_arg7 : W10 m ρ c (Proc.devRef .tc main_arg7) = a7 m c := by
  show StableHlo.after hostOps4 (W9 m ρ c) _ = _
  after_results_simp
  exact L9_arg7 hf m ρ c
theorem L10_arg8 : W10 m ρ c (Proc.devRef .tc main_arg8) = a8 m c := by
  show StableHlo.after hostOps4 (W9 m ρ c) _ = _
  after_results_simp
  exact L9_arg8 hf m ρ c
theorem L10_arg9 : W10 m ρ c (Proc.devRef .tc main_arg9) = a9 m c := by
  show StableHlo.after hostOps4 (W9 m ρ c) _ = _
  after_results_simp
  exact L9_arg9 hf m ρ c
theorem L10_arg10 : W10 m ρ c (Proc.devRef .tc main_arg10) = a10 m c := by
  show StableHlo.after hostOps4 (W9 m ρ c) _ = _
  after_results_simp
  exact L9_arg10 hf m ρ c
theorem L10_arg11 : W10 m ρ c (Proc.devRef .tc main_arg11) = a11 m c := by
  show StableHlo.after hostOps4 (W9 m ρ c) _ = _
  after_results_simp
  exact L9_arg11 hf m ρ c

/-! ### Boundary 11 -/
theorem L11_v75_0 : W11 m ρ c (Proc.devRef .tc main_v75_0) = s2 m c :=
  (W11_arr m ρ c 2).trans ((hf.final4_sum (V10 m ρ) c).trans (by
    rw [show V10 m ρ c main_v73 = agg2 m c from L10_v73 hf m ρ c, show V10 m ρ c main_v74 = b2r m c from L10_v74 hf m ρ c]
    try rfl))
theorem L11_v75_1 : W11 m ρ c (Proc.devRef .tc main_v75_1) = q2 m c :=
  (W11_arr m ρ c 3).trans ((hf.final4_sq (V10 m ρ) c).trans (by
    rw [show V10 m ρ c main_v73 = agg2 m c from L10_v73 hf m ρ c, show V10 m ρ c main_v74 = b2r m c from L10_v74 hf m ρ c]
    try rfl))
theorem L11_v73 : W11 m ρ c (Proc.devRef .tc main_v73) = agg2 m c :=
  ((W11_arr m ρ c 0).trans (((dat4 (V10 m ρ) c).arrAt_in 0 rfl _).trans (A_eq4 (V10 m ρ) c 0))).trans (L10_v73 hf m ρ c)
theorem L11_arg7 : W11 m ρ c (Proc.devRef .tc main_arg7) = a7 m c :=
  (W11_of_ne m ρ c main_arg7 (by decide)).trans (L10_arg7 hf m ρ c)
theorem L11_arg8 : W11 m ρ c (Proc.devRef .tc main_arg8) = a8 m c :=
  (W11_of_ne m ρ c main_arg8 (by decide)).trans (L10_arg8 hf m ρ c)
theorem L11_arg9 : W11 m ρ c (Proc.devRef .tc main_arg9) = a9 m c :=
  (W11_of_ne m ρ c main_arg9 (by decide)).trans (L10_arg9 hf m ρ c)
theorem L11_arg10 : W11 m ρ c (Proc.devRef .tc main_arg10) = a10 m c :=
  (W11_of_ne m ρ c main_arg10 (by decide)).trans (L10_arg10 hf m ρ c)
theorem L11_arg11 : W11 m ρ c (Proc.devRef .tc main_arg11) = a11 m c :=
  (W11_of_ne m ρ c main_arg11 (by decide)).trans (L10_arg11 hf m ρ c)

/-! ### Boundary 12 -/
theorem L12_v77 : W12 m ρ c (Proc.devRef .tc main_v77) = mu2 m c := by
  show StableHlo.after hostOps5 (W11 m ρ c) _ = _
  after_results_simp
  rw [L11_v75_0 hf m ρ c]
  try rfl
theorem L12_v83 : W12 m ρ c (Proc.devRef .tc main_v83) = var2 m c := by
  show StableHlo.after hostOps5 (W11 m ρ c) _ = _
  after_results_simp
  rw [L11_v75_0 hf m ρ c, L11_v75_1 hf m ρ c]
  try rfl
theorem L12_v84 : W12 m ρ c (Proc.devRef .tc main_v84) = b2r m c := by
  show StableHlo.after hostOps5 (W11 m ρ c) _ = _
  after_results_simp
  rw [L11_arg7 hf m ρ c]
  try rfl
theorem L12_v85 : W12 m ρ c (Proc.devRef .tc main_v85) = g2r m c := by
  show StableHlo.after hostOps5 (W11 m ρ c) _ = _
  after_results_simp
  rw [L11_arg8 hf m ρ c]
  try rfl
theorem L12_v86 : W12 m ρ c (Proc.devRef .tc main_v86) = be2r m c := by
  show StableHlo.after hostOps5 (W11 m ρ c) _ = _
  after_results_simp
  rw [L11_arg9 hf m ρ c]
  try rfl
theorem L12_v73 : W12 m ρ c (Proc.devRef .tc main_v73) = agg2 m c := by
  show StableHlo.after hostOps5 (W11 m ρ c) _ = _
  after_results_simp
  exact L11_v73 hf m ρ c
theorem L12_arg10 : W12 m ρ c (Proc.devRef .tc main_arg10) = a10 m c := by
  show StableHlo.after hostOps5 (W11 m ρ c) _ = _
  after_results_simp
  exact L11_arg10 hf m ρ c
theorem L12_arg11 : W12 m ρ c (Proc.devRef .tc main_arg11) = a11 m c := by
  show StableHlo.after hostOps5 (W11 m ρ c) _ = _
  after_results_simp
  exact L11_arg11 hf m ρ c

/-! ### Boundary 13 -/
theorem L13_v87 : W13 m ρ c (Proc.devRef .tc main_v87) = x2 m c :=
  (W13_arr m ρ c 6).trans ((hf.final5 (V12 m ρ) c).trans (by
    rw [show V12 m ρ c main_v73 = agg2 m c from L12_v73 hf m ρ c, show V12 m ρ c main_v84 = b2r m c from L12_v84 hf m ρ c, show V12 m ρ c main_v77 = mu2 m c from L12_v77 hf m ρ c, show V12 m ρ c main_v83 = var2 m c from L12_v83 hf m ρ c, show V12 m ρ c main_v85 = g2r m c from L12_v85 hf m ρ c, show V12 m ρ c main_v86 = be2r m c from L12_v86 hf m ρ c]
    try rfl))
theorem L13_arg10 : W13 m ρ c (Proc.devRef .tc main_arg10) = a10 m c :=
  (W13_of_ne m ρ c main_arg10 (by decide)).trans (L12_arg10 hf m ρ c)
theorem L13_arg11 : W13 m ρ c (Proc.devRef .tc main_arg11) = a11 m c :=
  (W13_of_ne m ρ c main_arg11 (by decide)).trans (L12_arg11 hf m ρ c)

/-! ### Boundary 14 -/
theorem L14_v88 : W14 m ρ c (Proc.devRef .tc main_v88) = bfr m c := by
  show StableHlo.after hostOps6 (W13 m ρ c) _ = _
  after_results_simp
  rw [L13_arg11 hf m ρ c]
  try rfl
theorem L14_v87 : W14 m ρ c (Proc.devRef .tc main_v87) = x2 m c := by
  show StableHlo.after hostOps6 (W13 m ρ c) _ = _
  after_results_simp
  exact L13_v87 hf m ρ c
theorem L14_arg10 : W14 m ρ c (Proc.devRef .tc main_arg10) = a10 m c := by
  show StableHlo.after hostOps6 (W13 m ρ c) _ = _
  after_results_simp
  exact L13_arg10 hf m ρ c

/-! ### Boundary 15 -/
theorem L15_v89 : W15 m ρ c (Proc.devRef .tc main_v89) = out m c :=
  (W15_arr m ρ c 3).trans ((hf.final6 (V14 m ρ) c).trans (by
    rw [show V14 m ρ c main_v87 = x2 m c from L14_v87 hf m ρ c, show V14 m ρ c main_arg10 = a10 m c from L14_arg10 hf m ρ c, show V14 m ρ c main_v88 = bfr m c from L14_v88 hf m ρ c]
    try rfl))

/-- The result buffer at the end of the fold is `out` of the launch memory. -/
theorem kernel_value : W15 m ρ c (Proc.devRef .tc main_v89) = out m c := L15_v89 hf m ρ c

end Fold

end Cert.KernelIdeal.Val

end
-- ==== Proof.Lin0.lean ====
/-
  The first matrix-product region: its output array is the product of its two input arrays.

  The region walks ten grid points; point t stages rows t·5000 … t·5000 + 4999 of the left array and the whole of
  every other input array, computes on the staged blocks, and writes the result back as rows t·5000 … t·5000 + 4999 of
  the output array. On extended reals the change of number format before the product is the identity and the
  accumulator starts at zero, so a block's entry at (p, q) is Σ_k x(p,k) · w(k,q). Row r of the output lies in the
  block of point r / 5000 and the ten blocks tile the array; hence the output array is one function of the input
  arrays, entry by entry.
-/
import proofs.«150636_j78039555768704_1_alg».proof.Proof.Gen.KernelIdeal.Frame
import proofs.«150636_j78039555768704_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.LinRegions

open Cert.KernelIdeal Cert.KernelIdeal.Gen

/-- The dimension numbers of the 5000×128 by 128×128 product: the left operand's second axis against the right operand's first. -/
abbrev D0 : DotDims S5000x128 S128x128 S5000x128 := dot_S5000x128_S128x128_S5000x128_1_0_0_1_n_n

/-- The left operand's index at output (p, q) and contraction position k is (p, k). -/
theorem D0_lhs (p : Fin 5000) (q : Fin 128) (k : Fin 128) :
    D0.lhsIdx (ix2 p q) ((contrEquiv1 D0 128 rfl rfl).symm k) = ix2 p k := by
  funext a; apply Fin.ext
  match a with
  | ⟨0, _⟩ => rfl
  | ⟨1, _⟩ =>
    refine (D0.lhsIdx_val_of_single (cl := 1) rfl (ix2 p q) _).trans ?_
    exact contrEquiv1_symm_val D0 128 rfl rfl k

/-- The right operand's index at output (p, q) and contraction position k is (k, q). -/
theorem D0_rhs (p : Fin 5000) (q : Fin 128) (k : Fin 128) :
    D0.rhsIdx (ix2 p q) ((contrEquiv1 D0 128 rfl rfl).symm k) = ix2 k q := by
  funext a; apply Fin.ext
  match a with
  | ⟨0, _⟩ =>
    refine (D0.rhsIdx_val_of_single (cr := 0) rfl (ix2 p q) _).trans ?_
    exact contrEquiv1_symm_val D0 128 rfl rfl k
  | ⟨1, _⟩ => rfl

/-- The body's value at row p, column q of a block: Σ_k x0(p,k) · x1(k,q) (the change of format is the identity
    on extended reals, and the accumulator is zero). -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply D0 none _ _ (ix2 p q)).trans ?_
  rw [← Equiv.sum_comp (contrEquiv1 D0 128 rfl rfl).symm]
  refine Finset.sum_congr rfl fun k _ => ?_
  rw [D0_lhs, D0_rhs]
  rfl

/-- One entry of a block against one entry of the whole result: if the block x0 is rows n·5000 … n·5000 + 4999 of A and
    x1 is all of B, the body's value at (p, q) is (A·B) at the array index whose row is n·5000 + p and column q. -/
theorem point0 (A : Cert.Gcn.Mat 50000 128) (B : Cert.Gcn.Mat 128 128) (x0 : Vec Ideal S5000x128 .f32) (x1 : Vec Ideal S128x128 .f32)
    (n : Nat) (hn : n < 10)
    (h0 : ∀ (p : Fin 5000) (k : Fin 128), x0 (ix2 p k) = A (ix2 (⟨n * 5000 + p.val, by omega⟩ : Fin 50000) k))
    (h1 : ∀ (k : Fin 128) (q : Fin 128), x1 (ix2 k q) = B (ix2 k q))
    (p : Fin 5000) (q : Fin 128) (i : S50000x128.Idx) (hi0 : (i 0).val = n * 5000 + p.val) (hi1 : (i 1).val = q.val) :
    k0_pay1 (F := Ideal) x0 x1 (ix2 p q) = Cert.Gcn.mm A B i := by
  have er : Cert.Gcn.rowOf i = (⟨n * 5000 + p.val, by omega⟩ : Fin 50000) := Fin.ext hi0
  have ec : Cert.Gcn.colOf i = q := Fin.ext hi1
  rw [pay0_apply]
  unfold Cert.Gcn.mm
  rw [er, ec]
  refine Finset.sum_congr rfl fun k _ => ?_
  rw [h0, h1]

section Region0
variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the ten grid points: the two row-block windows sit at block (t, 0), every other window at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first window's block at point t is rows t·5000 … t·5000 + 4999 of its array. -/
theorem iblk0_0_apply (c : Dev nD) (t : Fin cfg0.N) (ht : t.val < 10) (p : Fin 5000) (k : Fin 128) :
    (iblk0 (F := Ideal) V c 0 t : Vec Ideal S5000x128 .f32) (ix2 p k)
      = (V c main_arg0 : S50000x128.Idx → EReal) (ix2 (⟨t.val * 5000 + p.val, by omega⟩ : Fin 50000) k) := by
  obtain ⟨e0, e1, -, -, -, -⟩ := idx_facts0 t
  unfold iblk0
  rw [View.read_apply]
  show V c main_arg0 (((cfg0.win 0).blk t).view.emb (ix2 p k)) = V c main_arg0 _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The second window's block at every point is its whole array. -/
theorem iblk0_1_apply (c : Dev nD) (t : Fin cfg0.N) (k : Fin 128) (q : Fin 128) :
    (iblk0 (F := Ideal) V c 1 t : Vec Ideal S128x128 .f32) (ix2 k q) = (V c main_arg2 : S128x128.Idx → EReal) (ix2 k q) := by
  obtain ⟨-, -, e2, e3, -, -⟩ := idx_facts0 t
  unfold iblk0
  rw [View.read_apply]
  show V c main_arg2 (((cfg0.win 1).blk t).view.emb (ix2 k q)) = V c main_arg2 _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point t writes back is block t of the product of the two arrays, the arrays as the region finds them. -/
theorem flushed0_eq (c : Dev nD) (t : Fin cfg0.N) :
    (dat0 (F := Ideal) V c).flushed 2 t
      = ((cfg0.win 2).blk t).view.read (Elt Ideal) (Cert.Gcn.mm (V c main_arg0 : Cert.Gcn.Mat 50000 128) (V c main_arg2 : Cert.Gcn.Mat 128 128)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  have hN : cfg0.N = 10 := N_0
  have ht : t.val < 10 := by have := t.isLt; omega
  obtain ⟨-, -, -, -, e4, e5⟩ := idx_facts0 t
  funext j
  have hj0 : (j 0).val < 5000 := (j 0).isLt
  have hj1 : (j 1).val < 128 := (j 1).isLt
  have e : (cfg0.win 2).xinj (grid0.coords t) j = ix2 (⟨(j 0).val, hj0⟩ : Fin 5000) (⟨(j 1).val, hj1⟩ : Fin 128) :=
    funext fun a => by match a with | ⟨0, _⟩ => rfl | ⟨1, _⟩ => rfl
  show k0_pay1 (F := Ideal) (iblk0 V c 0 t) (iblk0 V c 1 t) ((cfg0.win 2).xinj (grid0.coords t) j)
      = Cert.Gcn.mm (V c main_arg0) (V c main_arg2) (((cfg0.win 2).blk t).view.emb j)
  rw [e]
  refine point0 (V c main_arg0) (V c main_arg2) (iblk0 V c 0 t) (iblk0 V c 1 t) t.val ht
    (iblk0_0_apply V c t ht) (iblk0_1_apply V c t) _ _ _ ?_ ?_
  · show win0_2.index t (0 : Fin 2) * 5000 + 1 * (j 0).val = t.val * 5000 + (j 0).val; omega
  · show win0_2.index t (1 : Fin 2) * 128 + 1 * (j 1).val = (j 1).val; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index of the output array is in some point's block: row r is in the block of point r / 5000. -/
theorem cover0 (i : S50000x128.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  let t : Fin cfg0.N := ⟨(i 0).val / 5000, by omega⟩
  obtain ⟨-, -, -, -, e4, e5⟩ := idx_facts0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array after its run is the product of its two input arrays, the inputs as the region finds them. -/
theorem final0 (c : Dev nD) :
    (dat0 (F := Ideal) V c).arrAt 2 cfg0.N = Cert.Gcn.mm (V c main_arg0 : Cert.Gcn.Mat 50000 128) (V c main_arg2 : Cert.Gcn.Mat 128 128) :=
  (dat0 (F := Ideal) V c).arrAt_eq_of_cover 2 _ (fun t _ => flushed0_eq V c t) cover0

end Region0

end Cert.KernelIdeal.LinRegions

end
-- ==== Proof.Lin3.lean ====
/-
  The second matrix-product region: its output array is the product of its two input arrays.

  The region walks ten grid points; point t stages rows t·5000 … t·5000 + 4999 of the left array and the whole of
  every other input array, computes on the staged blocks, and writes the result back as rows t·5000 … t·5000 + 4999 of
  the output array. On extended reals the change of number format before the product is the identity and the
  accumulator starts at zero, so a block's entry at (p, q) is Σ_k x(p,k) · w(k,q). Row r of the output lies in the
  block of point r / 5000 and the ten blocks tile the array; hence the output array is one function of the input
  arrays, entry by entry.
-/
import proofs.«150636_j78039555768704_1_alg».proof.Proof.Gen.KernelIdeal.Frame
import proofs.«150636_j78039555768704_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.LinRegions

open Cert.KernelIdeal Cert.KernelIdeal.Gen

/-- The dimension numbers of the 5000×128 by 128×128 product: the left operand's second axis against the right operand's first. -/
abbrev D3 : DotDims S5000x128 S128x128 S5000x128 := dot_S5000x128_S128x128_S5000x128_1_0_0_1_n_n

/-- The left operand's index at output (p, q) and contraction position k is (p, k). -/
theorem D3_lhs (p : Fin 5000) (q : Fin 128) (k : Fin 128) :
    D3.lhsIdx (ix2 p q) ((contrEquiv1 D3 128 rfl rfl).symm k) = ix2 p k := by
  funext a; apply Fin.ext
  match a with
  | ⟨0, _⟩ => rfl
  | ⟨1, _⟩ =>
    refine (D3.lhsIdx_val_of_single (cl := 1) rfl (ix2 p q) _).trans ?_
    exact contrEquiv1_symm_val D3 128 rfl rfl k

/-- The right operand's index at output (p, q) and contraction position k is (k, q). -/
theorem D3_rhs (p : Fin 5000) (q : Fin 128) (k : Fin 128) :
    D3.rhsIdx (ix2 p q) ((contrEquiv1 D3 128 rfl rfl).symm k) = ix2 k q := by
  funext a; apply Fin.ext
  match a with
  | ⟨0, _⟩ =>
    refine (D3.rhsIdx_val_of_single (cr := 0) rfl (ix2 p q) _).trans ?_
    exact contrEquiv1_symm_val D3 128 rfl rfl k
  | ⟨1, _⟩ => rfl

/-- The body's value at row p, column q of a block: Σ_k x0(p,k) · x1(k,q) (the change of format and the same-shape cast are the identity
    on extended reals, and the accumulator is zero). -/
theorem pay3_apply (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  refine (Ideal.matmul_constant_zero_apply D3 none _ _ (ix2 p q)).trans ?_
  rw [← Equiv.sum_comp (contrEquiv1 D3 128 rfl rfl).symm]
  refine Finset.sum_congr rfl fun k _ => ?_
  rw [D3_lhs, D3_rhs, shapeCast_self]
  rfl

/-- One entry of a block against one entry of the whole result: if the block x0 is rows n·5000 … n·5000 + 4999 of A and
    x1 is all of B, the body's value at (p, q) is (A·B) at the array index whose row is n·5000 + p and column q. -/
theorem point3 (A : Cert.Gcn.Mat 50000 128) (B : Cert.Gcn.Mat 128 128) (x0 : Vec Ideal S5000x128 .f32) (x1 : Vec Ideal S128x128 .f32)
    (n : Nat) (hn : n < 10)
    (h0 : ∀ (p : Fin 5000) (k : Fin 128), x0 (ix2 p k) = A (ix2 (⟨n * 5000 + p.val, by omega⟩ : Fin 50000) k))
    (h1 : ∀ (k : Fin 128) (q : Fin 128), x1 (ix2 k q) = B (ix2 k q))
    (p : Fin 5000) (q : Fin 128) (i : S50000x128.Idx) (hi0 : (i 0).val = n * 5000 + p.val) (hi1 : (i 1).val = q.val) :
    k3_pay1 (F := Ideal) x0 x1 (ix2 p q) = Cert.Gcn.mm A B i := by
  have er : Cert.Gcn.rowOf i = (⟨n * 5000 + p.val, by omega⟩ : Fin 50000) := Fin.ext hi0
  have ec : Cert.Gcn.colOf i = q := Fin.ext hi1
  rw [pay3_apply]
  unfold Cert.Gcn.mm
  rw [er, ec]
  refine Finset.sum_congr rfl fun k _ => ?_
  rw [h0, h1]

section Region3
variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the ten grid points: the two row-block windows sit at block (t, 0), every other window at (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The first window's block at point t is rows t·5000 … t·5000 + 4999 of its array. -/
theorem iblk3_0_apply (c : Dev nD) (t : Fin cfg3.N) (ht : t.val < 10) (p : Fin 5000) (k : Fin 128) :
    (iblk3 (F := Ideal) V c 0 t : Vec Ideal S5000x128 .f32) (ix2 p k)
      = (V c main_v59 : S50000x128.Idx → EReal) (ix2 (⟨t.val * 5000 + p.val, by omega⟩ : Fin 50000) k) := by
  obtain ⟨e0, e1, -, -, -, -⟩ := idx_facts3 t
  unfold iblk3
  rw [View.read_apply]
  show V c main_v59 (((cfg3.win 0).blk t).view.emb (ix2 p k)) = V c main_v59 _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- The second window's block at every point is its whole array. -/
theorem iblk3_1_apply (c : Dev nD) (t : Fin cfg3.N) (k : Fin 128) (q : Fin 128) :
    (iblk3 (F := Ideal) V c 1 t : Vec Ideal S128x128 .f32) (ix2 k q) = (V c main_arg6 : S128x128.Idx → EReal) (ix2 k q) := by
  obtain ⟨-, -, e2, e3, -, -⟩ := idx_facts3 t
  unfold iblk3
  rw [View.read_apply]
  show V c main_arg6 (((cfg3.win 1).blk t).view.emb (ix2 k q)) = V c main_arg6 _
  refine congrArg _ (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- What point t writes back is block t of the product of the two arrays, the arrays as the region finds them. -/
theorem flushed3_eq (c : Dev nD) (t : Fin cfg3.N) :
    (dat3 (F := Ideal) V c).flushed 2 t
      = ((cfg3.win 2).blk t).view.read (Elt Ideal) (Cert.Gcn.mm (V c main_v59 : Cert.Gcn.Mat 50000 128) (V c main_arg6 : Cert.Gcn.Mat 128 128)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S128x128) hz3]
  have hN : cfg3.N = 10 := N_3
  have ht : t.val < 10 := by have := t.isLt; omega
  obtain ⟨-, -, -, -, e4, e5⟩ := idx_facts3 t
  funext j
  have hj0 : (j 0).val < 5000 := (j 0).isLt
  have hj1 : (j 1).val < 128 := (j 1).isLt
  have e : (cfg3.win 2).xinj (grid3.coords t) j = ix2 (⟨(j 0).val, hj0⟩ : Fin 5000) (⟨(j 1).val, hj1⟩ : Fin 128) :=
    funext fun a => by match a with | ⟨0, _⟩ => rfl | ⟨1, _⟩ => rfl
  show k3_pay1 (F := Ideal) (iblk3 V c 0 t) (iblk3 V c 1 t) ((cfg3.win 2).xinj (grid3.coords t) j)
      = Cert.Gcn.mm (V c main_v59) (V c main_arg6) (((cfg3.win 2).blk t).view.emb j)
  rw [e]
  refine point3 (V c main_v59) (V c main_arg6) (iblk3 V c 0 t) (iblk3 V c 1 t) t.val ht
    (iblk3_0_apply V c t ht) (iblk3_1_apply V c t) _ _ _ ?_ ?_
  · show win3_2.index t (0 : Fin 2) * 5000 + 1 * (j 0).val = t.val * 5000 + (j 0).val; omega
  · show win3_2.index t (1 : Fin 2) * 128 + 1 * (j 1).val = (j 1).val; omega

/-- An index of the output array is in point t's block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v60).slice (win3_2.rect t)).set ↔ _
  rw [View.set_slice_whole, Rect.mem_set_unit]
  exact Iff.rfl

/-- Every index of the output array is in some point's block: row r is in the block of point r / 5000. -/
theorem cover3 (i : S50000x128.Idx) : ∃ t : Fin cfg3.N, (cfg3.win 2).flush t = true ∧ i ∈ ((cfg3.win 2).blk t).view.set := by
  have hN : cfg3.N = 10 := N_3
  have hi0 : (i 0).val < 50000 := (i 0).isLt
  have hi1 : (i 1).val < 128 := (i 1).isLt
  let t : Fin cfg3.N := ⟨(i 0).val / 5000, by omega⟩
  obtain ⟨-, -, -, -, e4, e5⟩ := idx_facts3 t
  have e4' : win3_2.index t (0 : Fin 2) = (i 0).val / 5000 := e4
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The region's output array after its run is the product of its two input arrays, the inputs as the region finds them. -/
theorem final3 (c : Dev nD) :
    (dat3 (F := Ideal) V c).arrAt 2 cfg3.N = Cert.Gcn.mm (V c main_v59 : Cert.Gcn.Mat 50000 128) (V c main_arg6 : Cert.Gcn.Mat 128 128) :=
  (dat3 (F := Ideal) V c).arrAt_eq_of_cover 2 _ (fun t _ => flushed3_eq V c t) cover3

end Region3

end Cert.KernelIdeal.LinRegions

end
-- ==== Proof.Lin6.lean ====
/-
  The third matrix-product region: its output array is the product of its first two input arrays with its one-row input array added to every row.

  The region walks ten grid points; point t stages rows t·5000 … t·5000 + 4999 of the left array and the whole of
  every other input array, computes on the staged blocks, and writes the result back as rows t·5000 … t·5000 + 4999 of
  the output array. On extended reals the change of number format before the product is the identity and the
  accumulator starts at zero, so a block's entry at (p, q) is Σ_k x(p,k) · w(k,q). Row r of the output lies in the
  block of point r / 5000 and the ten blocks tile the array; hence the output array is one function of the input
  arrays, entry by entry.
-/
import proofs.«150636_j78039555768704_1_alg».proof.Proof.Gen.KernelIdeal.Frame
import proofs.«150636_j78039555768704_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.LinRegions

open Cert.KernelIdeal Cert.KernelIdeal.Gen

/-- The dimension numbers of the 5000×128 by 128×64 product: the left operand's second axis against the right operand's first. -/
abbrev D6 : DotDims S5000x128 S128x64 S5000x64 := dot_S5000x128_S128x64_S5000x64_1_0_0_1_n_n

/-- The left operand's index at output (p, q) and contraction position k is (p, k). -/
theorem D6_lhs (p : Fin 5000) (q : Fin 64) (k : Fin 128) :
    D6.lhsIdx (ix2 p q) ((contrEquiv1 D6 128 rfl rfl).symm k) = ix2 p k := by
  funext a; apply Fin.ext
  match a with
  | ⟨0, _⟩ => rfl
  | ⟨1, _⟩ =>
    refine (D6.lhsIdx_val_of_single (cl := 1) rfl (ix2 p q) _).trans ?_
    exact contrEquiv1_symm_val D6 128 rfl rfl k

/-- The right operand's index at output (p, q) and contraction position k is (k, q). -/
theorem D6_rhs (p : Fin 5000) (q : Fin 64) (k : Fin 128) :
    D6.rhsIdx (ix2 p q) ((contrEquiv1 D6 128 rfl rfl).symm k) = ix2 k q := by
  funext a; apply Fin.ext
  match a with
  | ⟨0, _⟩ =>
    refine (D6.rhsIdx_val_of_single (cr := 0) rfl (ix2 p q) _).trans ?_
    exact contrEquiv1_symm_val D6 128 rfl rfl k
  | ⟨1, _⟩ => rfl

/-- The body's value at row p, column q of a block: Σ_k x0(p,k) · x1(k,q), plus the one-row block x2 at column q
    (the change of format and the same-shape casts are the identity on extended reals, the accumulator is zero, and the
    one row is repeated down the 5000 rows). -/
theorem pay6_apply (x0 : Vec Ideal S5000x128 .f32) (x1 : Vec Ideal S128x64 .f32) (x2 : Vec Ideal S1x64 .f32) (p : Fin 5000) (q : Fin 64) :
    k6_pay1 (F := Ideal) x0 x1 x2 (ix2 p q) = (∑ k : Fin 128, x0 (ix2 p k) * x1 (ix2 k q)) + x2 (ix2 (0 : Fin 1) q) := by
  unfold k6_pay1
  refine (addf_apply _ _ (ix2 p q)).trans ?_
  refine congrArg₂ (· + ·) ?_ ?_
  · refine (Ideal.matmul_constant_zero_apply D6 none _ _ (ix2 p q)).trans ?_
    rw [← Equiv.sum_comp (contrEquiv1 D6 128 rfl rfl).symm]
    refine Finset.sum_congr rfl fun k _ => ?_
    rw [D6_lhs, D6_rhs, shapeCast_self]
    rfl
  · refine (broadcastTo_1b_ab_apply _ _ p q).trans ?_
    rw [shapeCast_self]

/-- One entry of a block against one entry of the whole result: if the block x0 is rows n·5000 … n·5000 + 4999 of A,
    x1 is all of B and x2 is all of the one-row b, the body's value at (p, q) is (A·B + b) at the array index whose row is n·5000 + p and column q. -/
theorem point6 (A : Cert.Gcn.Mat 50000 128) (B : Cert.Gcn.Mat 128 64) (b : Cert.Gcn.Mat 1 64) (x0 : Vec Ideal S5000x128 .f32) (x1 : Vec Ideal S128x64 .f32) (x2 : Vec Ideal S1x64 .f32)
    (n : Nat) (hn : n < 10)
    (h0 : ∀ (p : Fin 5000) (k : Fin 128), x0 (ix2 p k) = A (ix2 (⟨n * 5000 + p.val, by omega⟩ : Fin 50000) k))
    (h1 : ∀ (k : Fin 128) (q : Fin 64), x1 (ix2 k q) = B (ix2 k q))
    (h2 : ∀ q : Fin 64, x2 (ix2 (0 : Fin 1) q) = b (ix2 (0 : Fin 1) q))
    (p : Fin 5000) (q : Fin 64) (i : S50000x64.Idx) (hi0 : (i 0).val = n * 5000 + p.val) (hi1 : (i 1).val = q.val) :
    k6_pay1 (F := Ideal) x0 x1 x2 (ix2 p q) = Cert.Gcn.addRow (Cert.Gcn.mm A B) b i := by
  have er : Cert.Gcn.rowOf i = (⟨n * 5000 + p.val, by omega⟩ : Fin 50000) := Fin.ext hi0
  have ec : Cert.Gcn.colOf i = q := Fin.ext hi1
  rw [pay6_apply, h2]
  unfold Cert.Gcn.addRow Cert.Gcn.mm
  rw [er, ec]
  refine congrArg (· + _) (Finset.sum_congr rfl fun k _ => ?_)
  rw [h0, h1]

section Region6
variable (V : (c : Dev nD) → (b : Ref sig .tc) → Buf (Elt Ideal) ((c : Thread nD τ).loc b))

theorem hz6 : (![0, 0] : Fin 2 → Nat) = fun _ => 0 := funext fun a => by fin_cases a <;> rfl

/-- The printed index maps, decided over the ten grid points: the two row-block windows sit at block (t, 0), every other window at (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The first window's block at point t is rows t·5000 … t·5000 + 4999 of its array. -/
theorem iblk6_0_apply (c : Dev nD) (t : Fin cfg6.N) (ht : t.val < 10) (p : Fin 5000) (k : Fin 128) :
    (iblk6 (F := Ideal) V c 0 t : Vec Ideal S5000x128 .f32) (ix2 p k)
      = (V c main_v87 : S50000x128.Idx → EReal) (ix2 (⟨t.val * 5000 + p.val, by omega⟩ : Fin 50000) k) := by
  obtain ⟨e0, e1, -, -, -, -, -, -⟩ := idx_facts6 t
  unfold iblk6
  rw [View.read_apply]
  show V c main_v87 (((cfg6.win 0).blk t).view.emb (ix2 p k)) = V c main_v87 _
  refine congrArg _ (funext fun a => Fin.ext ?_)
  match a with
  | ⟨0, _⟩ => show win6_0.index t (0 : Fin 2) * 5000 + 1 * p.val = t.val * 5000 + p.val; omega
  | ⟨1, _⟩ => show win6_0.index t (1 : Fin 2) * 128 + 1 * k.val = k.val; omega

/-- The second window's block at every point is its whole array. -/
theorem iblk6_1_apply (c : Dev nD) (t : Fin cfg6.N) (k : Fin 128) (q : Fin 64) :
    (iblk6 (F := Ideal) V c 1 t : Vec Ideal S128x64 .f32) (ix2 k q) = (V c main_arg10 : S128x64.Idx → EReal) (ix2 k q) := by
  obtain ⟨-, -, e2, e3, -, -, -, -⟩ := idx_facts6 t
  unfold iblk6
  rw [View.read_apply]
  show V c main_arg10 (((cfg6.win 1).blk t).view.emb (ix2 k q)) = V c main_arg10 _
  refine congrArg _ (funext fun a => Fin.ext ?_)
  match a with
  | ⟨0, _⟩ => show win6_1.index t (0 : Fin 2) * 128 + 1 * k.val = k.val; omega
  | ⟨1, _⟩ => show win6_1.index t (1 : Fin 2) * 64 + 1 * q.val = q.val; omega

/-- The third window's block at every point is its whole one-row array. -/
theorem iblk6_2_apply (c : Dev nD) (t : Fin cfg6.N) (q : Fin 64) :
    (iblk6 (F := Ideal) V c 2 t : Vec Ideal S1x64 .f32) (ix2 (0 : Fin 1) q) = (V c main_v88 : S1x64.Idx → EReal) (ix2 (0 : Fin 1) q) := by
  obtain ⟨-, -, -, -, e4, e5, -, -⟩ := idx_facts6 t
  unfold iblk6
  rw [View.read_apply]
  show V c main_v88 (((cfg6.win 2).blk t).view.emb (ix2 (0 : Fin 1) q)) = V c main_v88 _
  refine congrArg _ (funext fun a => Fin.ext ?_)
  match a with
  | ⟨0, _⟩ => show win6_2.index t (0 : Fin 2) * 1 + 1 * (0 : Fin 1).val = (0 : Fin 1).val; omega
  | ⟨1, _⟩ => show win6_2.index t (1 : Fin 2) * 64 + 1 * q.val = q.val; omega

/-- What point t writes back is block t of the product of the first two arrays plus the one-row array, the arrays as the region finds them. -/
theorem flushed6_eq (c : Dev nD) (t : Fin cfg6.N) :
    (dat6 (F := Ideal) V c).flushed 3 t
      = ((cfg6.win 3).blk t).view.read (Elt Ideal) (Cert.Gcn.addRow (Cert.Gcn.mm (V c main_v87 : Cert.Gcn.Mat 50000 128) (V c main_arg10 : Cert.Gcn.Mat 128 64)) (V c main_v88 : Cert.Gcn.Mat 1 64)) := by
  show (cfg6.win 3).cut (grid6.coords t) ((dat6 V c).after 3 t) = _
  rw [after6_3]
  unfold out6_3
  rw [View.canon_unit_zero hz6]
  simp only [View.ld_unit_zero (S := S5000x128) hz6, View.ld_unit_zero (S := S128x64) hz6, View.ld_unit_zero (S := S1x64) hz6]
  have hN : cfg6.N = 10 := N_6
  have ht : t.val < 10 := by have := t.isLt; omega
  obtain ⟨-, -, -, -, -, -, e4, e5⟩ := idx_facts6 t
  funext j
  have hj0 : (j 0).val < 5000 := (j 0).isLt
  have hj1 : (j 1).val < 64 := (j 1).isLt
  have e : (cfg6.win 3).xinj (grid6.coords t) j = ix2 (⟨(j 0).val, hj0⟩ : Fin 5000) (⟨(j 1).val, hj1⟩ : Fin 64) :=
    funext fun a => by match a with | ⟨0, _⟩ => rfl | ⟨1, _⟩ => rfl
  show k6_pay1 (F := Ideal) (iblk6 V c 0 t) (iblk6 V c 1 t) (iblk6 V c 2 t) ((cfg6.win 3).xinj (grid6.coords t) j)
      = Cert.Gcn.addRow (Cert.Gcn.mm (V c main_v87) (V c main_arg10)) (V c main_v88) (((cfg6.win 3).blk t).view.emb j)
  rw [e]
  refine point6 (V c main_v87) (V c main_arg10) (V c main_v88) (iblk6 V c 0 t) (iblk6 V c 1 t) (iblk6 V c 2 t) t.val ht
    (iblk6_0_apply V c t ht) (iblk6_1_apply V c t) (iblk6_2_apply V c t) _ _ _ ?_ ?_
  · show win6_3.index t (0 : Fin 2) * 5000 + 1 * (j 0).val = t.val * 5000 + (j 0).val; omega
  · show win6_3.index t (1 : Fin 2) * 64 + 1 * (j 1).val = (j 1).val; omega

/-- An index of the output array is in point t's block iff each coordinate is in the block's range on its axis. -/
theorem mem_blk6 (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v89).slice (win6_3.rect t)).set ↔ _
  rw [View.set_slice_whole, Rect.mem_set_unit]
  exact Iff.rfl

/-- Every index of the output array is in some point's block: row r is in the block of point r / 5000. -/
theorem cover6 (i : S50000x64.Idx) : ∃ t : Fin cfg6.N, (cfg6.win 3).flush t = true ∧ i ∈ ((cfg6.win 3).blk t).view.set := by
  have hN : cfg6.N = 10 := N_6
  have hi0 : (i 0).val < 50000 := (i 0).isLt
  have hi1 : (i 1).val < 64 := (i 1).isLt
  let t : Fin cfg6.N := ⟨(i 0).val / 5000, by omega⟩
  obtain ⟨-, -, -, -, -, -, e4, e5⟩ := idx_facts6 t
  have e4' : win6_3.index t (0 : Fin 2) = (i 0).val / 5000 := e4
  refine ⟨t, flush6_3 t, ?_⟩
  rw [mem_blk6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- The region's output array after its run is the product of its first two input arrays plus its one-row input array on every row, the inputs as the region finds them. -/
theorem final6 (c : Dev nD) :
    (dat6 (F := Ideal) V c).arrAt 3 cfg6.N = Cert.Gcn.addRow (Cert.Gcn.mm (V c main_v87 : Cert.Gcn.Mat 50000 128) (V c main_arg10 : Cert.Gcn.Mat 128 64)) (V c main_v88 : Cert.Gcn.Mat 1 64) :=
  (dat6 (F := Ideal) V c).arrAt_eq_of_cover 3 _ (fun t _ => flushed6_eq V c t) cover6

end Region6

end Cert.KernelIdeal.LinRegions

end
-- ==== Proof.LinRegions.lean ====
/-
  The three matrix-product regions, each read as one whole-array function of the arrays the region finds:
  the first and the second as the product of their two input arrays, the third as the product of its first two input
  arrays with its one-row input array added to every row. One module per region; this one gathers them.
-/
import proofs.«150636_j78039555768704_1_alg».proof.Proof.Lin0
import proofs.«150636_j78039555768704_1_alg».proof.Proof.Lin3
import proofs.«150636_j78039555768704_1_alg».proof.Proof.Lin6
-- ==== Proof.NormRegions.lean ====
/-
  The two normalise-and-clamp regions of the kernel, each as one whole-array function of its six input arrays.

  A region walks ten grid points. At point `t` it holds rows 5000·t … 5000·t + 4999 of a 50000 × 128 data array
  and the whole of five one-row arrays (a bias, the column means, the column variances, a scale and a shift), and
  writes rows 5000·t … 5000·t + 4999 of the output:
      max( ((x + b) − μ) · rsqrt(σ² + ε) · γ + β , 0 ),
  every one-row operand read at the entry's own column. The ten row blocks are disjoint and fill the array (row `r`
  belongs to point `r / 5000`), so after the region the output array is that formula at every entry:
  `Cert.Gcn.bnRelu` of the six arrays as the region finds them.

  Per region: the body's arithmetic at one entry of a block (`payK_apply`), one block entry against one array
  entry (`pointK`), the position of every window's block (`idx_factsK`), each window's block as a piece of its
  array (`dataK`, `rowK_w`, `colK`), what a point writes back (`flushedK_eq`), block membership and the cover
  (`mem_blkK`, `coverK`), and the array after the region (`finalK`).
-/
import proofs.«150636_j78039555768704_1_alg».proof.Proof.Gen.KernelIdeal.Frame
import proofs.«150636_j78039555768704_1_alg».proof.Proof.Spec
import Idealize.ShloMosaic.Lib.Pipeline.Value
import Idealize.ShloMosaic.Lib.ValueIdx
import Idealize.ShloMosaic.Lib.ValueLayout

noncomputable section

namespace Cert.KernelIdeal.NormRegions

open Cert.KernelIdeal Cert.KernelIdeal.Gen Idealize.ShloMosaic Idealize.ShloMosaic.TcCoe Idealize.ShloMosaic.ValueIdx
open Idealize.ShloMosaic.Pipeline (Dat)

/-- The zero offsets of a whole-block access, as the constant function. -/
theorem hz : (![0, 0] : Fin 2 → Nat) = fun _ => 0 := funext fun a => by fin_cases a <;> rfl

/-! ## Region 2: normalise with given column statistics, scale, shift, clamp below at zero -/

/-- The body's arithmetic at the entry (p, q) of a block: the row operands are read at (0, q). -/
theorem pay2_apply (x : Vec Ideal S5000x128 .f32) (b var mu g be : Vec Ideal S1x128 .f32) (p : Fin 5000) (q : Fin 128) :
    k2_pay1 (F := Ideal) x b var mu g be (ix2 p q) =
      max ((((x (ix2 p q) + b (ix2 (0 : Fin 1) q)) - mu (ix2 (0 : Fin 1) q))
              * Ideal.rsqrt (var (ix2 (0 : Fin 1) q) + Ideal.ofBits .f32 0x3727C5AC#32))
            * g (ix2 (0 : Fin 1) q) + be (ix2 (0 : Fin 1) q))
        (Ideal.ofBits .f32 0x00000000#32) := by
  unfold k2_pay1
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  rfl

/-- One entry of a block against one entry of the whole-array function: if the block entry `j` of the data window
    is the array entry `i`, the two share their column, and every one-row window holds its whole array, then the
    body's result at `j` is the normalised, clamped value at `i`. -/
theorem point2 (x0 : Vec Ideal S5000x128 .f32) (x1 x2 x3 x4 x5 : Vec Ideal S1x128 .f32)
    (A0 : Cert.Gcn.Mat 50000 128) (A1 A2 A3 A4 A5 : Cert.Gcn.Mat 1 128)
    (j : S5000x128.Idx) (i : S50000x128.Idx) (hq : (i 1).val = (j 1).val)
    (h0 : x0 j = A0 i) (h1 : ∀ y, x1 y = A1 y) (h2 : ∀ y, x2 y = A2 y) (h3 : ∀ y, x3 y = A3 y)
    (h4 : ∀ y, x4 y = A4 y) (h5 : ∀ y, x5 y = A5 y) :
    k2_pay1 (F := Ideal) x0 x1 x3 x2 x4 x5 j = Cert.Gcn.bnRelu A0 A1 A2 A3 A4 A5 i := by
  obtain ⟨p, q, rfl⟩ : ∃ (p : Fin 5000) (q : Fin 128), j = ix2 p q := ⟨j 0, j 1, eq_ix2 j⟩
  have hcol : Cert.Gcn.colOf i = q := Fin.ext hq
  rw [pay2_apply, h0, h1, h2, h3, h4, h5]
  unfold Cert.Gcn.bnRelu
  rw [hcol]
  rfl

/-- The printed index maps, decided over the ten grid points: the data window and the output window sit at block
    row `t`, column block 0; every one-row window sits at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- The data window's block at point `t` is the rows of the array under the output window's block at `t`. -/
theorem data2 (c : Dev nD) (t : Fin cfg2.N) (j : S5000x128.Idx) :
    (iblk2 (F := Ideal) V c 0 t : Vec Ideal S5000x128 .f32) j = (V c main_v45 : Cert.Gcn.Mat 50000 128) (((cfg2.win 6).blk t).view.emb j) := by
  obtain ⟨e0, e1, e2, e3, e4, e5, e6, e7, e8, e9, e10, e11, e12, e13⟩ := idx_facts2 t
  show V c main_v45 (((cfg2.win 0).blk t).view.emb j) = V c main_v45 (((cfg2.win 6).blk t).view.emb j)
  refine congrArg (V c main_v45) (funext fun a => Fin.ext ?_)
  match a with
  | ⟨0, _⟩ => show win2_0.index t (0 : Fin 2) * 5000 + 1 * (j 0).val = win2_6.index t (0 : Fin 2) * 5000 + 1 * (j 0).val; omega
  | ⟨1, _⟩ => show win2_0.index t (1 : Fin 2) * 128 + 1 * (j 1).val = win2_6.index t (1 : Fin 2) * 128 + 1 * (j 1).val; omega

/-- Window 1 holds its whole one-row array at every point. -/
theorem row2_1 (c : Dev nD) (t : Fin cfg2.N) (y : S1x128.Idx) :
    (iblk2 (F := Ideal) V c 1 t : Vec Ideal S1x128 .f32) y = (V c main_v56 : Cert.Gcn.Mat 1 128) y := by
  obtain ⟨e0, e1, e2, e3, e4, e5, e6, e7, e8, e9, e10, e11, e12, e13⟩ := idx_facts2 t
  show V c main_v56 (((cfg2.win 1).blk t).view.emb y) = V c main_v56 y
  refine congrArg (V c main_v56) (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- Window 2 holds its whole one-row array at every point. -/
theorem row2_2 (c : Dev nD) (t : Fin cfg2.N) (y : S1x128.Idx) :
    (iblk2 (F := Ideal) V c 2 t : Vec Ideal S1x128 .f32) y = (V c main_v49 : Cert.Gcn.Mat 1 128) y := by
  obtain ⟨e0, e1, e2, e3, e4, e5, e6, e7, e8, e9, e10, e11, e12, e13⟩ := idx_facts2 t
  show V c main_v49 (((cfg2.win 2).blk t).view.emb y) = V c main_v49 y
  refine congrArg (V c main_v49) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3 holds its whole one-row array at every point. -/
theorem row2_3 (c : Dev nD) (t : Fin cfg2.N) (y : S1x128.Idx) :
    (iblk2 (F := Ideal) V c 3 t : Vec Ideal S1x128 .f32) y = (V c main_v55 : Cert.Gcn.Mat 1 128) y := by
  obtain ⟨e0, e1, e2, e3, e4, e5, e6, e7, e8, e9, e10, e11, e12, e13⟩ := idx_facts2 t
  show V c main_v55 (((cfg2.win 3).blk t).view.emb y) = V c main_v55 y
  refine congrArg (V c main_v55) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4 holds its whole one-row array at every point. -/
theorem row2_4 (c : Dev nD) (t : Fin cfg2.N) (y : S1x128.Idx) :
    (iblk2 (F := Ideal) V c 4 t : Vec Ideal S1x128 .f32) y = (V c main_v57 : Cert.Gcn.Mat 1 128) y := by
  obtain ⟨e0, e1, e2, e3, e4, e5, e6, e7, e8, e9, e10, e11, e12, e13⟩ := idx_facts2 t
  show V c main_v57 (((cfg2.win 4).blk t).view.emb y) = V c main_v57 y
  refine congrArg (V c main_v57) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5 holds its whole one-row array at every point. -/
theorem row2_5 (c : Dev nD) (t : Fin cfg2.N) (y : S1x128.Idx) :
    (iblk2 (F := Ideal) V c 5 t : Vec Ideal S1x128 .f32) y = (V c main_v58 : Cert.Gcn.Mat 1 128) y := by
  obtain ⟨e0, e1, e2, e3, e4, e5, e6, e7, e8, e9, e10, e11, e12, e13⟩ := idx_facts2 t
  show V c main_v58 (((cfg2.win 5).blk t).view.emb y) = V c main_v58 y
  refine congrArg (V c main_v58) (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- The column of an entry of the output window's block is its column inside the block (the block spans all columns). -/
theorem col2 (t : Fin cfg2.N) (j : S5000x128.Idx) :
    ((((cfg2.win 6).blk t).view.emb j : S50000x128.Idx) 1).val = (j 1).val := by
  obtain ⟨e0, e1, e2, e3, e4, e5, e6, e7, e8, e9, e10, e11, e12, e13⟩ := idx_facts2 t
  show win2_6.index t (1 : Fin 2) * 128 + 1 * (j 1).val = (j 1).val
  omega

/-- What point `t` writes back is block `t` of the normalised, clamped array. -/
theorem flushed2_eq (c : Dev nD) (t : Fin cfg2.N) :
    (dat2 (F := Ideal) V c).flushed 6 t = ((cfg2.win 6).blk t).view.read (Elt Ideal) (Cert.Gcn.bnRelu (V c main_v45 : Cert.Gcn.Mat 50000 128) (V c main_v56 : Cert.Gcn.Mat 1 128) (V c main_v49 : Cert.Gcn.Mat 1 128) (V c main_v55 : Cert.Gcn.Mat 1 128) (V c main_v57 : Cert.Gcn.Mat 1 128) (V c main_v58 : Cert.Gcn.Mat 1 128)) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz]
  funext j
  exact point2 (iblk2 V c 0 t) (iblk2 V c 1 t) (iblk2 V c 2 t) (iblk2 V c 3 t) (iblk2 V c 4 t) (iblk2 V c 5 t)
    (V c main_v45) (V c main_v56) (V c main_v49) (V c main_v55) (V c main_v57) (V c main_v58)
    j (((cfg2.win 6).blk t).view.emb j) (col2 t j) (data2 V c t j)
    (row2_1 V c t) (row2_2 V c t) (row2_3 V c t) (row2_4 V c t) (row2_5 V c t)

/-- An entry of the array is in point `t`'s block iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v59).slice (win2_6.rect t)).set ↔ _
  rw [View.set_slice_whole, Rect.mem_set_unit]
  exact Iff.rfl

/-- Every entry is covered: row `r` lies in the block of point `r / 5000`. -/
theorem cover2 (i : S50000x128.Idx) :
    ∃ t : Fin cfg2.N, (cfg2.win 6).flush t = true ∧ i ∈ ((cfg2.win 6).blk t).view.set := by
  have hi0 : (i 0).val < 50000 := idx2_lt0 i
  have hi1 : (i 1).val < 128 := idx2_lt1 i
  have hN : cfg2.N = 10 := N_2
  obtain ⟨t, ht⟩ : ∃ t : Fin cfg2.N, t.val = (i 0).val / 5000 := ⟨⟨(i 0).val / 5000, by rw [hN]; omega⟩, rfl⟩
  obtain ⟨e0, e1, e2, e3, e4, e5, e6, e7, e8, e9, e10, e11, e12, e13⟩ := idx_facts2 t
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array of region 2 after the region: the normalised, clamped array, as one function of the region's
    six input arrays. -/
theorem final2 (c : Dev nD) :
    (dat2 (F := Ideal) V c).arrAt 6 cfg2.N = (Cert.Gcn.bnRelu (V c main_v45 : Cert.Gcn.Mat 50000 128) (V c main_v56 : Cert.Gcn.Mat 1 128) (V c main_v49 : Cert.Gcn.Mat 1 128) (V c main_v55 : Cert.Gcn.Mat 1 128) (V c main_v57 : Cert.Gcn.Mat 1 128) (V c main_v58 : Cert.Gcn.Mat 1 128)) :=
  (dat2 (F := Ideal) V c).arrAt_eq_of_cover 6 _ (fun t _ => flushed2_eq V c t) cover2

/-! ## Region 5: normalise with given column statistics, scale, shift, clamp below at zero -/

/-- The body's arithmetic at the entry (p, q) of a block: the row operands are read at (0, q). -/
theorem pay5_apply (x : Vec Ideal S5000x128 .f32) (b var mu g be : Vec Ideal S1x128 .f32) (p : Fin 5000) (q : Fin 128) :
    k5_pay1 (F := Ideal) x b var mu g be (ix2 p q) =
      max ((((x (ix2 p q) + b (ix2 (0 : Fin 1) q)) - mu (ix2 (0 : Fin 1) q))
              * Ideal.rsqrt (var (ix2 (0 : Fin 1) q) + Ideal.ofBits .f32 0x3727C5AC#32))
            * g (ix2 (0 : Fin 1) q) + be (ix2 (0 : Fin 1) q))
        (Ideal.ofBits .f32 0x00000000#32) := by
  unfold k5_pay1
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  rfl

/-- One entry of a block against one entry of the whole-array function: if the block entry `j` of the data window
    is the array entry `i`, the two share their column, and every one-row window holds its whole array, then the
    body's result at `j` is the normalised, clamped value at `i`. -/
theorem point5 (x0 : Vec Ideal S5000x128 .f32) (x1 x2 x3 x4 x5 : Vec Ideal S1x128 .f32)
    (A0 : Cert.Gcn.Mat 50000 128) (A1 A2 A3 A4 A5 : Cert.Gcn.Mat 1 128)
    (j : S5000x128.Idx) (i : S50000x128.Idx) (hq : (i 1).val = (j 1).val)
    (h0 : x0 j = A0 i) (h1 : ∀ y, x1 y = A1 y) (h2 : ∀ y, x2 y = A2 y) (h3 : ∀ y, x3 y = A3 y)
    (h4 : ∀ y, x4 y = A4 y) (h5 : ∀ y, x5 y = A5 y) :
    k5_pay1 (F := Ideal) x0 x1 x3 x2 x4 x5 j = Cert.Gcn.bnRelu A0 A1 A2 A3 A4 A5 i := by
  obtain ⟨p, q, rfl⟩ : ∃ (p : Fin 5000) (q : Fin 128), j = ix2 p q := ⟨j 0, j 1, eq_ix2 j⟩
  have hcol : Cert.Gcn.colOf i = q := Fin.ext hq
  rw [pay5_apply, h0, h1, h2, h3, h4, h5]
  unfold Cert.Gcn.bnRelu
  rw [hcol]
  rfl

/-- The printed index maps, decided over the ten grid points: the data window and the output window sit at block
    row `t`, column block 0; every one-row window sits at block (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The data window's block at point `t` is the rows of the array under the output window's block at `t`. -/
theorem data5 (c : Dev nD) (t : Fin cfg5.N) (j : S5000x128.Idx) :
    (iblk5 (F := Ideal) V c 0 t : Vec Ideal S5000x128 .f32) j = (V c main_v73 : Cert.Gcn.Mat 50000 128) (((cfg5.win 6).blk t).view.emb j) := by
  obtain ⟨e0, e1, e2, e3, e4, e5, e6, e7, e8, e9, e10, e11, e12, e13⟩ := idx_facts5 t
  show V c main_v73 (((cfg5.win 0).blk t).view.emb j) = V c main_v73 (((cfg5.win 6).blk t).view.emb j)
  refine congrArg (V c main_v73) (funext fun a => Fin.ext ?_)
  match a with
  | ⟨0, _⟩ => show win5_0.index t (0 : Fin 2) * 5000 + 1 * (j 0).val = win5_6.index t (0 : Fin 2) * 5000 + 1 * (j 0).val; omega
  | ⟨1, _⟩ => show win5_0.index t (1 : Fin 2) * 128 + 1 * (j 1).val = win5_6.index t (1 : Fin 2) * 128 + 1 * (j 1).val; omega

/-- Window 1 holds its whole one-row array at every point. -/
theorem row5_1 (c : Dev nD) (t : Fin cfg5.N) (y : S1x128.Idx) :
    (iblk5 (F := Ideal) V c 1 t : Vec Ideal S1x128 .f32) y = (V c main_v84 : Cert.Gcn.Mat 1 128) y := by
  obtain ⟨e0, e1, e2, e3, e4, e5, e6, e7, e8, e9, e10, e11, e12, e13⟩ := idx_facts5 t
  show V c main_v84 (((cfg5.win 1).blk t).view.emb y) = V c main_v84 y
  refine congrArg (V c main_v84) (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- Window 2 holds its whole one-row array at every point. -/
theorem row5_2 (c : Dev nD) (t : Fin cfg5.N) (y : S1x128.Idx) :
    (iblk5 (F := Ideal) V c 2 t : Vec Ideal S1x128 .f32) y = (V c main_v77 : Cert.Gcn.Mat 1 128) y := by
  obtain ⟨e0, e1, e2, e3, e4, e5, e6, e7, e8, e9, e10, e11, e12, e13⟩ := idx_facts5 t
  show V c main_v77 (((cfg5.win 2).blk t).view.emb y) = V c main_v77 y
  refine congrArg (V c main_v77) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- Window 3 holds its whole one-row array at every point. -/
theorem row5_3 (c : Dev nD) (t : Fin cfg5.N) (y : S1x128.Idx) :
    (iblk5 (F := Ideal) V c 3 t : Vec Ideal S1x128 .f32) y = (V c main_v83 : Cert.Gcn.Mat 1 128) y := by
  obtain ⟨e0, e1, e2, e3, e4, e5, e6, e7, e8, e9, e10, e11, e12, e13⟩ := idx_facts5 t
  show V c main_v83 (((cfg5.win 3).blk t).view.emb y) = V c main_v83 y
  refine congrArg (V c main_v83) (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- Window 4 holds its whole one-row array at every point. -/
theorem row5_4 (c : Dev nD) (t : Fin cfg5.N) (y : S1x128.Idx) :
    (iblk5 (F := Ideal) V c 4 t : Vec Ideal S1x128 .f32) y = (V c main_v85 : Cert.Gcn.Mat 1 128) y := by
  obtain ⟨e0, e1, e2, e3, e4, e5, e6, e7, e8, e9, e10, e11, e12, e13⟩ := idx_facts5 t
  show V c main_v85 (((cfg5.win 4).blk t).view.emb y) = V c main_v85 y
  refine congrArg (V c main_v85) (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- Window 5 holds its whole one-row array at every point. -/
theorem row5_5 (c : Dev nD) (t : Fin cfg5.N) (y : S1x128.Idx) :
    (iblk5 (F := Ideal) V c 5 t : Vec Ideal S1x128 .f32) y = (V c main_v86 : Cert.Gcn.Mat 1 128) y := by
  obtain ⟨e0, e1, e2, e3, e4, e5, e6, e7, e8, e9, e10, e11, e12, e13⟩ := idx_facts5 t
  show V c main_v86 (((cfg5.win 5).blk t).view.emb y) = V c main_v86 y
  refine congrArg (V c main_v86) (funext fun a => Fin.ext ?_)
  match a with
  | ⟨0, _⟩ => show win5_5.index t (0 : Fin 2) * 1 + 1 * (y 0).val = (y 0).val; omega
  | ⟨1, _⟩ => show win5_5.index t (1 : Fin 2) * 128 + 1 * (y 1).val = (y 1).val; omega

/-- The column of an entry of the output window's block is its column inside the block (the block spans all columns). -/
theorem col5 (t : Fin cfg5.N) (j : S5000x128.Idx) :
    ((((cfg5.win 6).blk t).view.emb j : S50000x128.Idx) 1).val = (j 1).val := by
  obtain ⟨e0, e1, e2, e3, e4, e5, e6, e7, e8, e9, e10, e11, e12, e13⟩ := idx_facts5 t
  show win5_6.index t (1 : Fin 2) * 128 + 1 * (j 1).val = (j 1).val
  omega

/-- What point `t` writes back is block `t` of the normalised, clamped array. -/
theorem flushed5_eq (c : Dev nD) (t : Fin cfg5.N) :
    (dat5 (F := Ideal) V c).flushed 6 t = ((cfg5.win 6).blk t).view.read (Elt Ideal) (Cert.Gcn.bnRelu (V c main_v73 : Cert.Gcn.Mat 50000 128) (V c main_v84 : Cert.Gcn.Mat 1 128) (V c main_v77 : Cert.Gcn.Mat 1 128) (V c main_v83 : Cert.Gcn.Mat 1 128) (V c main_v85 : Cert.Gcn.Mat 1 128) (V c main_v86 : Cert.Gcn.Mat 1 128)) := by
  show (cfg5.win 6).cut (grid5.coords t) ((dat5 V c).after 6 t) = _
  rw [after5_6]
  unfold out5_6
  rw [View.canon_unit_zero hz]
  simp only [View.ld_unit_zero (S := S5000x128) hz, View.ld_unit_zero (S := S1x128) hz]
  funext j
  exact point5 (iblk5 V c 0 t) (iblk5 V c 1 t) (iblk5 V c 2 t) (iblk5 V c 3 t) (iblk5 V c 4 t) (iblk5 V c 5 t)
    (V c main_v73) (V c main_v84) (V c main_v77) (V c main_v83) (V c main_v85) (V c main_v86)
    j (((cfg5.win 6).blk t).view.emb j) (col5 t j) (data5 V c t j)
    (row5_1 V c t) (row5_2 V c t) (row5_3 V c t) (row5_4 V c t) (row5_5 V c t)

/-- An entry of the array is in point `t`'s block iff each coordinate is in the block's range on its axis. -/
theorem mem_blk5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v87).slice (win5_6.rect t)).set ↔ _
  rw [View.set_slice_whole, Rect.mem_set_unit]
  exact Iff.rfl

/-- Every entry is covered: row `r` lies in the block of point `r / 5000`. -/
theorem cover5 (i : S50000x128.Idx) :
    ∃ t : Fin cfg5.N, (cfg5.win 6).flush t = true ∧ i ∈ ((cfg5.win 6).blk t).view.set := by
  have hi0 : (i 0).val < 50000 := idx2_lt0 i
  have hi1 : (i 1).val < 128 := idx2_lt1 i
  have hN : cfg5.N = 10 := N_5
  obtain ⟨t, ht⟩ : ∃ t : Fin cfg5.N, t.val = (i 0).val / 5000 := ⟨⟨(i 0).val / 5000, by rw [hN]; omega⟩, rfl⟩
  obtain ⟨e0, e1, e2, e3, e4, e5, e6, e7, e8, e9, e10, e11, e12, e13⟩ := idx_facts5 t
  refine ⟨t, flush5_6 t, ?_⟩
  rw [mem_blk5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- The output array of region 5 after the region: the normalised, clamped array, as one function of the region's
    six input arrays. -/
theorem final5 (c : Dev nD) :
    (dat5 (F := Ideal) V c).arrAt 6 cfg5.N = (Cert.Gcn.bnRelu (V c main_v73 : Cert.Gcn.Mat 50000 128) (V c main_v84 : Cert.Gcn.Mat 1 128) (V c main_v77 : Cert.Gcn.Mat 1 128) (V c main_v83 : Cert.Gcn.Mat 1 128) (V c main_v85 : Cert.Gcn.Mat 1 128) (V c main_v86 : Cert.Gcn.Mat 1 128)) :=
  (dat5 (F := Ideal) V c).arrAt_eq_of_cover 6 _ (fun t _ => flushed5_eq V c t) cover5

end Cert.KernelIdeal.NormRegions

end
-- ==== Proof.Stat1.lean ====
/-
  Statistics region 1: its two result arrays as functions of its two input arrays.

  The kernel runs over ten points. Point `t` sees rows `5000 t … 5000 t + 4999` of the 50000 × 128 input and the
  one-row bias; the two one-row results stay in place across the points and are written back once, after the last.
  The first point zeroes both and every point adds its block's column sums of `x + b` and of `(x + b)²`.

  * `out1_A_2_eq` … `out1_B_3_eq`: what one point leaves in each accumulator, as the block's arithmetic applied
    to the blocks read and to what the accumulator held.
  * `sum_inv1`, `sq_inv1`: after point `n` the accumulators hold, column by column, the sums over the rows of
    blocks `0 … n` — by induction on the point.
  * `final1_sum`, `final1_sq`: the arrays end at the column sums of `x + b` and of `(x + b)²` over all 50000
    rows, since the last point's write-back is the whole one-row array.

  Shared by both statistics regions (the second kernel's arithmetic is the first's, term for term):
  * `pay3_apply` … `pay5_apply`: one block's contribution at column `q` — the accumulator's entry plus
    Σ_{r < 5000} (x(r,q) + b(0,q)), respectively Σ_{r < 5000} (x(r,q) + b(0,q))².
  * `blk`, `sum_blk`: ten blocks of 5000 rows are the 50000 rows, Σ_{s<10} Σ_{r<5000} f(5000 s + r) = Σ_{p<50000} f p;
    addition of extended reals is commutative and associative, so no finiteness is needed.
-/
import proofs.«150636_j78039555768704_1_alg».proof.Proof.Gen.KernelIdeal.Frame
import proofs.«150636_j78039555768704_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.StatRegions

open Idealize.ShloMosaic Idealize.ShloMosaic.ValueIdx Idealize.ShloMosaic.TcCoe Idealize.SL.Sem
open Idealize.ShloMosaic.Pipeline (Dat)
open Cert.KernelIdeal Cert.KernelIdeal.Gen

/-! ## One block's contribution, at a column -/

/-- The bias-shifted block at an entry: the block's entry plus the bias row's entry in that column. -/
theorem pay3_apply (x : Vec Ideal S5000x128 .f32) (b : Vec Ideal S1x128 .f32) (r : Fin 5000) (q : Fin 128) :
    k1_pay3 x b (ix2 r q) = x (ix2 r q) + b (ix2 (0 : Fin 1) q) := by
  unfold k1_pay3
  rw [shapeCast_self, shapeCast_self]
  refine (addf_apply _ _ _).trans ?_
  refine congrArg (fun z => x (ix2 r q) + z) ?_
  refine broadcastTo_apply b broadcasts_S1x128_S5000x128 (ix2 r q) (ix2 (0 : Fin 1) q) (fun a => ?_)
  match a with
  | ⟨0, _⟩ => rfl
  | ⟨1, _⟩ => rfl

/-- A column sum of a 5000-row block: the lane reduction over axis 0 read at a lane. -/
theorem colred_apply (v : FVec Ideal S5000x128 .f32) (hφ : FKind.Formats .f32)
    (hacc : (0x00000000#32 : BitVec 32) = 0x00000000#32) (q : Fin 128) :
    multiReduction .add [0] S128 v 0x00000000#32 reduces_S5000x128_S128 hφ hacc (ix1 q)
      = ∑ r : Fin 5000, v (ix2 r q) := by
  refine (Ideal.multiReduction_add_single v 0x00000000#32 reduces_S5000x128_S128 hφ hacc (ix1 q)).trans ?_
  refine Finset.sum_congr rfl (fun r _ => congrArg v ?_)
  funext a
  match a with
  | ⟨0, _⟩ => rfl
  | ⟨1, _⟩ => rfl

/-- A one-lane-row vector viewed as a one-row matrix reads its lane. -/
theorem rowcast_apply (v : FVec Ideal S128 .f32) (q : Fin 128) :
    shapeCast S1x128 v shapeCasts_S128_S1x128 (ix2 (0 : Fin 1) q) = v (ix1 q) := by
  refine (shapeCast_addUnit_apply ![128] v shapeCasts_S128_S1x128 (ix2 (0 : Fin 1) q)).trans ?_
  refine congrArg v ?_
  funext a
  match a with
  | ⟨0, _⟩ => rfl

/-- The running column sums after a block: what was carried plus the block's bias-shifted column sum. -/
theorem pay4_apply (x : Vec Ideal S5000x128 .f32) (b acc : Vec Ideal S1x128 .f32) (q : Fin 128) :
    k1_pay4 x b acc (ix2 (0 : Fin 1) q)
      = acc (ix2 (0 : Fin 1) q) + ∑ r : Fin 5000, (x (ix2 r q) + b (ix2 (0 : Fin 1) q)) := by
  unfold k1_pay4
  rw [shapeCast_self]
  refine (addf_apply _ _ _).trans ?_
  refine congrArg (fun z => acc (ix2 (0 : Fin 1) q) + z) ?_
  refine (rowcast_apply _ q).trans ?_
  refine (colred_apply (k1_pay3 x b) (.inl rfl) rfl q).trans ?_
  exact Finset.sum_congr rfl (fun r _ => pay3_apply x b r q)

/-- The running column sums of squares after a block. -/
theorem pay5_apply (x : Vec Ideal S5000x128 .f32) (b acc : Vec Ideal S1x128 .f32) (q : Fin 128) :
    k1_pay5 x b acc (ix2 (0 : Fin 1) q)
      = acc (ix2 (0 : Fin 1) q)
        + ∑ r : Fin 5000, (x (ix2 r q) + b (ix2 (0 : Fin 1) q)) * (x (ix2 r q) + b (ix2 (0 : Fin 1) q)) := by
  unfold k1_pay5
  rw [shapeCast_self]
  refine (addf_apply _ _ _).trans ?_
  refine congrArg (fun z => acc (ix2 (0 : Fin 1) q) + z) ?_
  refine (rowcast_apply _ q).trans ?_
  refine (colred_apply (mulf (k1_pay3 x b) (k1_pay3 x b)) (.inl rfl) rfl q).trans ?_
  refine Finset.sum_congr rfl (fun r _ => ?_)
  refine (mulf_apply _ _ _).trans ?_
  rw [pay3_apply x b r q]

/-- The zeroed accumulator reads zero. -/
theorem pay1_apply (j : S1x128.Idx) : k1_pay1 (F := Ideal) j = 0 := by
  unfold k1_pay1
  exact Ideal.ofBits_zero_f32

theorem pay2_apply (j : S1x128.Idx) : k1_pay2 (F := Ideal) j = 0 := by
  unfold k1_pay2
  exact Ideal.ofBits_zero_f32

/-! ## The second statistics kernel's arithmetic is the first's, term for term -/

theorem pay4_apply' (x : Vec Ideal S5000x128 .f32) (b acc : Vec Ideal S1x128 .f32) (q : Fin 128) :
    k4_pay4 x b acc (ix2 (0 : Fin 1) q)
      = acc (ix2 (0 : Fin 1) q) + ∑ r : Fin 5000, (x (ix2 r q) + b (ix2 (0 : Fin 1) q)) :=
  pay4_apply x b acc q

theorem pay5_apply' (x : Vec Ideal S5000x128 .f32) (b acc : Vec Ideal S1x128 .f32) (q : Fin 128) :
    k4_pay5 x b acc (ix2 (0 : Fin 1) q)
      = acc (ix2 (0 : Fin 1) q)
        + ∑ r : Fin 5000, (x (ix2 r q) + b (ix2 (0 : Fin 1) q)) * (x (ix2 r q) + b (ix2 (0 : Fin 1) q)) :=
  pay5_apply x b acc q

theorem pay1_apply' (j : S1x128.Idx) : k4_pay1 (F := Ideal) j = 0 := pay1_apply j

theorem pay2_apply' (j : S1x128.Idx) : k4_pay2 (F := Ideal) j = 0 := pay2_apply j

/-- The origin of a rank-2 block, however its zeros are spelt. -/
theorem hz : (![0, 0] : Fin 2 → Nat) = fun _ => 0 := funext fun a => by fin_cases a <;> rfl

/-- A one-row index is row 0 at some column. -/
theorem row_ix (j : S1x128.Idx) : ∃ q : Fin 128, j = ix2 (0 : Fin 1) q := by
  refine ⟨(j 1 : Fin 128), ?_⟩
  funext a
  match a with
  | ⟨0, _⟩ => exact Subsingleton.elim (α := Fin 1) _ _
  | ⟨1, _⟩ => rfl

/-- Column `q` of a 50000-row matrix shifted by a bias row, row by row. -/
def colv (X : Cert.Gcn.Mat 50000 128) (B : Cert.Gcn.Mat 1 128) (q : Fin 128) (p : Fin 50000) : EReal :=
  X (ix2 p q) + B (ix2 (0 : Fin 1) q)

/-! ## Ten blocks of 5000 rows are the 50000 rows -/

/-- Block `s`'s share of a sum over 50000 rows: its 5000 rows' terms (nothing past the tenth block). -/
def blk (f : Fin 50000 → EReal) (s : ℕ) : EReal :=
  if h : s < 10 then ∑ r : Fin 5000, f ⟨5000 * s + r.val, by have := r.isLt; omega⟩ else 0

/-- Row `r` of block `s`, as a row of the whole array. -/
def rowIn (x : Fin 10 × Fin 5000) : Fin 50000 := ⟨5000 * x.1.val + x.2.val, by have := x.1.isLt; have := x.2.isLt; omega⟩

/-- Every row of the array is one row of one block, once. -/
def rowEquiv : Fin 10 × Fin 5000 ≃ Fin 50000 where
  toFun := rowIn
  invFun p := (⟨p.val / 5000, by have := p.isLt; omega⟩, ⟨p.val % 5000, Nat.mod_lt _ (by decide)⟩)
  left_inv x := by
    obtain ⟨s, r⟩ := x
    have hs := s.isLt; have hr := r.isLt
    refine Prod.ext (Fin.ext ?_) (Fin.ext ?_)
    · show (5000 * s.val + r.val) / 5000 = s.val; omega
    · show (5000 * s.val + r.val) % 5000 = r.val; omega
  right_inv p := by
    refine Fin.ext ?_
    show 5000 * (p.val / 5000) + p.val % 5000 = p.val
    omega

/-- The sum over the ten blocks of each block's share is the sum over all rows. -/
theorem sum_blk (f : Fin 50000 → EReal) : ∑ s ∈ Finset.range 10, blk f s = ∑ p : Fin 50000, f p := by
  rw [Finset.sum_range (fun s => blk f s)]
  have e : ∀ s : Fin 10, blk f s.val = ∑ r : Fin 5000, f (rowIn (s, r)) := fun s => by
    unfold blk
    rw [dif_pos s.isLt]
    rfl
  rw [Finset.sum_congr rfl (fun s _ => e s), ← Fintype.sum_prod_type (fun x : Fin 10 × Fin 5000 => f (rowIn x))]
  exact Equiv.sum_comp rowEquiv f

/-- One more block's share: the running sum through block `n + 1`. -/
theorem sum_blk_succ (f : Fin 50000 → EReal) (n : ℕ) (h : n + 1 < 10) :
    ∑ s ∈ Finset.range (n + 1 + 1), blk f s
      = ∑ s ∈ Finset.range (n + 1), blk f s + ∑ r : Fin 5000, f ⟨5000 * (n + 1) + r.val, by have := r.isLt; omega⟩ := by
  rw [Finset.sum_range_succ _ (n + 1)]
  unfold blk
  rw [dif_pos h]

/-- The first block's share, over a zero start. -/
theorem sum_blk_zero (f : Fin 50000 → EReal) :
    ∑ s ∈ Finset.range (0 + 1), blk f s = 0 + ∑ r : Fin 5000, f ⟨5000 * 0 + r.val, by have := r.isLt; omega⟩ := by
  rw [Finset.sum_range_one, zero_add]
  unfold blk
  rw [dif_pos (by decide)]

/-! ## What one point leaves in each accumulator -/

section Pieces1
variable {F : FTy → Type} [FloatOps F]

/-- A later point leaves, in the sum accumulator holding `xo2`, the running sum advanced by the block. -/
theorem out1_B_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero (S := S1x128) hz]
  simp only [View.readAt_eq_ld, h1.read_unread, h2.read_unread, h3.read_unread,
    View.ld_unit_zero (S := S5000x128) hz, View.ld_unit_zero (S := S1x128) hz]

/-- A later point leaves, in the squares accumulator holding `xo3`, the running sum of squares advanced by the block. -/
theorem out1_B_3_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero (S := S1x128) hz]
  simp only [View.readAt_eq_ld, h1.read_unread, h2.read_unread, h4.read_unread,
    View.ld_unit_zero (S := S5000x128) hz, View.ld_unit_zero (S := S1x128) hz]

/-- The first point zeroes the sum accumulator, reads the zero row back and advances it by the block. -/
theorem out1_A_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

/-- The first point zeroes the squares accumulator, reads the zero row back and advances it by the block. -/
theorem out1_A_3_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

end Pieces1

/-! ## Region 1: the blocks read, the accumulators point by point -/

section Region1

variable (V : (c : Dev nD) → (b : Ref sig .tc) → Buf (Elt Ideal) ((c : Thread nD τ).loc b))

/-- Where the windows' blocks sit: the data block moves one block of rows per point, the bias row stays. -/
theorem idx1 : ∀ t : Fin cfg1.N, (win1_0.index t (0 : Fin 2) = t.val ∧ win1_0.index t (1 : Fin 2) = 0)
      ∧ (win1_1.index t (0 : Fin 2) = 0 ∧ win1_1.index t (1 : Fin 2) = 0) :=
  (by decide +kernel : ∀ t : Fin grid1.N, (win1_0.index t (0 : Fin 2) = t.val ∧ win1_0.index t (1 : Fin 2) = 0)
      ∧ (win1_1.index t (0 : Fin 2) = 0 ∧ win1_1.index t (1 : Fin 2) = 0))

/-- Row `r` of the data block at point `t` is row `5000 t + r` of the array. -/
theorem iblk1_0_apply (c : Dev nD) (t : Fin cfg1.N) (r : Fin 5000) (q : Fin 128) (p : Fin 50000)
    (hp : p.val = 5000 * t.val + r.val) :
    (iblk1 (F := Ideal) V c 0 t : Vec Ideal S5000x128 .f32) (ix2 r q)
      = (V c main_v45 : S50000x128.Idx → Ideal .f32) (ix2 p q) := by
  have hi := (idx1 t).1
  unfold iblk1
  rw [View.read_apply]
  show V c main_v45 _ = V c main_v45 _
  refine congrArg (V c main_v45) ?_
  funext a
  apply Fin.ext
  match a with
  | ⟨0, _⟩ => show win1_0.index t 0 * 5000 + 1 * r.val = p.val; rw [hi.1, hp]; omega
  | ⟨1, _⟩ => show win1_0.index t 1 * 128 + 1 * q.val = q.val; rw [hi.2]; omega

/-- The bias block at every point is the bias row. -/
theorem iblk1_1_apply (c : Dev nD) (t : Fin cfg1.N) (q : Fin 128) :
    (iblk1 (F := Ideal) V c 1 t : Vec Ideal S1x128 .f32) (ix2 (0 : Fin 1) q)
      = (V c main_v46 : S1x128.Idx → Ideal .f32) (ix2 (0 : Fin 1) q) := by
  have hi := (idx1 t).2
  unfold iblk1
  rw [View.read_apply]
  show V c main_v46 _ = V c main_v46 _
  refine congrArg (V c main_v46) ?_
  funext a
  apply Fin.ext
  match a with
  | ⟨0, _⟩ => show win1_1.index t 0 * 1 + 1 * 0 = 0; rw [hi.1]
  | ⟨1, _⟩ => show win1_1.index t 1 * 128 + 1 * q.val = q.val; rw [hi.2]; omega

end Region1

section Steps1

variable {F : FTy → Type} [FloatOps F]
variable (V : (c : Dev nD) → (b : Ref sig .tc) → Buf (Elt F) ((c : Thread nD τ).loc b))

/-- The data block and the bias block at a point, at their literal shapes. -/
abbrev xb1 (c : Dev nD) (t : Fin cfg1.N) : Vec F S5000x128 .f32 := iblk1 V c 0 t
abbrev bb1 (c : Dev nD) (t : Fin cfg1.N) : Vec F S1x128 .f32 := iblk1 V c 1 t

/-- After the first point the sum accumulator is the zero row advanced by the first block. -/
theorem outs1_zero_fst (c : Dev nD) (h : 0 < cfg1.N) :
    (outsAt1 V c 0 h).1 = k1_pay4 (xb1 V c ⟨0, h⟩) (bb1 V c ⟨0, h⟩) k1_pay1 :=
  (congrArg Prod.fst (outsAt1_A V c ⟨0, h⟩ rfl)).trans
    (out1_A_2_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      (ms1_3 ⟨0, h⟩) (hs1_3 ⟨0, h⟩) ((hcond1_0 ⟨0, h⟩).mpr rfl) (xb1 V c ⟨0, h⟩) (bb1 V c ⟨0, h⟩))

/-- After the first point the squares accumulator is the zero row advanced by the first block. -/
theorem outs1_zero_snd (c : Dev nD) (h : 0 < cfg1.N) :
    (outsAt1 V c 0 h).2 = k1_pay5 (xb1 V c ⟨0, h⟩) (bb1 V c ⟨0, h⟩) k1_pay2 :=
  (congrArg Prod.snd (outsAt1_A V c ⟨0, h⟩ rfl)).trans
    (out1_A_3_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      (ms1_3 ⟨0, h⟩) (hs1_3 ⟨0, h⟩) ((hcond1_0 ⟨0, h⟩).mpr rfl) (xb1 V c ⟨0, h⟩) (bb1 V c ⟨0, h⟩))

/-- After a later point the sum accumulator is what the point before left, advanced by this point's block. -/
theorem outs1_succ_fst (c : Dev nD) (n : ℕ) (h : n + 1 < cfg1.N) :
    (outsAt1 V c (n + 1) h).1
      = k1_pay4 (xb1 V c ⟨n + 1, h⟩) (bb1 V c ⟨n + 1, h⟩) (outsAt1 V c n (Nat.lt_of_succ_lt h)).1 := by
  have hN : cfg1.N = 10 := N_1
  have hB : ¬(⟨n + 1, h⟩ : Fin cfg1.N).val % 10 = 0 := by dsimp only; omega
  exact (congrArg Prod.fst (outsAt1_B V c ⟨n + 1, h⟩ hB)).trans
    (out1_B_2_eq c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) (fun hh => hB ((hcond1_0 ⟨n + 1, h⟩).mp hh)) (xb1 V c ⟨n + 1, h⟩) (bb1 V c ⟨n + 1, h⟩)
      (outsAt1 V c n (Nat.lt_of_succ_lt h)).1 (outsAt1 V c n (Nat.lt_of_succ_lt h)).2)

/-- After a later point the squares accumulator is what the point before left, advanced by this point's block. -/
theorem outs1_succ_snd (c : Dev nD) (n : ℕ) (h : n + 1 < cfg1.N) :
    (outsAt1 V c (n + 1) h).2
      = k1_pay5 (xb1 V c ⟨n + 1, h⟩) (bb1 V c ⟨n + 1, h⟩) (outsAt1 V c n (Nat.lt_of_succ_lt h)).2 := by
  have hN : cfg1.N = 10 := N_1
  have hB : ¬(⟨n + 1, h⟩ : Fin cfg1.N).val % 10 = 0 := by dsimp only; omega
  exact (congrArg Prod.snd (outsAt1_B V c ⟨n + 1, h⟩ hB)).trans
    (out1_B_3_eq c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) (fun hh => hB ((hcond1_0 ⟨n + 1, h⟩).mp hh)) (xb1 V c ⟨n + 1, h⟩) (bb1 V c ⟨n + 1, h⟩)
      (outsAt1 V c n (Nat.lt_of_succ_lt h)).1 (outsAt1 V c n (Nat.lt_of_succ_lt h)).2)

end Steps1

section Invariant1

variable (V : (c : Dev nD) → (b : Ref sig .tc) → Buf (Elt Ideal) ((c : Thread nD τ).loc b))

/-- Column `q`'s bias-shifted entries, row by row. -/
abbrev col1 (c : Dev nD) (q : Fin 128) (p : Fin 50000) : EReal :=
  colv (V c main_v45) (V c main_v46) q p

/-- THE SUM INVARIANT: after point `n` the sum accumulator holds, in column `q`, the sum of that column's
    bias-shifted entries over the rows of blocks `0 … n`. By induction on the point. -/
theorem sum_inv1 (c : Dev nD) : ∀ (n : ℕ) (h : n < cfg1.N) (q : Fin 128),
    (outsAt1 (F := Ideal) V c n h).1 (ix2 (0 : Fin 1) q) = ∑ s ∈ Finset.range (n + 1), blk (col1 V c q) s
  | 0, h, q => by
    rw [outs1_zero_fst V c h]
    refine (pay4_apply (xb1 V c ⟨0, h⟩) (bb1 V c ⟨0, h⟩) (k1_pay1 (F := Ideal)) q).trans ?_
    rw [pay1_apply, sum_blk_zero]
    refine congrArg (fun z => (0 : EReal) + z) (Finset.sum_congr rfl fun r _ => ?_)
    exact (congrArg₂ (fun a b : EReal => a + b) (iblk1_0_apply V c ⟨0, h⟩ r q ⟨5000 * 0 + r.val, by have := r.isLt; omega⟩ rfl) (iblk1_1_apply V c ⟨0, h⟩ q))
  | n + 1, h, q => by
    have hN : cfg1.N = 10 := N_1
    rw [outs1_succ_fst V c n h]
    refine (pay4_apply (xb1 V c ⟨n + 1, h⟩) (bb1 V c ⟨n + 1, h⟩) _ q).trans ?_
    rw [sum_inv1 c n (Nat.lt_of_succ_lt h) q, sum_blk_succ _ n (by omega)]
    refine congrArg (fun z => (∑ s ∈ Finset.range (n + 1), blk (col1 V c q) s) + z) (Finset.sum_congr rfl fun r _ => ?_)
    exact (congrArg₂ (fun a b : EReal => a + b) (iblk1_0_apply V c ⟨n + 1, h⟩ r q ⟨5000 * (n + 1) + r.val, by have := r.isLt; omega⟩ rfl) (iblk1_1_apply V c ⟨n + 1, h⟩ q))

/-- THE SQUARES INVARIANT: likewise the sum of the squares of the bias-shifted entries. -/
theorem sq_inv1 (c : Dev nD) : ∀ (n : ℕ) (h : n < cfg1.N) (q : Fin 128),
    (outsAt1 (F := Ideal) V c n h).2 (ix2 (0 : Fin 1) q)
      = ∑ s ∈ Finset.range (n + 1), blk (fun p => col1 V c q p * col1 V c q p) s
  | 0, h, q => by
    rw [outs1_zero_snd V c h]
    refine (pay5_apply (xb1 V c ⟨0, h⟩) (bb1 V c ⟨0, h⟩) (k1_pay2 (F := Ideal)) q).trans ?_
    rw [pay2_apply, sum_blk_zero]
    refine congrArg (fun z => (0 : EReal) + z) (Finset.sum_congr rfl fun r _ => ?_)
    have e := (congrArg₂ (fun a b : EReal => a + b) (iblk1_0_apply V c ⟨0, h⟩ r q ⟨5000 * 0 + r.val, by have := r.isLt; omega⟩ rfl) (iblk1_1_apply V c ⟨0, h⟩ q))
    exact congrArg₂ (fun a b : EReal => a * b) e e
  | n + 1, h, q => by
    have hN : cfg1.N = 10 := N_1
    rw [outs1_succ_snd V c n h]
    refine (pay5_apply (xb1 V c ⟨n + 1, h⟩) (bb1 V c ⟨n + 1, h⟩) _ q).trans ?_
    rw [sq_inv1 c n (Nat.lt_of_succ_lt h) q, sum_blk_succ _ n (by omega)]
    refine congrArg (fun z => (∑ s ∈ Finset.range (n + 1), blk (fun p => col1 V c q p * col1 V c q p) s) + z)
      (Finset.sum_congr rfl fun r _ => ?_)
    have e := (congrArg₂ (fun a b : EReal => a + b) (iblk1_0_apply V c ⟨n + 1, h⟩ r q ⟨5000 * (n + 1) + r.val, by have := r.isLt; omega⟩ rfl) (iblk1_1_apply V c ⟨n + 1, h⟩ q))
    exact congrArg₂ (fun a b : EReal => a * b) e e

end Invariant1

section Final1

variable (V : (c : Dev nD) → (b : Ref sig .tc) → Buf (Elt Ideal) ((c : Thread nD τ).loc b))

/-- After the last point the sum accumulator holds the column sums of the bias-shifted array. -/
theorem last_sum1 (c : Dev nD) (t : Fin cfg1.N) (ht : t.val = 9) :
    (outsAt1 (F := Ideal) V c t.val t.isLt).1 = Cert.Gcn.colSum (Cert.Gcn.addRow (V c main_v45) (V c main_v46)) := by
  funext j
  obtain ⟨q, rfl⟩ := row_ix j
  rw [sum_inv1 V c t.val t.isLt q]
  simp only [ht]
  rw [sum_blk]
  rfl

/-- After the last point the squares accumulator holds the column sums of the squared bias-shifted array. -/
theorem last_sq1 (c : Dev nD) (t : Fin cfg1.N) (ht : t.val = 9) :
    (outsAt1 (F := Ideal) V c t.val t.isLt).2
      = Cert.Gcn.colSum (Cert.Gcn.sqr (Cert.Gcn.addRow (V c main_v45) (V c main_v46))) := by
  funext j
  obtain ⟨q, rfl⟩ := row_ix j
  rw [sq_inv1 V c t.val t.isLt q]
  simp only [ht]
  rw [sum_blk]
  rfl

/-- The accumulators' one block sits at the origin at every point and is the whole one-row array. -/
theorem oblk1 : ∀ t : Fin cfg1.N,
      (win1_2.index t (0 : Fin 2) * win1_2.size (0 : Fin 2) = 0 ∧ win1_2.index t (1 : Fin 2) * win1_2.size (1 : Fin 2) = 0
        ∧ win1_2.xsize (grid1.coords t) (0 : Fin 2) = 1 ∧ win1_2.xsize (grid1.coords t) (1 : Fin 2) = 128)
      ∧ (win1_3.index t (0 : Fin 2) * win1_3.size (0 : Fin 2) = 0 ∧ win1_3.index t (1 : Fin 2) * win1_3.size (1 : Fin 2) = 0
        ∧ win1_3.xsize (grid1.coords t) (0 : Fin 2) = 1 ∧ win1_3.xsize (grid1.coords t) (1 : Fin 2) = 128) :=
  (by decide +kernel : ∀ t : Fin grid1.N,
      (win1_2.index t (0 : Fin 2) * win1_2.size (0 : Fin 2) = 0 ∧ win1_2.index t (1 : Fin 2) * win1_2.size (1 : Fin 2) = 0
        ∧ win1_2.xsize (grid1.coords t) (0 : Fin 2) = 1 ∧ win1_2.xsize (grid1.coords t) (1 : Fin 2) = 128)
      ∧ (win1_3.index t (0 : Fin 2) * win1_3.size (0 : Fin 2) = 0 ∧ win1_3.index t (1 : Fin 2) * win1_3.size (1 : Fin 2) = 0
        ∧ win1_3.xsize (grid1.coords t) (0 : Fin 2) = 1 ∧ win1_3.xsize (grid1.coords t) (1 : Fin 2) = 128))

/-- The one write-back of the sums, at the last point, writes the column sums. -/
theorem flushed1_sum (c : Dev nD) (t : Fin cfg1.N) (hf : (cfg1.win 2).flush t = true) :
    (dat1 (F := Ideal) V c).flushed 2 t
      = ((cfg1.win 2).blk t).view.read (Elt Ideal) (Cert.Gcn.colSum (Cert.Gcn.addRow (V c main_v45) (V c main_v46))) := by
  have hN : cfg1.N = 10 := N_1
  have h9 : t.val = 9 := by have := (flush1_2 t).mp hf; have := t.isLt; omega
  have ho := (oblk1 t).1
  show (cfg1.win 2).cut (grid1.coords t) ((dat1 (F := Ideal) V c).after 2 t) = _
  rw [after1_2, last_sum1 V c t h9]
  have hz' : (fun a => win1_2.index t a * main_v47_0.ty.shape.size a) = fun _ => 0 := funext fun a => by
    match a with
    | ⟨0, _⟩ => exact ho.1
    | ⟨1, _⟩ => exact ho.2.1
  exact (Memref.read_access_unit_zero (Elt Ideal) main_v47_0 hz' (fun a => by rw [congrFun hz' a]; simp)
    (Cert.Gcn.colSum (Cert.Gcn.addRow (V c main_v45) (V c main_v46)))).symm

/-- The one write-back of the squares, at the last point, writes the column sums of squares. -/
theorem flushed1_sq (c : Dev nD) (t : Fin cfg1.N) (hf : (cfg1.win 3).flush t = true) :
    (dat1 (F := Ideal) V c).flushed 3 t
      = ((cfg1.win 3).blk t).view.read (Elt Ideal)
          (Cert.Gcn.colSum (Cert.Gcn.sqr (Cert.Gcn.addRow (V c main_v45) (V c main_v46)))) := by
  have hN : cfg1.N = 10 := N_1
  have h9 : t.val = 9 := by have := (flush1_3 t).mp hf; have := t.isLt; omega
  have ho := (oblk1 t).2
  show (cfg1.win 3).cut (grid1.coords t) ((dat1 (F := Ideal) V c).after 3 t) = _
  rw [after1_3, last_sq1 V c t h9]
  have hz' : (fun a => win1_3.index t a * main_v47_1.ty.shape.size a) = fun _ => 0 := funext fun a => by
    match a with
    | ⟨0, _⟩ => exact ho.1
    | ⟨1, _⟩ => exact ho.2.1
  exact (Memref.read_access_unit_zero (Elt Ideal) main_v47_1 hz' (fun a => by rw [congrFun hz' a]; simp)
    (Cert.Gcn.colSum (Cert.Gcn.sqr (Cert.Gcn.addRow (V c main_v45) (V c main_v46))))).symm

/-- The last point, as a point of the grid. -/
def tlast1 : Fin cfg1.N := ⟨9, by rw [show cfg1.N = 10 from N_1]; decide⟩

/-- THE SUMS: the first result array ends holding the column sums of the bias-shifted input. -/
theorem final1_sum (c : Dev nD) :
    (dat1 (F := Ideal) V c).arrAt 2 cfg1.N = Cert.Gcn.colSum (Cert.Gcn.addRow (V c main_v45) (V c main_v46)) :=
  (dat1 (F := Ideal) V c).arrAt_eq_of_cover 2 _ (flushed1_sum V c) fun i =>
    ⟨tlast1, (flush1_2 tlast1).mpr rfl, by
      have ho := (oblk1 tlast1).1
      show i ∈ ((View.whole main_v47_0).slice (win1_2.rect tlast1)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index tlast1 0 * win1_2.size 0 ≤ (i 0 : Nat)
          ∧ (i 0 : Nat) < win1_2.index tlast1 0 * win1_2.size 0 + win1_2.xsize (grid1.coords tlast1) 0
        rw [ho.1, ho.2.2.1]; omega
      | ⟨1, _⟩ =>
        show win1_2.index tlast1 1 * win1_2.size 1 ≤ (i 1 : Nat)
          ∧ (i 1 : Nat) < win1_2.index tlast1 1 * win1_2.size 1 + win1_2.xsize (grid1.coords tlast1) 1
        rw [ho.2.1, ho.2.2.2]; omega⟩

/-- THE SQUARES: the second result array ends holding the column sums of the squared bias-shifted input. -/
theorem final1_sq (c : Dev nD) :
    (dat1 (F := Ideal) V c).arrAt 3 cfg1.N
      = Cert.Gcn.colSum (Cert.Gcn.sqr (Cert.Gcn.addRow (V c main_v45) (V c main_v46))) :=
  (dat1 (F := Ideal) V c).arrAt_eq_of_cover 3 _ (flushed1_sq V c) fun i =>
    ⟨tlast1, (flush1_3 tlast1).mpr rfl, by
      have ho := (oblk1 tlast1).2
      show i ∈ ((View.whole main_v47_1).slice (win1_3.rect tlast1)).set
      rw [View.set_slice_whole, Rect.mem_set_unit]
      intro a
      have h0 : (i 0 : Nat) < 1 := (i 0).isLt
      have h1 : (i 1 : Nat) < 128 := (i 1).isLt
      match a with
      | ⟨0, _⟩ =>
        show win1_3.index tlast1 0 * win1_3.size 0 ≤ (i 0 : Nat)
          ∧ (i 0 : Nat) < win1_3.index tlast1 0 * win1_3.size 0 + win1_3.xsize (grid1.coords tlast1) 0
        rw [ho.1, ho.2.2.1]; omega
      | ⟨1, _⟩ =>
        show win1_3.index tlast1 1 * win1_3.size 1 ≤ (i 1 : Nat)
          ∧ (i 1 : Nat) < win1_3.index tlast1 1 * win1_3.size 1 + win1_3.xsize (grid1.coords tlast1) 1
        rw [ho.2.1, ho.2.2.2]; omega⟩

end Final1

end Cert.KernelIdeal.StatRegions

end
-- ==== Proof.Stat4.lean ====
/-
  Statistics region 4: its two result arrays as functions of its two input arrays.

  The kernel runs over ten points. Point `t` sees rows `5000 t … 5000 t + 4999` of the 50000 × 128 input and the
  one-row bias; the two one-row results stay in place across the points and are written back once, after the last.
  The first point zeroes both and every point adds its block's column sums of `x + b` and of `(x + b)²`.

  * `out4_A_2_eq` … `out4_B_3_eq`: what one point leaves in each accumulator, as the block's arithmetic applied
    to the blocks read and to what the accumulator held.
  * `sum_inv4`, `sq_inv4`: after point `n` the accumulators hold, column by column, the sums over the rows of
    blocks `0 … n` — by induction on the point.
  * `final4_sum`, `final4_sq`: the arrays end at the column sums of `x + b` and of `(x + b)²` over all 50000
    rows, since the last point's write-back is the whole one-row array.
-/
import proofs.«150636_j78039555768704_1_alg».proof.Proof.Gen.KernelIdeal.Frame
import proofs.«150636_j78039555768704_1_alg».proof.Proof.Spec
import proofs.«150636_j78039555768704_1_alg».proof.Proof.Stat1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.StatRegions

open Idealize.ShloMosaic Idealize.ShloMosaic.ValueIdx Idealize.ShloMosaic.TcCoe Idealize.SL.Sem
open Idealize.ShloMosaic.Pipeline (Dat)
open Cert.KernelIdeal Cert.KernelIdeal.Gen

/-! ## What one point leaves in each accumulator -/

section Pieces4
variable {F : FTy → Type} [FloatOps F]

/-- A later point leaves, in the sum accumulator holding `xo2`, the running sum advanced by the block. -/
theorem out4_B_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero (S := S1x128) hz]
  simp only [View.readAt_eq_ld, h1.read_unread, h2.read_unread, h3.read_unread,
    View.ld_unit_zero (S := S5000x128) hz, View.ld_unit_zero (S := S1x128) hz]

/-- A later point leaves, in the squares accumulator holding `xo3`, the running sum of squares advanced by the block. -/
theorem out4_B_3_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero (S := S1x128) hz]
  simp only [View.readAt_eq_ld, h1.read_unread, h2.read_unread, h4.read_unread,
    View.ld_unit_zero (S := S5000x128) hz, View.ld_unit_zero (S := S1x128) hz]

/-- The first point zeroes the sum accumulator, reads the zero row back and advances it by the block. -/
theorem out4_A_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

/-- The first point zeroes the squares accumulator, reads the zero row back and advances it by the block. -/
theorem out4_A_3_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

end Pieces4

/-! ## Region 4: the blocks read, the accumulators point by point -/

section Region4

variable (V : (c : Dev nD) → (b : Ref sig .tc) → Buf (Elt Ideal) ((c : Thread nD τ).loc b))

/-- Where the windows' blocks sit: the data block moves one block of rows per point, the bias row stays. -/
theorem idx4 : ∀ t : Fin cfg4.N, (win4_0.index t (0 : Fin 2) = t.val ∧ win4_0.index t (1 : Fin 2) = 0)
      ∧ (win4_1.index t (0 : Fin 2) = 0 ∧ win4_1.index t (1 : Fin 2) = 0) :=
  (by decide +kernel : ∀ t : Fin grid4.N, (win4_0.index t (0 : Fin 2) = t.val ∧ win4_0.index t (1 : Fin 2) = 0)
      ∧ (win4_1.index t (0 : Fin 2) = 0 ∧ win4_1.index t (1 : Fin 2) = 0))

/-- Row `r` of the data block at point `t` is row `5000 t + r` of the array. -/
theorem iblk4_0_apply (c : Dev nD) (t : Fin cfg4.N) (r : Fin 5000) (q : Fin 128) (p : Fin 50000)
    (hp : p.val = 5000 * t.val + r.val) :
    (iblk4 (F := Ideal) V c 0 t : Vec Ideal S5000x128 .f32) (ix2 r q)
      = (V c main_v73 : S50000x128.Idx → Ideal .f32) (ix2 p q) := by
  have hi := (idx4 t).1
  unfold iblk4
  rw [View.read_apply]
  show V c main_v73 _ = V c main_v73 _
  refine congrArg (V c main_v73) ?_
  funext a
  apply Fin.ext
  match a with
  | ⟨0, _⟩ => show win4_0.index t 0 * 5000 + 1 * r.val = p.val; rw [hi.1, hp]; omega
  | ⟨1, _⟩ => show win4_0.index t 1 * 128 + 1 * q.val = q.val; rw [hi.2]; omega

/-- The bias block at every point is the bias row. -/
theorem iblk4_1_apply (c : Dev nD) (t : Fin cfg4.N) (q : Fin 128) :
    (iblk4 (F := Ideal) V c 1 t : Vec Ideal S1x128 .f32) (ix2 (0 : Fin 1) q)
      = (V c main_v74 : S1x128.Idx → Ideal .f32) (ix2 (0 : Fin 1) q) := by
  have hi := (idx4 t).2
  unfold iblk4
  rw [View.read_apply]
  show V c main_v74 _ = V c main_v74 _
  refine congrArg (V c main_v74) ?_
  funext a
  apply Fin.ext
  match a with
  | ⟨0, _⟩ => show win4_1.index t 0 * 1 + 1 * 0 = 0; rw [hi.1]
  | ⟨1, _⟩ => show win4_1.index t 1 * 128 + 1 * q.val = q.val; rw [hi.2]; omega

end Region4

section Steps4

variable {F : FTy → Type} [FloatOps F]
variable (V : (c : Dev nD) → (b : Ref sig .tc) → Buf (Elt F) ((c : Thread nD τ).loc b))

/-- The data block and the bias block at a point, at their literal shapes. -/
abbrev xb4 (c : Dev nD) (t : Fin cfg4.N) : Vec F S5000x128 .f32 := iblk4 V c 0 t
abbrev bb4 (c : Dev nD) (t : Fin cfg4.N) : Vec F S1x128 .f32 := iblk4 V c 1 t

/-- After the first point the sum accumulator is the zero row advanced by the first block. -/
theorem outs4_zero_fst (c : Dev nD) (h : 0 < cfg4.N) :
    (outsAt4 V c 0 h).1 = k4_pay4 (xb4 V c ⟨0, h⟩) (bb4 V c ⟨0, h⟩) k4_pay1 :=
  (congrArg Prod.fst (outsAt4_A V c ⟨0, h⟩ rfl)).trans
    (out4_A_2_eq c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩)
      (ms4_3 ⟨0, h⟩) (hs4_3 ⟨0, h⟩) ((hcond4_0 ⟨0, h⟩).mpr rfl) (xb4 V c ⟨0, h⟩) (bb4 V c ⟨0, h⟩))

/-- After the first point the squares accumulator is the zero row advanced by the first block. -/
theorem outs4_zero_snd (c : Dev nD) (h : 0 < cfg4.N) :
    (outsAt4 V c 0 h).2 = k4_pay5 (xb4 V c ⟨0, h⟩) (bb4 V c ⟨0, h⟩) k4_pay2 :=
  (congrArg Prod.snd (outsAt4_A V c ⟨0, h⟩ rfl)).trans
    (out4_A_3_eq c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩)
      (ms4_3 ⟨0, h⟩) (hs4_3 ⟨0, h⟩) ((hcond4_0 ⟨0, h⟩).mpr rfl) (xb4 V c ⟨0, h⟩) (bb4 V c ⟨0, h⟩))

/-- After a later point the sum accumulator is what the point before left, advanced by this point's block. -/
theorem outs4_succ_fst (c : Dev nD) (n : ℕ) (h : n + 1 < cfg4.N) :
    (outsAt4 V c (n + 1) h).1
      = k4_pay4 (xb4 V c ⟨n + 1, h⟩) (bb4 V c ⟨n + 1, h⟩) (outsAt4 V c n (Nat.lt_of_succ_lt h)).1 := by
  have hN : cfg4.N = 10 := N_4
  have hB : ¬(⟨n + 1, h⟩ : Fin cfg4.N).val % 10 = 0 := by dsimp only; omega
  exact (congrArg Prod.fst (outsAt4_B V c ⟨n + 1, h⟩ hB)).trans
    (out4_B_2_eq c (grid4.coords ⟨n + 1, h⟩) (ms4_0 ⟨n + 1, h⟩) (hs4_0 ⟨n + 1, h⟩) (ms4_1 ⟨n + 1, h⟩) (hs4_1 ⟨n + 1, h⟩)
      (ms4_2 ⟨n + 1, h⟩) (hs4_2 ⟨n + 1, h⟩) (ms4_3 ⟨n + 1, h⟩) (hs4_3 ⟨n + 1, h⟩) (fun hh => hB ((hcond4_0 ⟨n + 1, h⟩).mp hh)) (xb4 V c ⟨n + 1, h⟩) (bb4 V c ⟨n + 1, h⟩)
      (outsAt4 V c n (Nat.lt_of_succ_lt h)).1 (outsAt4 V c n (Nat.lt_of_succ_lt h)).2)

/-- After a later point the squares accumulator is what the point before left, advanced by this point's block. -/
theorem outs4_succ_snd (c : Dev nD) (n : ℕ) (h : n + 1 < cfg4.N) :
    (outsAt4 V c (n + 1) h).2
      = k4_pay5 (xb4 V c ⟨n + 1, h⟩) (bb4 V c ⟨n + 1, h⟩) (outsAt4 V c n (Nat.lt_of_succ_lt h)).2 := by
  have hN : cfg4.N = 10 := N_4
  have hB : ¬(⟨n + 1, h⟩ : Fin cfg4.N).val % 10 = 0 := by dsimp only; omega
  exact (congrArg Prod.snd (outsAt4_B V c ⟨n + 1, h⟩ hB)).trans
    (out4_B_3_eq c (grid4.coords ⟨n + 1, h⟩) (ms4_0 ⟨n + 1, h⟩) (hs4_0 ⟨n + 1, h⟩) (ms4_1 ⟨n + 1, h⟩) (hs4_1 ⟨n + 1, h⟩)
      (ms4_2 ⟨n + 1, h⟩) (hs4_2 ⟨n + 1, h⟩) (ms4_3 ⟨n + 1, h⟩) (hs4_3 ⟨n + 1, h⟩) (fun hh => hB ((hcond4_0 ⟨n + 1, h⟩).mp hh)) (xb4 V c ⟨n + 1, h⟩) (bb4 V c ⟨n + 1, h⟩)
      (outsAt4 V c n (Nat.lt_of_succ_lt h)).1 (outsAt4 V c n (Nat.lt_of_succ_lt h)).2)

end Steps4

section Invariant4

variable (V : (c : Dev nD) → (b : Ref sig .tc) → Buf (Elt Ideal) ((c : Thread nD τ).loc b))

/-- Column `q`'s bias-shifted entries, row by row. -/
abbrev col4 (c : Dev nD) (q : Fin 128) (p : Fin 50000) : EReal :=
  colv (V c main_v73) (V c main_v74) q p

/-- THE SUM INVARIANT: after point `n` the sum accumulator holds, in column `q`, the sum of that column's
    bias-shifted entries over the rows of blocks `0 … n`. By induction on the point. -/
theorem sum_inv4 (c : Dev nD) : ∀ (n : ℕ) (h : n < cfg4.N) (q : Fin 128),
    (outsAt4 (F := Ideal) V c n h).1 (ix2 (0 : Fin 1) q) = ∑ s ∈ Finset.range (n + 1), blk (col4 V c q) s
  | 0, h, q => by
    rw [outs4_zero_fst V c h]
    refine (pay4_apply' (xb4 V c ⟨0, h⟩) (bb4 V c ⟨0, h⟩) (k4_pay1 (F := Ideal)) q).trans ?_
    rw [pay1_apply', sum_blk_zero]
    refine congrArg (fun z => (0 : EReal) + z) (Finset.sum_congr rfl fun r _ => ?_)
    exact (congrArg₂ (fun a b : EReal => a + b) (iblk4_0_apply V c ⟨0, h⟩ r q ⟨5000 * 0 + r.val, by have := r.isLt; omega⟩ rfl) (iblk4_1_apply V c ⟨0, h⟩ q))
  | n + 1, h, q => by
    have hN : cfg4.N = 10 := N_4
    rw [outs4_succ_fst V c n h]
    refine (pay4_apply' (xb4 V c ⟨n + 1, h⟩) (bb4 V c ⟨n + 1, h⟩) _ q).trans ?_
    rw [sum_inv4 c n (Nat.lt_of_succ_lt h) q, sum_blk_succ _ n (by omega)]
    refine congrArg (fun z => (∑ s ∈ Finset.range (n + 1), blk (col4 V c q) s) + z) (Finset.sum_congr rfl fun r _ => ?_)
    exact (congrArg₂ (fun a b : EReal => a + b) (iblk4_0_apply V c ⟨n + 1, h⟩ r q ⟨5000 * (n + 1) + r.val, by have := r.isLt; omega⟩ rfl) (iblk4_1_apply V c ⟨n + 1, h⟩ q))

/-- THE SQUARES INVARIANT: likewise the sum of the squares of the bias-shifted entries. -/
theorem sq_inv4 (c : Dev nD) : ∀ (n : ℕ) (h : n < cfg4.N) (q : Fin 128),
    (outsAt4 (F := Ideal) V c n h).2 (ix2 (0 : Fin 1) q)
      = ∑ s ∈ Finset.range (n + 1), blk (fun p => col4 V c q p * col4 V c q p) s
  | 0, h, q => by
    rw [outs4_zero_snd V c h]
    refine (pay5_apply' (xb4 V c ⟨0, h⟩) (bb4 V c ⟨0, h⟩) (k4_pay2 (F := Ideal)) q).trans ?_
    rw [pay2_apply', sum_blk_zero]
    refine congrArg (fun z => (0 : EReal) + z) (Finset.sum_congr rfl fun r _ => ?_)
    have e := (congrArg₂ (fun a b : EReal => a + b) (iblk4_0_apply V c ⟨0, h⟩ r q ⟨5000 * 0 + r.val, by have := r.isLt; omega⟩ rfl) (iblk4_1_apply V c ⟨0, h⟩ q))
    exact congrArg₂ (fun a b : EReal => a * b) e e
  | n + 1, h, q => by
    have hN : cfg4.N = 10 := N_4
    rw [outs4_succ_snd V c n h]
    refine (pay5_apply' (xb4 V c ⟨n + 1, h⟩) (bb4 V c ⟨n + 1, h⟩) _ q).trans ?_
    rw [sq_inv4 c n (Nat.lt_of_succ_lt h) q, sum_blk_succ _ n (by omega)]
    refine congrArg (fun z => (∑ s ∈ Finset.range (n + 1), blk (fun p => col4 V c q p * col4 V c q p) s) + z)
      (Finset.sum_congr rfl fun r _ => ?_)
    have e := (congrArg₂ (fun a b : EReal => a + b) (iblk4_0_apply V c ⟨n + 1, h⟩ r q ⟨5000 * (n + 1) + r.val, by have := r.isLt; omega⟩ rfl) (iblk4_1_apply V c ⟨n + 1, h⟩ q))
    exact congrArg₂ (fun a b : EReal => a * b) e e

end Invariant4

section Final4

variable (V : (c : Dev nD) → (b : Ref sig .tc) → Buf (Elt Ideal) ((c : Thread nD τ).loc b))

/-- After the last point the sum accumulator holds the column sums of the bias-shifted array. -/
theorem last_sum4 (c : Dev nD) (t : Fin cfg4.N) (ht : t.val = 9) :
    (outsAt4 (F := Ideal) V c t.val t.isLt).1 = Cert.Gcn.colSum (Cert.Gcn.addRow (V c main_v73) (V c main_v74)) := by
  funext j
  obtain ⟨q, rfl⟩ := row_ix j
  rw [sum_inv4 V c t.val t.isLt q]
  simp only [ht]
  rw [sum_blk]
  rfl

/-- After the last point the squares accumulator holds the column sums of the squared bias-shifted array. -/
theorem last_sq4 (c : Dev nD) (t : Fin cfg4.N) (ht : t.val = 9) :
    (outsAt4 (F := Ideal) V c t.val t.isLt).2
      = Cert.Gcn.colSum (Cert.Gcn.sqr (Cert.Gcn.addRow (V c main_v73) (V c main_v74))) := by
  funext j
  obtain ⟨q, rfl⟩ := row_ix j
  rw [sq_inv4 V c t.val t.isLt q]
  simp only [ht]
  rw [sum_blk]
  rfl

/-- The accumulators' one block sits at the origin at every point and is the whole one-row array. -/
theorem oblk4 : ∀ t : Fin cfg4.N,
      (win4_2.index t (0 : Fin 2) * win4_2.size (0 : Fin 2) = 0 ∧ win4_2.index t (1 : Fin 2) * win4_2.size (1 : Fin 2) = 0
        ∧ win4_2.xsize (grid4.coords t) (0 : Fin 2) = 1 ∧ win4_2.xsize (grid4.coords t) (1 : Fin 2) = 128)
      ∧ (win4_3.index t (0 : Fin 2) * win4_3.size (0 : Fin 2) = 0 ∧ win4_3.index t (1 : Fin 2) * win4_3.size (1 : Fin 2) = 0
        ∧ win4_3.xsize (grid4.coords t) (0 : Fin 2) = 1 ∧ win4_3.xsize (grid4.coords t) (1 : Fin 2) = 128) :=
  (by decide +kernel : ∀ t : Fin grid4.N,
      (win4_2.index t (0 : Fin 2) * win4_2.size (0 : Fin 2) = 0 ∧ win4_2.index t (1 : Fin 2) * win4_2.size (1 : Fin 2) = 0
        ∧ win4_2.xsize (grid4.coords t) (0 : Fin 2) = 1 ∧ win4_2.xsize (grid4.coords t) (1 : Fin 2) = 128)
      ∧ (win4_3.index t (0 : Fin 2) * win4_3.size (0 : Fin 2) = 0 ∧ win4_3.index t (1 : Fin 2) * win4_3.size (1 : Fin 2) = 0
        ∧ win4_3.xsize (grid4.coords t) (0 : Fin 2) = 1 ∧ win4_3.xsize (grid4.coords t) (1 : Fin 2) = 128))

/-- The one write-back of the sums, at the last point, writes the column sums. -/
theorem flushed4_sum (c : Dev nD) (t : Fin cfg4.N) (hf : (cfg4.win 2).flush t = true) :
    (dat4 (F := Ideal) V c).flushed 2 t
      = ((cfg4.win 2).blk t).view.read (Elt Ideal) (Cert.Gcn.colSum (Cert.Gcn.addRow (V c main_v73) (V c main_v74))) := by
  have hN : cfg4.N = 10 := N_4
  have h9 : t.val = 9 := by have := (flush4_2 t).mp hf; have := t.isLt; omega
  have ho := (oblk4 t).1
  show (cfg4.win 2).cut (grid4.coords t) ((dat4 (F := Ideal) V c).after 2 t) = _
  rw [after4_2, last_sum4 V c t h9]
  have hz' : (fun a => win4_2.index t a * main_v75_0.ty.shape.size a) = fun _ => 0 := funext fun a => by
    match a with
    | ⟨0, _⟩ => exact ho.1
    | ⟨1, _⟩ => exact ho.2.1
  exact (Memref.read_access_unit_zero (Elt Ideal) main_v75_0 hz' (fun a => by rw [congrFun hz' a]; simp)
    (Cert.Gcn.colSum (Cert.Gcn.addRow (V c main_v73) (V c main_v74)))).symm

/-- The one write-back of the squares, at the last point, writes the column sums of squares. -/
theorem flushed4_sq (c : Dev nD) (t : Fin cfg4.N) (hf : (cfg4.win 3).flush t = true) :
    (dat4 (F := Ideal) V c).flushed 3 t
      = ((cfg4.win 3).blk t).view.read (Elt Ideal)
          (Cert.Gcn.colSum (Cert.Gcn.sqr (Cert.Gcn.addRow (V c main_v73) (V c main_v74)))) := by
  have hN : cfg4.N = 10 := N_4
  have h9 : t.val = 9 := by have := (flush4_3 t).mp hf; have := t.isLt; omega
  have ho := (oblk4 t).2
  show (cfg4.win 3).cut (grid4.coords t) ((dat4 (F := Ideal) V c).after 3 t) = _
  rw [after4_3, last_sq4 V c t h9]
  have hz' : (fun a => win4_3.index t a * main_v75_1.ty.shape.size a) = fun _ => 0 := funext fun a => by
    match a with
    | ⟨0, _⟩ => exact ho.1
    | ⟨1, _⟩ => exact ho.2.1
  exact (Memref.read_access_unit_zero (Elt Ideal) main_v75_1 hz' (fun a => by rw [congrFun hz' a]; simp)
    (Cert.Gcn.colSum (Cert.Gcn.sqr (Cert.Gcn.addRow (V c main_v73) (V c main_v74))))).symm

/-- The last point, as a point of the grid. -/
def tlast4 : Fin cfg4.N := ⟨9, by rw [show cfg4.N = 10 from N_4]; decide⟩

/-- THE SUMS: the first result array ends holding the column sums of the bias-shifted input. -/
theorem final4_sum (c : Dev nD) :
    (dat4 (F := Ideal) V c).arrAt 2 cfg4.N = Cert.Gcn.colSum (Cert.Gcn.addRow (V c main_v73) (V c main_v74)) :=
  (dat4 (F := Ideal) V c).arrAt_eq_of_cover 2 _ (flushed4_sum V c) fun i =>
    ⟨tlast4, (flush4_2 tlast4).mpr rfl, by
      have ho := (oblk4 tlast4).1
      show i ∈ ((View.whole main_v75_0).slice (win4_2.rect tlast4)).set
      rw [View.set_slice_whole, Rect.mem_set_unit]
      intro a
      have h0 : (i 0 : Nat) < 1 := (i 0).isLt
      have h1 : (i 1 : Nat) < 128 := (i 1).isLt
      match a with
      | ⟨0, _⟩ =>
        show win4_2.index tlast4 0 * win4_2.size 0 ≤ (i 0 : Nat)
          ∧ (i 0 : Nat) < win4_2.index tlast4 0 * win4_2.size 0 + win4_2.xsize (grid4.coords tlast4) 0
        rw [ho.1, ho.2.2.1]; omega
      | ⟨1, _⟩ =>
        show win4_2.index tlast4 1 * win4_2.size 1 ≤ (i 1 : Nat)
          ∧ (i 1 : Nat) < win4_2.index tlast4 1 * win4_2.size 1 + win4_2.xsize (grid4.coords tlast4) 1
        rw [ho.2.1, ho.2.2.2]; omega⟩

/-- THE SQUARES: the second result array ends holding the column sums of the squared bias-shifted input. -/
theorem final4_sq (c : Dev nD) :
    (dat4 (F := Ideal) V c).arrAt 3 cfg4.N
      = Cert.Gcn.colSum (Cert.Gcn.sqr (Cert.Gcn.addRow (V c main_v73) (V c main_v74))) :=
  (dat4 (F := Ideal) V c).arrAt_eq_of_cover 3 _ (flushed4_sq V c) fun i =>
    ⟨tlast4, (flush4_3 tlast4).mpr rfl, by
      have ho := (oblk4 tlast4).2
      show i ∈ ((View.whole main_v75_1).slice (win4_3.rect tlast4)).set
      rw [View.set_slice_whole, Rect.mem_set_unit]
      intro a
      have h0 : (i 0 : Nat) < 1 := (i 0).isLt
      have h1 : (i 1 : Nat) < 128 := (i 1).isLt
      match a with
      | ⟨0, _⟩ =>
        show win4_3.index tlast4 0 * win4_3.size 0 ≤ (i 0 : Nat)
          ∧ (i 0 : Nat) < win4_3.index tlast4 0 * win4_3.size 0 + win4_3.xsize (grid4.coords tlast4) 0
        rw [ho.1, ho.2.2.1]; omega
      | ⟨1, _⟩ =>
        show win4_3.index tlast4 1 * win4_3.size 1 ≤ (i 1 : Nat)
          ∧ (i 1 : Nat) < win4_3.index tlast4 1 * win4_3.size 1 + win4_3.xsize (grid4.coords tlast4) 1
        rw [ho.2.1, ho.2.2.2]; omega⟩

end Final4

end Cert.KernelIdeal.StatRegions

end
-- ==== Proof.StatRegions.lean ====
/-
  The two column-statistics regions of the kernel, each result array as one function of the region's input arrays:
  with `x` the 50000 × 128 input and `b` the one-row bias, the first result is the column sums of `x + b`
  (`Cert.Gcn.colSum (Cert.Gcn.addRow x b)`) and the second the column sums of `(x + b)²`
  (`Cert.Gcn.colSum (Cert.Gcn.sqr (Cert.Gcn.addRow x b))`): `final1_sum`, `final1_sq` for the first
  statistics region and `final4_sum`, `final4_sq` for the second.
-/
import proofs.«150636_j78039555768704_1_alg».proof.Proof.Stat1
import proofs.«150636_j78039555768704_1_alg».proof.Proof.Stat4
-- ==== Proof.RefOps.lean ====
/-
  The reference program's run, operation by operation.

  The reference computes a two-layer graph convolution followed by a linear layer: per layer a matrix product,
  the symmetric degree normalisation deg⁻¹ᐟ²(source) · deg⁻¹ᐟ²(target) of every edge (self-loops added), the
  normalised neighbourhood sum, a bias, a normalisation by the column mean and variance over the nodes with a
  learned scale and shift, and the maximum with zero. Its program is a straight line of 217 tensor operations
  once each call of a module-local function is replaced by that function's lines over the call's own buffers
  (161 operations of the main function, 3 per `where`, 22 per variance, 3 per maximum-with-zero; two calls each).

  `ops` lists them in program order, cut into twenty consecutive stages by what they compute; `main_eq` says the
  program is that line; `run_main` says every fair execution from a memory with zero counters terminates with
  every buffer at the operations' fold over the launch contents.
-/
import proofs.«150636_j78039555768704_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## The twenty stages -/

/-- The edge list's two rows, each flattened and followed by the node numbers 0 … n−1 (one self-loop per node). -/
abbrev sEdges : List (HloOp τ sig (Elt F)) :=
  [ StableHlo.nullary main_v0 (iotaInDim S50000 32 0),
    StableHlo.unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v1 main_v2 rfl shapeCasts_S1x600000_S600000,
    StableHlo.binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v4 main_v5 rfl shapeCasts_S1x600000_S600000,
    StableHlo.binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)) ]
/-- Every operation of the stage touches tensor buffers of the device only. -/
theorem sEdges_sub : (sEdges : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub ..⟩
/-- Every operation of the stage determines what it writes. -/
theorem sEdges_det : (sEdges : List (HloOp τ sig (Elt F))).Forall fun op => op.fresh = ∅ :=
  ⟨rfl, rfl, rfl, rfl, rfl, rfl, rfl⟩

/-- The first layer's matrix product of the node features with its weight matrix. -/
abbrev sDot1 : List (HloOp τ sig (Elt F)) :=
  [ StableHlo.binary main_arg0 main_arg2 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
/-- Every operation of the stage touches tensor buffers of the device only. -/
theorem sDot1_sub : (sDot1 : List (HloOp τ sig (Elt F))).Forall fun op => op.bufs ⊆ StableHlo.tcRefs τ sig :=
  StableHlo.binary_bufs_sub ..
/-- Every operation of the stage determines what it writes. -/
theorem sDot1_det : (sDot1 : List (HloOp τ sig (Elt F))).Forall fun op => op.fresh = ∅ :=
  rfl

/-- First layer: the in-degree of every node (ones summed at the target indices) and its inverse square root, zero where the degree is zero. -/
abbrev sDinv1 : List (HloOp τ sig (Elt F)) :=
  [ StableHlo.nullary main_cst (constant S_ .f32 0x3F800000#32),
    StableHlo.unary main_cst main_v8 (broadcastInDim S650000 ![] bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v6 main_v10 (broadcastInDim S650000x1 ![0] bcast_S650000_S650000x1_0 : (⟨S650000, .i32⟩ : BufTy).Contents (Elt F) → (⟨S650000x1, .i32⟩ : BufTy).Contents (Elt F)),
    StableHlo.ternary main_v9 main_v10 main_v8 main_v11 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v11 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v13 : StableHlo.TRef sig ⟨S50000, .i1⟩) (.of main_v16 : StableHlo.TRef sig ⟨S50000, .f32⟩) main_call0.v1 main_call0.v2 select ]
/-- Every operation of the stage touches tensor buffers of the device only. -/
theorem sDinv1_sub : (sDinv1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
/-- Every operation of the stage determines what it writes. -/
theorem sDinv1_det : (sDinv1 : List (HloOp τ sig (Elt F))).Forall fun op => op.fresh = ∅ :=
  ⟨rfl, rfl, rfl, rfl, rfl, rfl, rfl, rfl, rfl, rfl, rfl, rfl, rfl, rfl, rfl, rfl, rfl⟩

/-- First layer: the weight of every edge, the product of the inverse square roots of the degrees at its two ends. -/
abbrev sCoef1 : List (HloOp τ sig (Elt F)) :=
  [ StableHlo.nullary main_c (constantI S_ 32 0#32),
    StableHlo.unary main_c main_v18 (broadcastInDim S650000 ![] bcast_S_S650000 : (⟨S_, .i32⟩ : BufTy).Contents (Elt F) → (⟨S650000, .i32⟩ : BufTy).Contents (Elt F)),
    StableHlo.binary main_v3 main_v18 main_v19 (cmpi .slt : (⟨S650000, .i32⟩ : BufTy).Contents (Elt F) → (⟨S650000, .i32⟩ : BufTy).Contents (Elt F) → (⟨S650000, .i1⟩ : BufTy).Contents (Elt F)),
    StableHlo.nullary main_c_4 (constantI S_ 32 50000#32),
    StableHlo.unary main_c_4 main_v20 (broadcastInDim S650000 ![] bcast_S_S650000 : (⟨S_, .i32⟩ : BufTy).Contents (Elt F) → (⟨S650000, .i32⟩ : BufTy).Contents (Elt F)),
    StableHlo.binary main_v3 main_v20 main_v21 (addi : (⟨S650000, .i32⟩ : BufTy).Contents (Elt F) → (⟨S650000, .i32⟩ : BufTy).Contents (Elt F) → (⟨S650000, .i32⟩ : BufTy).Contents (Elt F)),
    StableHlo.ternary main_v19 main_v21 main_v3 main_v22 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v22 main_v23 (broadcastInDim S650000x1 ![0] bcast_S650000_S650000x1_0 : (⟨S650000, .i32⟩ : BufTy).Contents (Elt F) → (⟨S650000x1, .i32⟩ : BufTy).Contents (Elt F)),
    StableHlo.binary main_v17 main_v23 main_v24 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.nullary main_c_5 (constantI S_ 32 0#32),
    StableHlo.unary main_c_5 main_v25 (broadcastInDim S650000 ![] bcast_S_S650000 : (⟨S_, .i32⟩ : BufTy).Contents (Elt F) → (⟨S650000, .i32⟩ : BufTy).Contents (Elt F)),
    StableHlo.binary main_v6 main_v25 main_v26 (cmpi .slt : (⟨S650000, .i32⟩ : BufTy).Contents (Elt F) → (⟨S650000, .i32⟩ : BufTy).Contents (Elt F) → (⟨S650000, .i1⟩ : BufTy).Contents (Elt F)),
    StableHlo.nullary main_c_6 (constantI S_ 32 50000#32),
    StableHlo.unary main_c_6 main_v27 (broadcastInDim S650000 ![] bcast_S_S650000 : (⟨S_, .i32⟩ : BufTy).Contents (Elt F) → (⟨S650000, .i32⟩ : BufTy).Contents (Elt F)),
    StableHlo.binary main_v6 main_v27 main_v28 (addi : (⟨S650000, .i32⟩ : BufTy).Contents (Elt F) → (⟨S650000, .i32⟩ : BufTy).Contents (Elt F) → (⟨S650000, .i32⟩ : BufTy).Contents (Elt F)),
    StableHlo.ternary main_v26 main_v28 main_v6 main_v29 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v29 main_v30 (broadcastInDim S650000x1 ![0] bcast_S650000_S650000x1_0 : (⟨S650000, .i32⟩ : BufTy).Contents (Elt F) → (⟨S650000x1, .i32⟩ : BufTy).Contents (Elt F)),
    StableHlo.binary main_v17 main_v30 main_v31 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v24 main_v31 main_v32 (mulf : (⟨S650000, .f32⟩ : BufTy).Contents (Elt F) → (⟨S650000, .f32⟩ : BufTy).Contents (Elt F) → (⟨S650000, .f32⟩ : BufTy).Contents (Elt F)) ]
/-- Every operation of the stage touches tensor buffers of the device only. -/
theorem sCoef1_sub : (sCoef1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
/-- Every operation of the stage determines what it writes. -/
theorem sCoef1_det : (sCoef1 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- First layer: every edge carries its weight times its source node's row to its target node, where the contributions are summed. -/
abbrev sAgg1 : List (HloOp τ sig (Elt F)) :=
  [ StableHlo.unary main_v32 main_v33 (broadcastInDim S650000x1 ![0] bcast_S650000_S650000x1_0 : (⟨S650000, .f32⟩ : BufTy).Contents (Elt F) → (⟨S650000x1, .f32⟩ : BufTy).Contents (Elt F)),
    StableHlo.nullary main_c_7 (constantI S_ 32 0#32),
    StableHlo.unary main_c_7 main_v34 (broadcastInDim S650000 ![] bcast_S_S650000 : (⟨S_, .i32⟩ : BufTy).Contents (Elt F) → (⟨S650000, .i32⟩ : BufTy).Contents (Elt F)),
    StableHlo.binary main_v3 main_v34 main_v35 (cmpi .slt : (⟨S650000, .i32⟩ : BufTy).Contents (Elt F) → (⟨S650000, .i32⟩ : BufTy).Contents (Elt F) → (⟨S650000, .i1⟩ : BufTy).Contents (Elt F)),
    StableHlo.nullary main_c_8 (constantI S_ 32 50000#32),
    StableHlo.unary main_c_8 main_v36 (broadcastInDim S650000 ![] bcast_S_S650000 : (⟨S_, .i32⟩ : BufTy).Contents (Elt F) → (⟨S650000, .i32⟩ : BufTy).Contents (Elt F)),
    StableHlo.binary main_v3 main_v36 main_v37 (addi : (⟨S650000, .i32⟩ : BufTy).Contents (Elt F) → (⟨S650000, .i32⟩ : BufTy).Contents (Elt F) → (⟨S650000, .i32⟩ : BufTy).Contents (Elt F)),
    StableHlo.ternary main_v35 main_v37 main_v3 main_v38 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v38 main_v39 (broadcastInDim S650000x1 ![0] bcast_S650000_S650000x1_0 : (⟨S650000, .i32⟩ : BufTy).Contents (Elt F) → (⟨S650000x1, .i32⟩ : BufTy).Contents (Elt F)),
    StableHlo.binary main_v7 main_v39 main_v40 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v33 main_v41 (broadcastInDim S650000x128 ![0, 1] bcast_S650000x1_S650000x128_0_1 : (⟨S650000x1, .f32⟩ : BufTy).Contents (Elt F) → (⟨S650000x128, .f32⟩ : BufTy).Contents (Elt F)),
    StableHlo.binary main_v41 main_v40 main_v42 (mulf : (⟨S650000x128, .f32⟩ : BufTy).Contents (Elt F) → (⟨S650000x128, .f32⟩ : BufTy).Contents (Elt F) → (⟨S650000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v6 main_v44 (broadcastInDim S650000x1 ![0] bcast_S650000_S650000x1_0 : (⟨S650000, .i32⟩ : BufTy).Contents (Elt F) → (⟨S650000x1, .i32⟩ : BufTy).Contents (Elt F)),
    StableHlo.ternary main_v43 main_v44 main_v42 main_v45 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]
/-- Every operation of the stage touches tensor buffers of the device only. -/
theorem sAgg1_sub : (sAgg1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
/-- Every operation of the stage determines what it writes. -/
theorem sAgg1_det : (sAgg1 : List (HloOp τ sig (Elt F))).Forall fun op => op.fresh = ∅ :=
  ⟨rfl, rfl, rfl, rfl, rfl, rfl, rfl, rfl, rfl, rfl, rfl, rfl, rfl, rfl, rfl, rfl⟩

/-- First layer: the bias row added to every node's row. -/
abbrev sBias1 : List (HloOp τ sig (Elt F)) :=
  [ StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)) ]
/-- Every operation of the stage touches tensor buffers of the device only. -/
theorem sBias1_sub : (sBias1 : List (HloOp τ sig (Elt F))).Forall fun op => op.bufs ⊆ StableHlo.tcRefs τ sig :=
  ⟨StableHlo.unary_bufs_sub .., StableHlo.unary_bufs_sub .., StableHlo.binary_bufs_sub ..⟩
/-- Every operation of the stage determines what it writes. -/
theorem sBias1_det : (sBias1 : List (HloOp τ sig (Elt F))).Forall fun op => op.fresh = ∅ :=
  ⟨rfl, rfl, rfl⟩

/-- First layer: the column means over the nodes. -/
abbrev sMean1 : List (HloOp τ sig (Elt F)) :=
  [ StableHlo.nullary main_cst_10 (constant S_ .f32 0x00000000#32),
    StableHlo.binary main_v48 main_cst_10 main_v49 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)) ]
/-- Every operation of the stage touches tensor buffers of the device only. -/
theorem sMean1_sub : (sMean1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub ..⟩
/-- Every operation of the stage determines what it writes. -/
theorem sMean1_det : (sMean1 : List (HloOp τ sig (Elt F))).Forall fun op => op.fresh = ∅ :=
  ⟨rfl, rfl, rfl, rfl, rfl⟩

/-- First layer: the column variances over the nodes (mean of squared deviations, divisor n − 0). -/
abbrev sVar1 : List (HloOp τ sig (Elt F)) :=
  [ StableHlo.nullary main_c_12 (constantI S_ 32 0#32),
    StableHlo.TRef.nullary main_call1.cst (constant S_ .f32 0x00000000#32),
    StableHlo.TRef.binary (.of main_v48 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v48 : StableHlo.TRef sig ⟨S50000x128, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]
/-- Every operation of the stage touches tensor buffers of the device only. -/
theorem sVar1_sub : (sVar1 : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- Every operation of the stage determines what it writes. -/
theorem sVar1_det : (sVar1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- First layer: centre by the mean, scale by the inverse square root of variance plus ε, then the learned scale and shift. -/
abbrev sNorm1 : List (HloOp τ sig (Elt F)) :=
  [ StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v54 main_v55 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v60 main_v61 (mulf : (⟨S50000x128, .f32⟩ : BufTy).Contents (Elt F) → (⟨S50000x128, .f32⟩ : BufTy).Contents (Elt F) → (⟨S50000x128, .f32⟩ : BufTy).Contents (Elt F)),
    StableHlo.unary main_arg4 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_arg5 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (addf : (⟨S50000x128, .f32⟩ : BufTy).Contents (Elt F) → (⟨S50000x128, .f32⟩ : BufTy).Contents (Elt F) → (⟨S50000x128, .f32⟩ : BufTy).Contents (Elt F)) ]
/-- Every operation of the stage touches tensor buffers of the device only. -/
theorem sNorm1_sub : (sNorm1 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- Every operation of the stage determines what it writes. -/
theorem sNorm1_det : (sNorm1 : List (HloOp τ sig (Elt F))).Forall fun op => op.fresh = ∅ :=
  ⟨rfl, rfl, rfl, rfl, rfl, rfl, rfl, rfl, rfl, rfl, rfl, rfl, rfl, rfl, rfl, rfl⟩

/-- First layer: the maximum with zero. -/
abbrev sRelu1 : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary (.of main_v67 : StableHlo.TRef sig ⟨S50000x128, .f32⟩) main_call2.v0 main_call2.v1 maximumf ]
/-- Every operation of the stage touches tensor buffers of the device only. -/
theorem sRelu1_sub : (sRelu1 : List (HloOp τ sig (Elt F))).Forall fun op => op.bufs ⊆ StableHlo.tcRefs τ sig :=
  ⟨StableHlo.nullary_bufs_sub .., StableHlo.unary_bufs_sub .., StableHlo.binary_bufs_sub ..⟩
/-- Every operation of the stage determines what it writes. -/
theorem sRelu1_det : (sRelu1 : List (HloOp τ sig (Elt F))).Forall fun op => op.fresh = ∅ :=
  ⟨rfl, rfl, rfl⟩

/-- The second layer's matrix product. -/
abbrev sDot2 : List (HloOp τ sig (Elt F)) :=
  [ StableHlo.binary main_v68 main_arg6 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
/-- Every operation of the stage touches tensor buffers of the device only. -/
theorem sDot2_sub : (sDot2 : List (HloOp τ sig (Elt F))).Forall fun op => op.bufs ⊆ StableHlo.tcRefs τ sig :=
  StableHlo.binary_bufs_sub ..
/-- Every operation of the stage determines what it writes. -/
theorem sDot2_det : (sDot2 : List (HloOp τ sig (Elt F))).Forall fun op => op.fresh = ∅ :=
  rfl

/-- Second layer: the in-degrees and their inverse square roots, computed again from the same edge list. -/
abbrev sDinv2 : List (HloOp τ sig (Elt F)) :=
  [ StableHlo.nullary main_cst_14 (constant S_ .f32 0x3F800000#32),
    StableHlo.unary main_cst_14 main_v70 (broadcastInDim S650000 ![] bcast_S_S650000 : (⟨S_, .f32⟩ : BufTy).Contents (Elt F) → (⟨S650000, .f32⟩ : BufTy).Contents (Elt F)),
    StableHlo.nullary main_cst_15 (constant S_ .f32 0x00000000#32),
    StableHlo.unary main_cst_15 main_v71 (broadcastInDim S50000 ![] bcast_S_S50000 : (⟨S_, .f32⟩ : BufTy).Contents (Elt F) → (⟨S50000, .f32⟩ : BufTy).Contents (Elt F)),
    StableHlo.unary main_v6 main_v72 (broadcastInDim S650000x1 ![0] bcast_S650000_S650000x1_0 : (⟨S650000, .i32⟩ : BufTy).Contents (Elt F) → (⟨S650000x1, .i32⟩ : BufTy).Contents (Elt F)),
    StableHlo.ternary main_v71 main_v72 main_v70 main_v73 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_16 (constant S_ .f32 0x00000000#32),
    StableHlo.unary main_cst_16 main_v74 (broadcastInDim S50000 ![] bcast_S_S50000 : (⟨S_, .f32⟩ : BufTy).Contents (Elt F) → (⟨S50000, .f32⟩ : BufTy).Contents (Elt F)),
    StableHlo.binary main_v73 main_v74 main_v75 (cmpf .ogt : (⟨S50000, .f32⟩ : BufTy).Contents (Elt F) → (⟨S50000, .f32⟩ : BufTy).Contents (Elt F) → (⟨S50000, .i1⟩ : BufTy).Contents (Elt F)),
    StableHlo.nullary main_cst_17 (constant S_ .f32 0x3F800000#32),
    StableHlo.unary main_cst_17 main_v76 (broadcastInDim S50000 ![] bcast_S_S50000 : (⟨S_, .f32⟩ : BufTy).Contents (Elt F) → (⟨S50000, .f32⟩ : BufTy).Contents (Elt F)),
    StableHlo.binary main_v73 main_v76 main_v77 (maximumf : (⟨S50000, .f32⟩ : BufTy).Contents (Elt F) → (⟨S50000, .f32⟩ : BufTy).Contents (Elt F) → (⟨S50000, .f32⟩ : BufTy).Contents (Elt F)),
    StableHlo.unary main_v77 main_v78 (Host.rsqrt : (⟨S50000, .f32⟩ : BufTy).Contents (Elt F) → (⟨S50000, .f32⟩ : BufTy).Contents (Elt F)),
    StableHlo.nullary main_cst_18 (constant S_ .f32 0x00000000#32),
    StableHlo.TRef.unary (.of main_cst_18 : StableHlo.TRef sig ⟨S_, .f32⟩) main_call3.v0 id,
    StableHlo.TRef.unary main_call3.v0 main_call3.v1 (broadcastInDim S50000 ![] bcast_S_S50000),
    StableHlo.TRef.ternary (.of main_v75 : StableHlo.TRef sig ⟨S50000, .i1⟩) (.of main_v78 : StableHlo.TRef sig ⟨S50000, .f32⟩) main_call3.v1 main_call3.v2 select ]
/-- Every operation of the stage touches tensor buffers of the device only. -/
theorem sDinv2_sub : (sDinv2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
/-- Every operation of the stage determines what it writes. -/
theorem sDinv2_det : (sDinv2 : List (HloOp τ sig (Elt F))).Forall fun op => op.fresh = ∅ :=
  ⟨rfl, rfl, rfl, rfl, rfl, rfl, rfl, rfl, rfl, rfl, rfl, rfl, rfl, rfl, rfl, rfl, rfl⟩

/-- Second layer: the edge weights, computed again. -/
abbrev sCoef2 : List (HloOp τ sig (Elt F)) :=
  [ StableHlo.nullary main_c_19 (constantI S_ 32 0#32),
    StableHlo.unary main_c_19 main_v80 (broadcastInDim S650000 ![] bcast_S_S650000 : (⟨S_, .i32⟩ : BufTy).Contents (Elt F) → (⟨S650000, .i32⟩ : BufTy).Contents (Elt F)),
    StableHlo.binary main_v3 main_v80 main_v81 (cmpi .slt : (⟨S650000, .i32⟩ : BufTy).Contents (Elt F) → (⟨S650000, .i32⟩ : BufTy).Contents (Elt F) → (⟨S650000, .i1⟩ : BufTy).Contents (Elt F)),
    StableHlo.nullary main_c_20 (constantI S_ 32 50000#32),
    StableHlo.unary main_c_20 main_v82 (broadcastInDim S650000 ![] bcast_S_S650000 : (⟨S_, .i32⟩ : BufTy).Contents (Elt F) → (⟨S650000, .i32⟩ : BufTy).Contents (Elt F)),
    StableHlo.binary main_v3 main_v82 main_v83 (addi : (⟨S650000, .i32⟩ : BufTy).Contents (Elt F) → (⟨S650000, .i32⟩ : BufTy).Contents (Elt F) → (⟨S650000, .i32⟩ : BufTy).Contents (Elt F)),
    StableHlo.ternary main_v81 main_v83 main_v3 main_v84 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v84 main_v85 (broadcastInDim S650000x1 ![0] bcast_S650000_S650000x1_0 : (⟨S650000, .i32⟩ : BufTy).Contents (Elt F) → (⟨S650000x1, .i32⟩ : BufTy).Contents (Elt F)),
    StableHlo.binary main_v79 main_v85 main_v86 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.nullary main_c_21 (constantI S_ 32 0#32),
    StableHlo.unary main_c_21 main_v87 (broadcastInDim S650000 ![] bcast_S_S650000 : (⟨S_, .i32⟩ : BufTy).Contents (Elt F) → (⟨S650000, .i32⟩ : BufTy).Contents (Elt F)),
    StableHlo.binary main_v6 main_v87 main_v88 (cmpi .slt : (⟨S650000, .i32⟩ : BufTy).Contents (Elt F) → (⟨S650000, .i32⟩ : BufTy).Contents (Elt F) → (⟨S650000, .i1⟩ : BufTy).Contents (Elt F)),
    StableHlo.nullary main_c_22 (constantI S_ 32 50000#32),
    StableHlo.unary main_c_22 main_v89 (broadcastInDim S650000 ![] bcast_S_S650000 : (⟨S_, .i32⟩ : BufTy).Contents (Elt F) → (⟨S650000, .i32⟩ : BufTy).Contents (Elt F)),
    StableHlo.binary main_v6 main_v89 main_v90 (addi : (⟨S650000, .i32⟩ : BufTy).Contents (Elt F) → (⟨S650000, .i32⟩ : BufTy).Contents (Elt F) → (⟨S650000, .i32⟩ : BufTy).Contents (Elt F)),
    StableHlo.ternary main_v88 main_v90 main_v6 main_v91 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v91 main_v92 (broadcastInDim S650000x1 ![0] bcast_S650000_S650000x1_0 : (⟨S650000, .i32⟩ : BufTy).Contents (Elt F) → (⟨S650000x1, .i32⟩ : BufTy).Contents (Elt F)),
    StableHlo.binary main_v79 main_v92 main_v93 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v86 main_v93 main_v94 (mulf : (⟨S650000, .f32⟩ : BufTy).Contents (Elt F) → (⟨S650000, .f32⟩ : BufTy).Contents (Elt F) → (⟨S650000, .f32⟩ : BufTy).Contents (Elt F)) ]
/-- Every operation of the stage touches tensor buffers of the device only. -/
theorem sCoef2_sub : (sCoef2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
/-- Every operation of the stage determines what it writes. -/
theorem sCoef2_det : (sCoef2 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Second layer: the weighted neighbourhood sum. -/
abbrev sAgg2 : List (HloOp τ sig (Elt F)) :=
  [ StableHlo.unary main_v94 main_v95 (broadcastInDim S650000x1 ![0] bcast_S650000_S650000x1_0 : (⟨S650000, .f32⟩ : BufTy).Contents (Elt F) → (⟨S650000x1, .f32⟩ : BufTy).Contents (Elt F)),
    StableHlo.nullary main_c_23 (constantI S_ 32 0#32),
    StableHlo.unary main_c_23 main_v96 (broadcastInDim S650000 ![] bcast_S_S650000 : (⟨S_, .i32⟩ : BufTy).Contents (Elt F) → (⟨S650000, .i32⟩ : BufTy).Contents (Elt F)),
    StableHlo.binary main_v3 main_v96 main_v97 (cmpi .slt : (⟨S650000, .i32⟩ : BufTy).Contents (Elt F) → (⟨S650000, .i32⟩ : BufTy).Contents (Elt F) → (⟨S650000, .i1⟩ : BufTy).Contents (Elt F)),
    StableHlo.nullary main_c_24 (constantI S_ 32 50000#32),
    StableHlo.unary main_c_24 main_v98 (broadcastInDim S650000 ![] bcast_S_S650000 : (⟨S_, .i32⟩ : BufTy).Contents (Elt F) → (⟨S650000, .i32⟩ : BufTy).Contents (Elt F)),
    StableHlo.binary main_v3 main_v98 main_v99 (addi : (⟨S650000, .i32⟩ : BufTy).Contents (Elt F) → (⟨S650000, .i32⟩ : BufTy).Contents (Elt F) → (⟨S650000, .i32⟩ : BufTy).Contents (Elt F)),
    StableHlo.ternary main_v97 main_v99 main_v3 main_v100 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v100 main_v101 (broadcastInDim S650000x1 ![0] bcast_S650000_S650000x1_0 : (⟨S650000, .i32⟩ : BufTy).Contents (Elt F) → (⟨S650000x1, .i32⟩ : BufTy).Contents (Elt F)),
    StableHlo.binary main_v69 main_v101 main_v102 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v95 main_v103 (broadcastInDim S650000x128 ![0, 1] bcast_S650000x1_S650000x128_0_1 : (⟨S650000x1, .f32⟩ : BufTy).Contents (Elt F) → (⟨S650000x128, .f32⟩ : BufTy).Contents (Elt F)),
    StableHlo.binary main_v103 main_v102 main_v104 (mulf : (⟨S650000x128, .f32⟩ : BufTy).Contents (Elt F) → (⟨S650000x128, .f32⟩ : BufTy).Contents (Elt F) → (⟨S650000x128, .f32⟩ : BufTy).Contents (Elt F)),
    StableHlo.nullary main_cst_25 (constant S_ .f32 0x00000000#32),
    StableHlo.unary main_cst_25 main_v105 (broadcastInDim S50000x128 ![] bcast_S_S50000x128 : (⟨S_, .f32⟩ : BufTy).Contents (Elt F) → (⟨S50000x128, .f32⟩ : BufTy).Contents (Elt F)),
    StableHlo.unary main_v6 main_v106 (broadcastInDim S650000x1 ![0] bcast_S650000_S650000x1_0 : (⟨S650000, .i32⟩ : BufTy).Contents (Elt F) → (⟨S650000x1, .i32⟩ : BufTy).Contents (Elt F)),
    StableHlo.ternary main_v105 main_v106 main_v104 main_v107 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]
/-- Every operation of the stage touches tensor buffers of the device only. -/
theorem sAgg2_sub : (sAgg2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
/-- Every operation of the stage determines what it writes. -/
theorem sAgg2_det : (sAgg2 : List (HloOp τ sig (Elt F))).Forall fun op => op.fresh = ∅ :=
  ⟨rfl, rfl, rfl, rfl, rfl, rfl, rfl, rfl, rfl, rfl, rfl, rfl, rfl, rfl, rfl, rfl⟩

/-- Second layer: the bias row added to every node's row. -/
abbrev sBias2 : List (HloOp τ sig (Elt F)) :=
  [ StableHlo.unary main_arg7 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S50000x128 ![0, 1] bcast_S1x128_S50000x128_0_1 : (⟨S1x128, .f32⟩ : BufTy).Contents (Elt F) → (⟨S50000x128, .f32⟩ : BufTy).Contents (Elt F)),
    StableHlo.binary main_v107 main_v109 main_v110 (addf : (⟨S50000x128, .f32⟩ : BufTy).Contents (Elt F) → (⟨S50000x128, .f32⟩ : BufTy).Contents (Elt F) → (⟨S50000x128, .f32⟩ : BufTy).Contents (Elt F)) ]
/-- Every operation of the stage touches tensor buffers of the device only. -/
theorem sBias2_sub : (sBias2 : List (HloOp τ sig (Elt F))).Forall fun op => op.bufs ⊆ StableHlo.tcRefs τ sig :=
  ⟨StableHlo.unary_bufs_sub .., StableHlo.unary_bufs_sub .., StableHlo.binary_bufs_sub ..⟩
/-- Every operation of the stage determines what it writes. -/
theorem sBias2_det : (sBias2 : List (HloOp τ sig (Elt F))).Forall fun op => op.fresh = ∅ :=
  ⟨rfl, rfl, rfl⟩

/-- Second layer: the column means over the nodes. -/
abbrev sMean2 : List (HloOp τ sig (Elt F)) :=
  [ StableHlo.nullary main_cst_26 (constant S_ .f32 0x00000000#32),
    StableHlo.binary main_v110 main_cst_26 main_v111 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_27 (constant S_ .f32 0x47435000#32),
    StableHlo.unary main_cst_27 main_v112 (broadcastInDim S128 ![] bcast_S_S128 : (⟨S_, .f32⟩ : BufTy).Contents (Elt F) → (⟨S128, .f32⟩ : BufTy).Contents (Elt F)),
    StableHlo.binary main_v111 main_v112 main_v113 (Host.divf : (⟨S128, .f32⟩ : BufTy).Contents (Elt F) → (⟨S128, .f32⟩ : BufTy).Contents (Elt F) → (⟨S128, .f32⟩ : BufTy).Contents (Elt F)) ]
/-- Every operation of the stage touches tensor buffers of the device only. -/
theorem sMean2_sub : (sMean2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub ..⟩
/-- Every operation of the stage determines what it writes. -/
theorem sMean2_det : (sMean2 : List (HloOp τ sig (Elt F))).Forall fun op => op.fresh = ∅ :=
  ⟨rfl, rfl, rfl, rfl, rfl⟩

/-- Second layer: the column variances over the nodes. -/
abbrev sVar2 : List (HloOp τ sig (Elt F)) :=
  [ StableHlo.nullary main_c_28 (constantI S_ 32 0#32),
    StableHlo.TRef.nullary main_call4.cst (constant S_ .f32 0x00000000#32),
    StableHlo.TRef.binary (.of main_v110 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v110 : StableHlo.TRef sig ⟨S50000x128, .f32⟩) main_call4.v4 main_call4.v5 subf,
    StableHlo.TRef.binary main_call4.v5 main_call4.v5 main_call4.v6 mulf,
    StableHlo.TRef.unary (.of main_c_28 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]
/-- Every operation of the stage touches tensor buffers of the device only. -/
theorem sVar2_sub : (sVar2 : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- Every operation of the stage determines what it writes. -/
theorem sVar2_det : (sVar2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Second layer: centre, scale, learned scale and shift. -/
abbrev sNorm2 : List (HloOp τ sig (Elt F)) :=
  [ StableHlo.unary main_v113 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v116 main_v117 (subf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x3727C5AC#32),
    StableHlo.unary main_cst_29 main_v118 (broadcastInDim S128 ![] bcast_S_S128 : (⟨S_, .f32⟩ : BufTy).Contents (Elt F) → (⟨S128, .f32⟩ : BufTy).Contents (Elt F)),
    StableHlo.binary main_v114 main_v118 main_v119 (addf : (⟨S128, .f32⟩ : BufTy).Contents (Elt F) → (⟨S128, .f32⟩ : BufTy).Contents (Elt F) → (⟨S128, .f32⟩ : BufTy).Contents (Elt F)),
    StableHlo.unary main_v119 main_v120 (Host.rsqrt : (⟨S128, .f32⟩ : BufTy).Contents (Elt F) → (⟨S128, .f32⟩ : BufTy).Contents (Elt F)),
    StableHlo.unary main_v120 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v122 main_v123 (mulf : (⟨S50000x128, .f32⟩ : BufTy).Contents (Elt F) → (⟨S50000x128, .f32⟩ : BufTy).Contents (Elt F) → (⟨S50000x128, .f32⟩ : BufTy).Contents (Elt F)),
    StableHlo.unary main_arg8 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v125 main_v126 (mulf : (⟨S50000x128, .f32⟩ : BufTy).Contents (Elt F) → (⟨S50000x128, .f32⟩ : BufTy).Contents (Elt F) → (⟨S50000x128, .f32⟩ : BufTy).Contents (Elt F)),
    StableHlo.unary main_arg9 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v126 main_v128 main_v129 (addf : (⟨S50000x128, .f32⟩ : BufTy).Contents (Elt F) → (⟨S50000x128, .f32⟩ : BufTy).Contents (Elt F) → (⟨S50000x128, .f32⟩ : BufTy).Contents (Elt F)) ]
/-- Every operation of the stage touches tensor buffers of the device only. -/
theorem sNorm2_sub : (sNorm2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- Every operation of the stage determines what it writes. -/
theorem sNorm2_det : (sNorm2 : List (HloOp τ sig (Elt F))).Forall fun op => op.fresh = ∅ :=
  ⟨rfl, rfl, rfl, rfl, rfl, rfl, rfl, rfl, rfl, rfl, rfl, rfl, rfl, rfl, rfl, rfl⟩

/-- Second layer: the maximum with zero. -/
abbrev sRelu2 : List (HloOp τ sig (Elt F)) :=
  [ StableHlo.TRef.nullary main_call5.cst (constant S_ .f32 0x00000000#32),
    StableHlo.TRef.unary main_call5.cst main_call5.v0 (broadcastInDim S50000x128 ![] bcast_S_S50000x128),
    StableHlo.TRef.binary (.of main_v129 : StableHlo.TRef sig ⟨S50000x128, .f32⟩) main_call5.v0 main_call5.v1 maximumf ]
/-- Every operation of the stage touches tensor buffers of the device only. -/
theorem sRelu2_sub : (sRelu2 : List (HloOp τ sig (Elt F))).Forall fun op => op.bufs ⊆ StableHlo.tcRefs τ sig :=
  ⟨StableHlo.nullary_bufs_sub .., StableHlo.unary_bufs_sub .., StableHlo.binary_bufs_sub ..⟩
/-- Every operation of the stage determines what it writes. -/
theorem sRelu2_det : (sRelu2 : List (HloOp τ sig (Elt F))).Forall fun op => op.fresh = ∅ :=
  ⟨rfl, rfl, rfl⟩

/-- The output layer: the matrix product with the last weight matrix plus its bias row. -/
abbrev sHead : List (HloOp τ sig (Elt F)) :=
  [ StableHlo.binary main_v130 main_arg10 main_v131 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S50000x64 ![0, 1] bcast_S1x64_S50000x64_0_1 : (⟨S1x64, .f32⟩ : BufTy).Contents (Elt F) → (⟨S50000x64, .f32⟩ : BufTy).Contents (Elt F)),
    StableHlo.binary main_v131 main_v133 main_v134 (addf : (⟨S50000x64, .f32⟩ : BufTy).Contents (Elt F) → (⟨S50000x64, .f32⟩ : BufTy).Contents (Elt F) → (⟨S50000x64, .f32⟩ : BufTy).Contents (Elt F)) ]
/-- Every operation of the stage touches tensor buffers of the device only. -/
theorem sHead_sub : (sHead : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- Every operation of the stage determines what it writes. -/
theorem sHead_det : (sHead : List (HloOp τ sig (Elt F))).Forall fun op => op.fresh = ∅ :=
  ⟨rfl, rfl, rfl, rfl⟩

/-! ## The whole line -/

/-- All 217 operations in program order, the calls' lines in place of the calls. -/
abbrev ops : List (HloOp τ sig (Elt F)) :=
  sEdges ++ (sDot1 ++ (sDinv1 ++ (sCoef1 ++ (sAgg1 ++ (sBias1 ++ (sMean1 ++ (sVar1 ++ (sNorm1 ++ (sRelu1 ++ (sDot2 ++ (sDinv2 ++ (sCoef2 ++ (sAgg2 ++ (sBias2 ++ (sMean2 ++ (sVar2 ++ (sNorm2 ++ (sRelu2 ++ (sHead)))))))))))))))))))

-- the chain of 217 sequenced steps is re-associated one step at a time
set_option maxRecDepth 16384 in
set_option maxHeartbeats 4000000 in
/-- The program is that straight line: the called functions' definitions opened at their calls, both sides are one
    chain of steps once sequencing is re-associated. -/
theorem main_eq (c : Dev nD) : main (F := F) c = StableHlo.seq ops := by
  simp only [main, main_part0, main_part1, main_part2, fn_where.body, fn_where_0.body, fn_var.body, fn_relu.body,
    StableHlo.seq_append, StableHlo.seq, bind_assoc, pure_bind]

/-- Every operation touches tensor buffers of the device only. -/
theorem ops_sub : (ops : List (HloOp τ sig (Elt F))).Forall fun op => op.bufs ⊆ StableHlo.tcRefs τ sig :=
  List.forall_append.mpr ⟨sEdges_sub, List.forall_append.mpr ⟨sDot1_sub, List.forall_append.mpr ⟨sDinv1_sub, List.forall_append.mpr ⟨sCoef1_sub, List.forall_append.mpr ⟨sAgg1_sub, List.forall_append.mpr ⟨sBias1_sub, List.forall_append.mpr ⟨sMean1_sub, List.forall_append.mpr ⟨sVar1_sub, List.forall_append.mpr ⟨sNorm1_sub, List.forall_append.mpr ⟨sRelu1_sub, List.forall_append.mpr ⟨sDot2_sub, List.forall_append.mpr ⟨sDinv2_sub, List.forall_append.mpr ⟨sCoef2_sub, List.forall_append.mpr ⟨sAgg2_sub, List.forall_append.mpr ⟨sBias2_sub, List.forall_append.mpr ⟨sMean2_sub, List.forall_append.mpr ⟨sVar2_sub, List.forall_append.mpr ⟨sNorm2_sub, List.forall_append.mpr ⟨sRelu2_sub, sHead_sub⟩⟩⟩⟩⟩⟩⟩⟩⟩⟩⟩⟩⟩⟩⟩⟩⟩⟩⟩

/-- Every operation determines what it writes. -/
theorem ops_det : (ops : List (HloOp τ sig (Elt F))).Forall fun op => op.fresh = ∅ :=
  List.forall_append.mpr ⟨sEdges_det, List.forall_append.mpr ⟨sDot1_det, List.forall_append.mpr ⟨sDinv1_det, List.forall_append.mpr ⟨sCoef1_det, List.forall_append.mpr ⟨sAgg1_det, List.forall_append.mpr ⟨sBias1_det, List.forall_append.mpr ⟨sMean1_det, List.forall_append.mpr ⟨sVar1_det, List.forall_append.mpr ⟨sNorm1_det, List.forall_append.mpr ⟨sRelu1_det, List.forall_append.mpr ⟨sDot2_det, List.forall_append.mpr ⟨sDinv2_det, List.forall_append.mpr ⟨sCoef2_det, List.forall_append.mpr ⟨sAgg2_det, List.forall_append.mpr ⟨sBias2_det, List.forall_append.mpr ⟨sMean2_det, List.forall_append.mpr ⟨sVar2_det, List.forall_append.mpr ⟨sNorm2_det, List.forall_append.mpr ⟨sRelu2_det, sHead_det⟩⟩⟩⟩⟩⟩⟩⟩⟩⟩⟩⟩⟩⟩⟩⟩⟩⟩⟩

/-- No buffer is scoped to a region. -/
theorem scopedRefs_eq : (Finset.univ.filter fun b : Ref sig .tc => b.isScoped) = ∅ := by decide
/-- No semaphore is scoped to a region. -/
theorem scopedSems_eq : (Finset.univ.filter fun sm : SemLoc sig => sm.isScoped .tc) = ∅ := by decide

/-- For any float values, from any memory with zero counters: every weakly fair execution of the program
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ
    (fun _ => List.forall_iff_forall_mem.mp ops_det)

end Cert.ReferenceIdeal.RefRun

end
-- ==== Proof.RefStages.lean ====
/-
  The dense part of the reference program, as named functions of whole arrays at the ideal (extended-real) values.

  Each is the literal composition, in program order, of the tensor operations the reference applies:

  * `addBiasV a b`            : the row `b` added to every row of `a`.
  * `meanV z`                 : the column sums of `z` over the n = 50000 rows, divided by n.
  * `devV z`                  : `z` minus its column means (the means recomputed the same way).
  * `cntV`                    : the variance's divisor, n − 0 (no degrees-of-freedom correction), as a scalar.
  * `varV z`                  : the column sums of the squared deviations divided by that divisor, selected where
                                the divisor is positive (a not-a-number constant otherwise).
  * `normV z mean var g be`   : (z − mean) · rsqrt(var + ε) · g + be, columnwise, ε the single-precision 10⁻⁵.
  * `reluV y`                 : the maximum with zero.
  * `headV h w b`             : the matrix product h · w plus the row b.
  * `layerV`                  : one graph-convolution layer: product with the weights, normalised neighbourhood sum,
                                bias, normalisation with the batch statistics, maximum with zero.
  * `refOut`                  : two layers over the same edge list, then the output layer.
-/
import proofs.«150636_j78039555768704_1_alg».proof.Proof.GraphChain
import Idealize.ShloMosaic.PureOps.Ideal

noncomputable section

namespace Cert.ReferenceIdeal.RefRun

open Cert.ReferenceIdeal Cert.ReferenceIdeal.Gen Cert.ReferenceIdeal.Graph Idealize.ShloMosaic

/-- The row `b` added to every row of `a`. -/
def addBiasV (a : FVec Ideal S50000x128 .f32) (b : FVec Ideal S128 .f32) : FVec Ideal S50000x128 .f32 :=
  addf a (broadcastInDim S50000x128 ![0, 1] bcast_S1x128_S50000x128_0_1 (broadcastInDim S1x128 ![1] bcast_S128_S1x128_1 b))

/-- The column means: the sums over the rows, from zero, divided by the row count 50000. -/
def meanV (z : FVec Ideal S50000x128 .f32) : FVec Ideal S128 .f32 :=
  Host.divf (Host.reduceAdd z (constant S_ .f32 0x00000000#32) reducesTo_S50000x128_S128_d0 h_S_)
    (broadcastInDim S128 ![] bcast_S_S128 (constant S_ .f32 0x47435000#32))

/-- The deviations from the column means, the means formed as a one-row array and spread over the rows. -/
def devV (z : FVec Ideal S50000x128 .f32) : FVec Ideal S50000x128 .f32 :=
  subf z (broadcastInDim S50000x128 ![0, 1] bcast_S1x128_S50000x128_0_1
    (Host.divf (broadcastInDim S1x128 ![1] bcast_S128_S1x128_1
        (Host.reduceAdd z (constant S_ .f32 0x00000000#32) reducesTo_S50000x128_S128_d0 h_S_))
      (broadcastInDim S1x128 ![] bcast_S_S1x128 (constant S_ .f32 0x47435000#32))))

/-- The variance's divisor: the row count 50000 minus the correction 0 (an integer zero converted). -/
def cntV : FVec Ideal S_ .f32 :=
  subf (constant S_ .f32 0x47435000#32) (sitofp .f32 (constantI S_ 32 0#32))

/-- The column variances: the sums of squared deviations over the divisor, where the divisor is positive. -/
def varV (z : FVec Ideal S50000x128 .f32) : FVec Ideal S128 .f32 :=
  select (broadcastInDim S128 ![] bcast_S_S128 (cmpf .ogt cntV (constant S_ .f32 0x00000000#32)))
    (Host.divf (Host.reduceAdd (mulf (devV z) (devV z)) (constant S_ .f32 0x00000000#32) reducesTo_S50000x128_S128_d0 h_S_)
      (broadcastInDim S128 ![] bcast_S_S128 cntV))
    (broadcastInDim S128 ![] bcast_S_S128 (id (constant S_ .f32 0x7FC00000#32)))

/-- Centre by the mean, scale by the inverse square root of the variance plus ε, then the learned scale and shift. -/
def normV (z : FVec Ideal S50000x128 .f32) (mean var g be : FVec Ideal S128 .f32) : FVec Ideal S50000x128 .f32 :=
  addf
    (mulf
      (mulf
        (subf z (broadcastInDim S50000x128 ![0, 1] bcast_S1x128_S50000x128_0_1 (broadcastInDim S1x128 ![1] bcast_S128_S1x128_1 mean)))
        (broadcastInDim S50000x128 ![0, 1] bcast_S1x128_S50000x128_0_1 (broadcastInDim S1x128 ![1] bcast_S128_S1x128_1
          (Host.rsqrt (addf var (broadcastInDim S128 ![] bcast_S_S128 (constant S_ .f32 0x3727C5AC#32)))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 be))

/-- The maximum with zero. -/
def reluV (y : FVec Ideal S50000x128 .f32) : FVec Ideal S50000x128 .f32 :=
  maximumf y (broadcastInDim S50000x128 ![] bcast_S_S50000x128 (constant S_ .f32 0x00000000#32))

/-- The output layer: the matrix product plus the bias row. -/
def headV (h : FVec Ideal S50000x128 .f32) (w : FVec Ideal S128x64 .f32) (b : FVec Ideal S64 .f32) : FVec Ideal S50000x64 .f32 :=
  addf (Host.dotGeneral dot_S50000x128_S128x64_S50000x64_1_0_0_1_n_n none h w)
    (broadcastInDim S50000x64 ![0, 1] bcast_S1x64_S50000x64_0_1 (broadcastInDim S1x64 ![1] bcast_S64_S1x64_1 b))

/-- A layer's values before the normalisation: the weighted neighbourhood sum of x · W, plus the bias. -/
def preV (x : FVec Ideal S50000x128 .f32) (W : FVec Ideal S128x128 .f32) (b : FVec Ideal S128 .f32)
    (row col : IVec S650000 32) : FVec Ideal S50000x128 .f32 :=
  addBiasV (aggV (Host.dotGeneral dot_S50000x128_S128x128_S50000x128_1_0_0_1_n_n none x W) (coefV (F := Ideal) row col) row col) b

/-- One layer: the values above, normalised with their own column statistics, then the maximum with zero. -/
def layerV (x : FVec Ideal S50000x128 .f32) (W : FVec Ideal S128x128 .f32) (b g be : FVec Ideal S128 .f32)
    (row col : IVec S650000 32) : FVec Ideal S50000x128 .f32 :=
  reluV (normV (preV x W b row col) (meanV (preV x W b row col)) (varV (preV x W b row col)) g be)

/-- The reference's result: two layers over the same edge list (self-loops added), then the output layer. -/
def refOut (x : FVec Ideal S50000x128 .f32) (e : IVec S2x600000 32)
    (W1 : FVec Ideal S128x128 .f32) (b1 g1 be1 : FVec Ideal S128 .f32)
    (W2 : FVec Ideal S128x128 .f32) (b2 g2 be2 : FVec Ideal S128 .f32)
    (Wfc : FVec Ideal S128x64 .f32) (bfc : FVec Ideal S64 .f32) : FVec Ideal S50000x64 .f32 :=
  headV (layerV (layerV x W1 b1 g1 be1 (rowV e) (colV e)) W2 b2 g2 be2 (rowV e) (colV e)) Wfc bfc

end Cert.ReferenceIdeal.RefRun

end
-- ==== Proof.RefVal.lean ====
/-
  What the reference program's result buffer holds after its run, as one term of the argument arrays.

  The program's 217 operations run in twenty consecutive stages (RefOps.lean). For each stage two facts are
  stated over an arbitrary state of the buffers before it: the stage's output buffer afterwards is the stage's
  function of its input buffers before (the edge list with self-loops, a matrix product, the degree normalisation,
  the edge weights, the weighted neighbourhood sum, the bias, the column mean, the column variance, the
  normalisation, the maximum with zero, the output layer), and every buffer the stage does not write is unchanged.
  Chaining the twenty stages, the result buffer holds `refOut` of the twelve argument buffers' launch contents,
  and the argument buffers themselves are never written.
-/
import proofs.«150636_j78039555768704_1_alg».proof.Proof.RefOps
import proofs.«150636_j78039555768704_1_alg».proof.Proof.RefStages

noncomputable section

namespace Cert.ReferenceIdeal.RefRun

open Cert.ReferenceIdeal Cert.ReferenceIdeal.Gen Cert.ReferenceIdeal.Graph Idealize.ShloMosaic Idealize.ShloMosaic.TcCoe Idealize.SL.Sem

/-- The buffers' contents at the ideal values. -/
abbrev Vals : Type := Valuation τ sig (Elt Ideal)

/-! ## Running two lines one after the other -/

/-- The contents after two lines run in turn: the second line's fold over the first's. -/
theorem after_app : ∀ (l₁ l₂ : List (HloOp τ sig (Elt Ideal))) (V : Vals),
    StableHlo.after (l₁ ++ l₂) V = StableHlo.after l₂ (StableHlo.after l₁ V)
  | [], _, _ => rfl
  | op :: l₁, l₂, V => by
    rw [List.cons_append, StableHlo.after_cons, StableHlo.after_cons, after_app l₁ l₂]

/-- A one-element set of buffers lies in the set of a list's buffers when the buffer is in the list. -/
theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-! ## The called functions' stages over the buffers themselves

A called function's lines are stated over typed references, and carry the transports of values along the
buffers' types; over the literal buffers of this program every such transport is the identity. Each of the six
stages that holds a call is restated here with the plain operations, equal to the original by computation. -/

/-- The same stage with every operation spelt over the buffers themselves. -/
abbrev sDinv1P {F : FTy → Type} [FloatOps F] : List (HloOp τ sig (Elt F)) :=
  [ StableHlo.nullary main_cst (constant S_ .f32 0x3F800000#32),
    StableHlo.unary main_cst main_v8 (broadcastInDim S650000 ![] bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v6 main_v10 (broadcastInDim S650000x1 ![0] bcast_S650000_S650000x1_0 : (⟨S650000, .i32⟩ : BufTy).Contents (Elt F) → (⟨S650000x1, .i32⟩ : BufTy).Contents (Elt F)),
    StableHlo.ternary main_v9 main_v10 main_v8 main_v11 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v11 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (Host.rsqrt : (⟨S50000, .f32⟩ : BufTy).Contents (Elt F) → (⟨S50000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S50000 ![] bcast_S_S50000 : (⟨S_, .f32⟩ : BufTy).Contents (Elt F) → (⟨S50000, .f32⟩ : BufTy).Contents (Elt F)),
    StableHlo.ternary main_v13 main_v16 main_call0_v1 main_v17 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]
/-- Over these literal buffers a typed operation is the plain one: the transports along the buffers' types are identities. -/
theorem sDinv1_plain {F : FTy → Type} [FloatOps F] : (sDinv1 : List (HloOp τ sig (Elt F))) = sDinv1P := rfl

/-- The same stage with every operation spelt over the buffers themselves. -/
abbrev sVar1P {F : FTy → Type} [FloatOps F] : List (HloOp τ sig (Elt F)) :=
  [ StableHlo.nullary main_c_12 (constantI S_ 32 0#32),
    StableHlo.nullary main_call1_cst (constant S_ .f32 0x00000000#32 : (⟨S_, .f32⟩ : BufTy).Contents (Elt F)),
    StableHlo.binary main_v48 main_call1_cst main_call1_v0 (fun x v => Host.reduceAdd x v reducesTo_S50000x128_S128_d0 h_S_ : (⟨S50000x128, .f32⟩ : BufTy).Contents (Elt F) → (⟨S_, .f32⟩ : BufTy).Contents (Elt F) → (⟨S128, .f32⟩ : BufTy).Contents (Elt F)),
    StableHlo.unary main_call1_v0 main_call1_v1 (broadcastInDim S1x128 ![1] bcast_S128_S1x128_1 : (⟨S128, .f32⟩ : BufTy).Contents (Elt F) → (⟨S1x128, .f32⟩ : BufTy).Contents (Elt F)),
    StableHlo.nullary main_call1_cst_0 (constant S_ .f32 0x47435000#32 : (⟨S_, .f32⟩ : BufTy).Contents (Elt F)),
    StableHlo.unary main_call1_cst_0 main_call1_v2 (broadcastInDim S1x128 ![] bcast_S_S1x128 : (⟨S_, .f32⟩ : BufTy).Contents (Elt F) → (⟨S1x128, .f32⟩ : BufTy).Contents (Elt F)),
    StableHlo.binary main_call1_v1 main_call1_v2 main_call1_v3 (Host.divf : (⟨S1x128, .f32⟩ : BufTy).Contents (Elt F) → (⟨S1x128, .f32⟩ : BufTy).Contents (Elt F) → (⟨S1x128, .f32⟩ : BufTy).Contents (Elt F)),
    StableHlo.unary main_call1_v3 main_call1_v4 (broadcastInDim S50000x128 ![0, 1] bcast_S1x128_S50000x128_0_1 : (⟨S1x128, .f32⟩ : BufTy).Contents (Elt F) → (⟨S50000x128, .f32⟩ : BufTy).Contents (Elt F)),
    StableHlo.binary main_v48 main_call1_v4 main_call1_v5 (subf : (⟨S50000x128, .f32⟩ : BufTy).Contents (Elt F) → (⟨S50000x128, .f32⟩ : BufTy).Contents (Elt F) → (⟨S50000x128, .f32⟩ : BufTy).Contents (Elt F)),
    StableHlo.binary main_call1_v5 main_call1_v5 main_call1_v6 (mulf : (⟨S50000x128, .f32⟩ : BufTy).Contents (Elt F) → (⟨S50000x128, .f32⟩ : BufTy).Contents (Elt F) → (⟨S50000x128, .f32⟩ : BufTy).Contents (Elt F)),
    StableHlo.unary main_c_12 main_call1_v7 (sitofp .f32 : (⟨S_, .i32⟩ : BufTy).Contents (Elt F) → (⟨S_, .f32⟩ : BufTy).Contents (Elt F)),
    StableHlo.nullary main_call1_cst_1 (constant S_ .f32 0x47435000#32 : (⟨S_, .f32⟩ : BufTy).Contents (Elt F)),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32 : (⟨S_, .f32⟩ : BufTy).Contents (Elt F)),
    StableHlo.binary main_call1_v6 main_call1_cst_2 main_call1_v9 (fun x v => Host.reduceAdd x v reducesTo_S50000x128_S128_d0 h_S_ : (⟨S50000x128, .f32⟩ : BufTy).Contents (Elt F) → (⟨S_, .f32⟩ : BufTy).Contents (Elt F) → (⟨S128, .f32⟩ : BufTy).Contents (Elt F)),
    StableHlo.unary main_call1_v8 main_call1_v10 (broadcastInDim S128 ![] bcast_S_S128 : (⟨S_, .f32⟩ : BufTy).Contents (Elt F) → (⟨S128, .f32⟩ : BufTy).Contents (Elt F)),
    StableHlo.binary main_call1_v9 main_call1_v10 main_call1_v11 (Host.divf : (⟨S128, .f32⟩ : BufTy).Contents (Elt F) → (⟨S128, .f32⟩ : BufTy).Contents (Elt F) → (⟨S128, .f32⟩ : BufTy).Contents (Elt F)),
    StableHlo.nullary main_call1_cst_3 (constant S_ .f32 0x00000000#32 : (⟨S_, .f32⟩ : BufTy).Contents (Elt F)),
    StableHlo.binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32 : (⟨S_, .f32⟩ : BufTy).Contents (Elt F)),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 (broadcastInDim S128 ![] bcast_S_S128 : (⟨S_, .f32⟩ : BufTy).Contents (Elt F) → (⟨S128, .f32⟩ : BufTy).Contents (Elt F)),
    StableHlo.ternary main_call1_v12 main_call1_v11 main_call1_call0_v1 main_v52 (fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ]
/-- Over these literal buffers a typed operation is the plain one: the transports along the buffers' types are identities. -/
theorem sVar1_plain {F : FTy → Type} [FloatOps F] : (sVar1 : List (HloOp τ sig (Elt F))) = sVar1P := rfl

/-- The same stage with every operation spelt over the buffers themselves. -/
abbrev sRelu1P {F : FTy → Type} [FloatOps F] : List (HloOp τ sig (Elt F)) :=
  [ StableHlo.nullary main_call2_cst (constant S_ .f32 0x00000000#32 : (⟨S_, .f32⟩ : BufTy).Contents (Elt F)),
    StableHlo.unary main_call2_cst main_call2_v0 (broadcastInDim S50000x128 ![] bcast_S_S50000x128 : (⟨S_, .f32⟩ : BufTy).Contents (Elt F) → (⟨S50000x128, .f32⟩ : BufTy).Contents (Elt F)),
    StableHlo.binary main_v67 main_call2_v0 main_v68 (maximumf : (⟨S50000x128, .f32⟩ : BufTy).Contents (Elt F) → (⟨S50000x128, .f32⟩ : BufTy).Contents (Elt F) → (⟨S50000x128, .f32⟩ : BufTy).Contents (Elt F)) ]
/-- Over these literal buffers a typed operation is the plain one: the transports along the buffers' types are identities. -/
theorem sRelu1_plain {F : FTy → Type} [FloatOps F] : (sRelu1 : List (HloOp τ sig (Elt F))) = sRelu1P := rfl

/-- The same stage with every operation spelt over the buffers themselves. -/
abbrev sDinv2P {F : FTy → Type} [FloatOps F] : List (HloOp τ sig (Elt F)) :=
  [ StableHlo.nullary main_cst_14 (constant S_ .f32 0x3F800000#32),
    StableHlo.unary main_cst_14 main_v70 (broadcastInDim S650000 ![] bcast_S_S650000 : (⟨S_, .f32⟩ : BufTy).Contents (Elt F) → (⟨S650000, .f32⟩ : BufTy).Contents (Elt F)),
    StableHlo.nullary main_cst_15 (constant S_ .f32 0x00000000#32),
    StableHlo.unary main_cst_15 main_v71 (broadcastInDim S50000 ![] bcast_S_S50000 : (⟨S_, .f32⟩ : BufTy).Contents (Elt F) → (⟨S50000, .f32⟩ : BufTy).Contents (Elt F)),
    StableHlo.unary main_v6 main_v72 (broadcastInDim S650000x1 ![0] bcast_S650000_S650000x1_0 : (⟨S650000, .i32⟩ : BufTy).Contents (Elt F) → (⟨S650000x1, .i32⟩ : BufTy).Contents (Elt F)),
    StableHlo.ternary main_v71 main_v72 main_v70 main_v73 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_16 (constant S_ .f32 0x00000000#32),
    StableHlo.unary main_cst_16 main_v74 (broadcastInDim S50000 ![] bcast_S_S50000 : (⟨S_, .f32⟩ : BufTy).Contents (Elt F) → (⟨S50000, .f32⟩ : BufTy).Contents (Elt F)),
    StableHlo.binary main_v73 main_v74 main_v75 (cmpf .ogt : (⟨S50000, .f32⟩ : BufTy).Contents (Elt F) → (⟨S50000, .f32⟩ : BufTy).Contents (Elt F) → (⟨S50000, .i1⟩ : BufTy).Contents (Elt F)),
    StableHlo.nullary main_cst_17 (constant S_ .f32 0x3F800000#32),
    StableHlo.unary main_cst_17 main_v76 (broadcastInDim S50000 ![] bcast_S_S50000 : (⟨S_, .f32⟩ : BufTy).Contents (Elt F) → (⟨S50000, .f32⟩ : BufTy).Contents (Elt F)),
    StableHlo.binary main_v73 main_v76 main_v77 (maximumf : (⟨S50000, .f32⟩ : BufTy).Contents (Elt F) → (⟨S50000, .f32⟩ : BufTy).Contents (Elt F) → (⟨S50000, .f32⟩ : BufTy).Contents (Elt F)),
    StableHlo.unary main_v77 main_v78 (Host.rsqrt : (⟨S50000, .f32⟩ : BufTy).Contents (Elt F) → (⟨S50000, .f32⟩ : BufTy).Contents (Elt F)),
    StableHlo.nullary main_cst_18 (constant S_ .f32 0x00000000#32),
    StableHlo.unary main_cst_18 main_call3_v0 (id : (⟨S_, .f32⟩ : BufTy).Contents (Elt F) → (⟨S_, .f32⟩ : BufTy).Contents (Elt F)),
    StableHlo.unary main_call3_v0 main_call3_v1 (broadcastInDim S50000 ![] bcast_S_S50000 : (⟨S_, .f32⟩ : BufTy).Contents (Elt F) → (⟨S50000, .f32⟩ : BufTy).Contents (Elt F)),
    StableHlo.ternary main_v75 main_v78 main_call3_v1 main_v79 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]
/-- Over these literal buffers a typed operation is the plain one: the transports along the buffers' types are identities. -/
theorem sDinv2_plain {F : FTy → Type} [FloatOps F] : (sDinv2 : List (HloOp τ sig (Elt F))) = sDinv2P := rfl

/-- The same stage with every operation spelt over the buffers themselves. -/
abbrev sVar2P {F : FTy → Type} [FloatOps F] : List (HloOp τ sig (Elt F)) :=
  [ StableHlo.nullary main_c_28 (constantI S_ 32 0#32),
    StableHlo.nullary main_call4_cst (constant S_ .f32 0x00000000#32 : (⟨S_, .f32⟩ : BufTy).Contents (Elt F)),
    StableHlo.binary main_v110 main_call4_cst main_call4_v0 (fun x v => Host.reduceAdd x v reducesTo_S50000x128_S128_d0 h_S_ : (⟨S50000x128, .f32⟩ : BufTy).Contents (Elt F) → (⟨S_, .f32⟩ : BufTy).Contents (Elt F) → (⟨S128, .f32⟩ : BufTy).Contents (Elt F)),
    StableHlo.unary main_call4_v0 main_call4_v1 (broadcastInDim S1x128 ![1] bcast_S128_S1x128_1 : (⟨S128, .f32⟩ : BufTy).Contents (Elt F) → (⟨S1x128, .f32⟩ : BufTy).Contents (Elt F)),
    StableHlo.nullary main_call4_cst_0 (constant S_ .f32 0x47435000#32 : (⟨S_, .f32⟩ : BufTy).Contents (Elt F)),
    StableHlo.unary main_call4_cst_0 main_call4_v2 (broadcastInDim S1x128 ![] bcast_S_S1x128 : (⟨S_, .f32⟩ : BufTy).Contents (Elt F) → (⟨S1x128, .f32⟩ : BufTy).Contents (Elt F)),
    StableHlo.binary main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)),
    StableHlo.unary main_call4_v3 main_call4_v4 (broadcastInDim S50000x128 ![0, 1] bcast_S1x128_S50000x128_0_1 : (⟨S1x128, .f32⟩ : BufTy).Contents (Elt F) → (⟨S50000x128, .f32⟩ : BufTy).Contents (Elt F)),
    StableHlo.binary main_v110 main_call4_v4 main_call4_v5 (subf : (⟨S50000x128, .f32⟩ : BufTy).Contents (Elt F) → (⟨S50000x128, .f32⟩ : BufTy).Contents (Elt F) → (⟨S50000x128, .f32⟩ : BufTy).Contents (Elt F)),
    StableHlo.binary main_call4_v5 main_call4_v5 main_call4_v6 (mulf : (⟨S50000x128, .f32⟩ : BufTy).Contents (Elt F) → (⟨S50000x128, .f32⟩ : BufTy).Contents (Elt F) → (⟨S50000x128, .f32⟩ : BufTy).Contents (Elt F)),
    StableHlo.unary main_c_28 main_call4_v7 (sitofp .f32 : (⟨S_, .i32⟩ : BufTy).Contents (Elt F) → (⟨S_, .f32⟩ : BufTy).Contents (Elt F)),
    StableHlo.nullary main_call4_cst_1 (constant S_ .f32 0x47435000#32 : (⟨S_, .f32⟩ : BufTy).Contents (Elt F)),
    StableHlo.binary main_call4_cst_1 main_call4_v7 main_call4_v8 (subf : (⟨S_, .f32⟩ : BufTy).Contents (Elt F) → (⟨S_, .f32⟩ : BufTy).Contents (Elt F) → (⟨S_, .f32⟩ : BufTy).Contents (Elt F)),
    StableHlo.nullary main_call4_cst_2 (constant S_ .f32 0x00000000#32 : (⟨S_, .f32⟩ : BufTy).Contents (Elt F)),
    StableHlo.binary main_call4_v6 main_call4_cst_2 main_call4_v9 (fun x v => Host.reduceAdd x v reducesTo_S50000x128_S128_d0 h_S_ : (⟨S50000x128, .f32⟩ : BufTy).Contents (Elt F) → (⟨S_, .f32⟩ : BufTy).Contents (Elt F) → (⟨S128, .f32⟩ : BufTy).Contents (Elt F)),
    StableHlo.unary main_call4_v8 main_call4_v10 (broadcastInDim S128 ![] bcast_S_S128 : (⟨S_, .f32⟩ : BufTy).Contents (Elt F) → (⟨S128, .f32⟩ : BufTy).Contents (Elt F)),
    StableHlo.binary main_call4_v9 main_call4_v10 main_call4_v11 (Host.divf : (⟨S128, .f32⟩ : BufTy).Contents (Elt F) → (⟨S128, .f32⟩ : BufTy).Contents (Elt F) → (⟨S128, .f32⟩ : BufTy).Contents (Elt F)),
    StableHlo.nullary main_call4_cst_3 (constant S_ .f32 0x00000000#32 : (⟨S_, .f32⟩ : BufTy).Contents (Elt F)),
    StableHlo.binary main_call4_v8 main_call4_cst_3 main_call4_v12 (cmpf .ogt : (⟨S_, .f32⟩ : BufTy).Contents (Elt F) → (⟨S_, .f32⟩ : BufTy).Contents (Elt F) → (⟨S_, .i1⟩ : BufTy).Contents (Elt F)),
    StableHlo.nullary main_call4_cst_4 (constant S_ .f32 0x7FC00000#32 : (⟨S_, .f32⟩ : BufTy).Contents (Elt F)),
    StableHlo.unary main_call4_cst_4 main_call4_call0_v0 (id : (⟨S_, .f32⟩ : BufTy).Contents (Elt F) → (⟨S_, .f32⟩ : BufTy).Contents (Elt F)),
    StableHlo.unary main_call4_call0_v0 main_call4_call0_v1 (broadcastInDim S128 ![] bcast_S_S128 : (⟨S_, .f32⟩ : BufTy).Contents (Elt F) → (⟨S128, .f32⟩ : BufTy).Contents (Elt F)),
    StableHlo.ternary main_call4_v12 main_call4_v11 main_call4_call0_v1 main_v114 (fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ]
/-- Over these literal buffers a typed operation is the plain one: the transports along the buffers' types are identities. -/
theorem sVar2_plain {F : FTy → Type} [FloatOps F] : (sVar2 : List (HloOp τ sig (Elt F))) = sVar2P := rfl

/-- The same stage with every operation spelt over the buffers themselves. -/
abbrev sRelu2P {F : FTy → Type} [FloatOps F] : List (HloOp τ sig (Elt F)) :=
  [ StableHlo.nullary main_call5_cst (constant S_ .f32 0x00000000#32 : (⟨S_, .f32⟩ : BufTy).Contents (Elt F)),
    StableHlo.unary main_call5_cst main_call5_v0 (broadcastInDim S50000x128 ![] bcast_S_S50000x128 : (⟨S_, .f32⟩ : BufTy).Contents (Elt F) → (⟨S50000x128, .f32⟩ : BufTy).Contents (Elt F)),
    StableHlo.binary main_v129 main_call5_v0 main_v130 (maximumf : (⟨S50000x128, .f32⟩ : BufTy).Contents (Elt F) → (⟨S50000x128, .f32⟩ : BufTy).Contents (Elt F) → (⟨S50000x128, .f32⟩ : BufTy).Contents (Elt F)) ]
/-- Over these literal buffers a typed operation is the plain one: the transports along the buffers' types are identities. -/
theorem sRelu2_plain {F : FTy → Type} [FloatOps F] : (sRelu2 : List (HloOp τ sig (Elt F))) = sRelu2P := rfl

/-! ## The twenty stages as maps of the buffers' contents -/

/-- The contents after stage 1, from contents `W` before it. The edge list's two rows, each flattened and followed by the node numbers 0 … n−1 (one self-loop per node). -/
def st01 (W : Vals) : Vals := StableHlo.after sEdges W
/-- The buffers stage 1 writes. -/
abbrev wr01 : List (Ref sig .tc) :=
  [main_v0, main_v1, main_v2, main_v3, main_v4, main_v5, main_v6]
theorem wr01_sub : (sEdges : List (HloOp τ sig (Elt Ideal))).Forall fun op => op.writes ⊆ (wr01.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide)⟩
/-- Stage 1 leaves every buffer it does not write as it was. -/
theorem st01_of (W : Vals) {r : Ref sig .tc} (h : r ∉ wr01) :
    st01 W (no_index (Proc.devRef .tc r)) = W (Proc.devRef .tc r) :=
  StableHlo.after_of_writes_sub sEdges W wr01_sub h

/-- The contents after stage 2, from contents `W` before it. The first layer's matrix product of the node features with its weight matrix. -/
def st02 (W : Vals) : Vals := StableHlo.after sDot1 W
/-- The buffers stage 2 writes. -/
abbrev wr02 : List (Ref sig .tc) :=
  [main_v7]
theorem wr02_sub : (sDot1 : List (HloOp τ sig (Elt Ideal))).Forall fun op => op.writes ⊆ (wr02.map (Proc.devRef (τ := τ) .tc)).toFinset :=
  single_sub_of_mem (by decide)
/-- Stage 2 leaves every buffer it does not write as it was. -/
theorem st02_of (W : Vals) {r : Ref sig .tc} (h : r ∉ wr02) :
    st02 W (no_index (Proc.devRef .tc r)) = W (Proc.devRef .tc r) :=
  StableHlo.after_of_writes_sub sDot1 W wr02_sub h

/-- The contents after stage 3, from contents `W` before it. First layer: the in-degree of every node (ones summed at the target indices) and its inverse square root, zero where the degree is zero. -/
def st03 (W : Vals) : Vals := StableHlo.after sDinv1 W
/-- The buffers stage 3 writes. -/
abbrev wr03 : List (Ref sig .tc) :=
  [main_cst, main_v8, main_cst_0, main_v9, main_v10, main_v11, main_cst_1, main_v12, main_v13, main_cst_2, main_v14, main_v15, main_v16, main_cst_3, main_call0.v0.ref, main_call0.v1.ref, main_call0.v2.ref]
theorem wr03_sub : (sDinv1 : List (HloOp τ sig (Elt Ideal))).Forall fun op => op.writes ⊆ (wr03.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩
/-- Stage 3 leaves every buffer it does not write as it was. -/
theorem st03_of (W : Vals) {r : Ref sig .tc} (h : r ∉ wr03) :
    st03 W (no_index (Proc.devRef .tc r)) = W (Proc.devRef .tc r) :=
  StableHlo.after_of_writes_sub sDinv1 W wr03_sub h

/-- The contents after stage 4, from contents `W` before it. First layer: the weight of every edge, the product of the inverse square roots of the degrees at its two ends. -/
def st04 (W : Vals) : Vals := StableHlo.after sCoef1 W
/-- The buffers stage 4 writes. -/
abbrev wr04 : List (Ref sig .tc) :=
  [main_c, main_v18, main_v19, main_c_4, main_v20, main_v21, main_v22, main_v23, main_v24, main_c_5, main_v25, main_v26, main_c_6, main_v27, main_v28, main_v29, main_v30, main_v31, main_v32]
theorem wr04_sub : (sCoef1 : List (HloOp τ sig (Elt Ideal))).Forall fun op => op.writes ⊆ (wr04.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩
/-- Stage 4 leaves every buffer it does not write as it was. -/
theorem st04_of (W : Vals) {r : Ref sig .tc} (h : r ∉ wr04) :
    st04 W (no_index (Proc.devRef .tc r)) = W (Proc.devRef .tc r) :=
  StableHlo.after_of_writes_sub sCoef1 W wr04_sub h

/-- The contents after stage 5, from contents `W` before it. First layer: every edge carries its weight times its source node's row to its target node, where the contributions are summed. -/
def st05 (W : Vals) : Vals := StableHlo.after sAgg1 W
/-- The buffers stage 5 writes. -/
abbrev wr05 : List (Ref sig .tc) :=
  [main_v33, main_c_7, main_v34, main_v35, main_c_8, main_v36, main_v37, main_v38, main_v39, main_v40, main_v41, main_v42, main_cst_9, main_v43, main_v44, main_v45]
theorem wr05_sub : (sAgg1 : List (HloOp τ sig (Elt Ideal))).Forall fun op => op.writes ⊆ (wr05.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩
/-- Stage 5 leaves every buffer it does not write as it was. -/
theorem st05_of (W : Vals) {r : Ref sig .tc} (h : r ∉ wr05) :
    st05 W (no_index (Proc.devRef .tc r)) = W (Proc.devRef .tc r) :=
  StableHlo.after_of_writes_sub sAgg1 W wr05_sub h

/-- The contents after stage 6, from contents `W` before it. First layer: the bias row added to every node's row. -/
def st06 (W : Vals) : Vals := StableHlo.after sBias1 W
/-- The buffers stage 6 writes. -/
abbrev wr06 : List (Ref sig .tc) :=
  [main_v46, main_v47, main_v48]
theorem wr06_sub : (sBias1 : List (HloOp τ sig (Elt Ideal))).Forall fun op => op.writes ⊆ (wr06.map (Proc.devRef (τ := τ) .tc)).toFinset :=
  ⟨single_sub_of_mem (by decide), single_sub_of_mem (by decide), single_sub_of_mem (by decide)⟩
/-- Stage 6 leaves every buffer it does not write as it was. -/
theorem st06_of (W : Vals) {r : Ref sig .tc} (h : r ∉ wr06) :
    st06 W (no_index (Proc.devRef .tc r)) = W (Proc.devRef .tc r) :=
  StableHlo.after_of_writes_sub sBias1 W wr06_sub h

/-- The contents after stage 7, from contents `W` before it. First layer: the column means over the nodes. -/
def st07 (W : Vals) : Vals := StableHlo.after sMean1 W
/-- The buffers stage 7 writes. -/
abbrev wr07 : List (Ref sig .tc) :=
  [main_cst_10, main_v49, main_cst_11, main_v50, main_v51]
theorem wr07_sub : (sMean1 : List (HloOp τ sig (Elt Ideal))).Forall fun op => op.writes ⊆ (wr07.map (Proc.devRef (τ := τ) .tc)).toFinset :=
  ⟨single_sub_of_mem (by decide), single_sub_of_mem (by decide), single_sub_of_mem (by decide), single_sub_of_mem (by decide), single_sub_of_mem (by decide)⟩
/-- Stage 7 leaves every buffer it does not write as it was. -/
theorem st07_of (W : Vals) {r : Ref sig .tc} (h : r ∉ wr07) :
    st07 W (no_index (Proc.devRef .tc r)) = W (Proc.devRef .tc r) :=
  StableHlo.after_of_writes_sub sMean1 W wr07_sub h

/-- The contents after stage 8, from contents `W` before it. First layer: the column variances over the nodes (mean of squared deviations, divisor n − 0). -/
def st08 (W : Vals) : Vals := StableHlo.after sVar1 W
/-- The buffers stage 8 writes. -/
abbrev wr08 : List (Ref sig .tc) :=
  [main_c_12, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref]
theorem wr08_sub : (sVar1 : List (HloOp τ sig (Elt Ideal))).Forall fun op => op.writes ⊆ (wr08.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩
/-- Stage 8 leaves every buffer it does not write as it was. -/
theorem st08_of (W : Vals) {r : Ref sig .tc} (h : r ∉ wr08) :
    st08 W (no_index (Proc.devRef .tc r)) = W (Proc.devRef .tc r) :=
  StableHlo.after_of_writes_sub sVar1 W wr08_sub h

/-- The contents after stage 9, from contents `W` before it. First layer: centre by the mean, scale by the inverse square root of variance plus ε, then the learned scale and shift. -/
def st09 (W : Vals) : Vals := StableHlo.after sNorm1 W
/-- The buffers stage 9 writes. -/
abbrev wr09 : List (Ref sig .tc) :=
  [main_v53, main_v54, main_v55, main_cst_13, main_v56, main_v57, main_v58, main_v59, main_v60, main_v61, main_v62, main_v63, main_v64, main_v65, main_v66, main_v67]
theorem wr09_sub : (sNorm1 : List (HloOp τ sig (Elt Ideal))).Forall fun op => op.writes ⊆ (wr09.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩
/-- Stage 9 leaves every buffer it does not write as it was. -/
theorem st09_of (W : Vals) {r : Ref sig .tc} (h : r ∉ wr09) :
    st09 W (no_index (Proc.devRef .tc r)) = W (Proc.devRef .tc r) :=
  StableHlo.after_of_writes_sub sNorm1 W wr09_sub h

/-- The contents after stage 10, from contents `W` before it. First layer: the maximum with zero. -/
def st10 (W : Vals) : Vals := StableHlo.after sRelu1 W
/-- The buffers stage 10 writes. -/
abbrev wr10 : List (Ref sig .tc) :=
  [main_call2.cst.ref, main_call2.v0.ref, main_call2.v1.ref]
theorem wr10_sub : (sRelu1 : List (HloOp τ sig (Elt Ideal))).Forall fun op => op.writes ⊆ (wr10.map (Proc.devRef (τ := τ) .tc)).toFinset :=
  ⟨single_sub_of_mem (by decide), single_sub_of_mem (by decide), single_sub_of_mem (by decide)⟩
/-- Stage 10 leaves every buffer it does not write as it was. -/
theorem st10_of (W : Vals) {r : Ref sig .tc} (h : r ∉ wr10) :
    st10 W (no_index (Proc.devRef .tc r)) = W (Proc.devRef .tc r) :=
  StableHlo.after_of_writes_sub sRelu1 W wr10_sub h

/-- The contents after stage 11, from contents `W` before it. The second layer's matrix product. -/
def st11 (W : Vals) : Vals := StableHlo.after sDot2 W
/-- The buffers stage 11 writes. -/
abbrev wr11 : List (Ref sig .tc) :=
  [main_v69]
theorem wr11_sub : (sDot2 : List (HloOp τ sig (Elt Ideal))).Forall fun op => op.writes ⊆ (wr11.map (Proc.devRef (τ := τ) .tc)).toFinset :=
  single_sub_of_mem (by decide)
/-- Stage 11 leaves every buffer it does not write as it was. -/
theorem st11_of (W : Vals) {r : Ref sig .tc} (h : r ∉ wr11) :
    st11 W (no_index (Proc.devRef .tc r)) = W (Proc.devRef .tc r) :=
  StableHlo.after_of_writes_sub sDot2 W wr11_sub h

/-- The contents after stage 12, from contents `W` before it. Second layer: the in-degrees and their inverse square roots, computed again from the same edge list. -/
def st12 (W : Vals) : Vals := StableHlo.after sDinv2 W
/-- The buffers stage 12 writes. -/
abbrev wr12 : List (Ref sig .tc) :=
  [main_cst_14, main_v70, main_cst_15, main_v71, main_v72, main_v73, main_cst_16, main_v74, main_v75, main_cst_17, main_v76, main_v77, main_v78, main_cst_18, main_call3.v0.ref, main_call3.v1.ref, main_call3.v2.ref]
theorem wr12_sub : (sDinv2 : List (HloOp τ sig (Elt Ideal))).Forall fun op => op.writes ⊆ (wr12.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩
/-- Stage 12 leaves every buffer it does not write as it was. -/
theorem st12_of (W : Vals) {r : Ref sig .tc} (h : r ∉ wr12) :
    st12 W (no_index (Proc.devRef .tc r)) = W (Proc.devRef .tc r) :=
  StableHlo.after_of_writes_sub sDinv2 W wr12_sub h

/-- The contents after stage 13, from contents `W` before it. Second layer: the edge weights, computed again. -/
def st13 (W : Vals) : Vals := StableHlo.after sCoef2 W
/-- The buffers stage 13 writes. -/
abbrev wr13 : List (Ref sig .tc) :=
  [main_c_19, main_v80, main_v81, main_c_20, main_v82, main_v83, main_v84, main_v85, main_v86, main_c_21, main_v87, main_v88, main_c_22, main_v89, main_v90, main_v91, main_v92, main_v93, main_v94]
theorem wr13_sub : (sCoef2 : List (HloOp τ sig (Elt Ideal))).Forall fun op => op.writes ⊆ (wr13.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩
/-- Stage 13 leaves every buffer it does not write as it was. -/
theorem st13_of (W : Vals) {r : Ref sig .tc} (h : r ∉ wr13) :
    st13 W (no_index (Proc.devRef .tc r)) = W (Proc.devRef .tc r) :=
  StableHlo.after_of_writes_sub sCoef2 W wr13_sub h

/-- The contents after stage 14, from contents `W` before it. Second layer: the weighted neighbourhood sum. -/
def st14 (W : Vals) : Vals := StableHlo.after sAgg2 W
/-- The buffers stage 14 writes. -/
abbrev wr14 : List (Ref sig .tc) :=
  [main_v95, main_c_23, main_v96, main_v97, main_c_24, main_v98, main_v99, main_v100, main_v101, main_v102, main_v103, main_v104, main_cst_25, main_v105, main_v106, main_v107]
theorem wr14_sub : (sAgg2 : List (HloOp τ sig (Elt Ideal))).Forall fun op => op.writes ⊆ (wr14.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩
/-- Stage 14 leaves every buffer it does not write as it was. -/
theorem st14_of (W : Vals) {r : Ref sig .tc} (h : r ∉ wr14) :
    st14 W (no_index (Proc.devRef .tc r)) = W (Proc.devRef .tc r) :=
  StableHlo.after_of_writes_sub sAgg2 W wr14_sub h

/-- The contents after stage 15, from contents `W` before it. Second layer: the bias row added to every node's row. -/
def st15 (W : Vals) : Vals := StableHlo.after sBias2 W
/-- The buffers stage 15 writes. -/
abbrev wr15 : List (Ref sig .tc) :=
  [main_v108, main_v109, main_v110]
theorem wr15_sub : (sBias2 : List (HloOp τ sig (Elt Ideal))).Forall fun op => op.writes ⊆ (wr15.map (Proc.devRef (τ := τ) .tc)).toFinset :=
  ⟨single_sub_of_mem (by decide), single_sub_of_mem (by decide), single_sub_of_mem (by decide)⟩
/-- Stage 15 leaves every buffer it does not write as it was. -/
theorem st15_of (W : Vals) {r : Ref sig .tc} (h : r ∉ wr15) :
    st15 W (no_index (Proc.devRef .tc r)) = W (Proc.devRef .tc r) :=
  StableHlo.after_of_writes_sub sBias2 W wr15_sub h

/-- The contents after stage 16, from contents `W` before it. Second layer: the column means over the nodes. -/
def st16 (W : Vals) : Vals := StableHlo.after sMean2 W
/-- The buffers stage 16 writes. -/
abbrev wr16 : List (Ref sig .tc) :=
  [main_cst_26, main_v111, main_cst_27, main_v112, main_v113]
theorem wr16_sub : (sMean2 : List (HloOp τ sig (Elt Ideal))).Forall fun op => op.writes ⊆ (wr16.map (Proc.devRef (τ := τ) .tc)).toFinset :=
  ⟨single_sub_of_mem (by decide), single_sub_of_mem (by decide), single_sub_of_mem (by decide), single_sub_of_mem (by decide), single_sub_of_mem (by decide)⟩
/-- Stage 16 leaves every buffer it does not write as it was. -/
theorem st16_of (W : Vals) {r : Ref sig .tc} (h : r ∉ wr16) :
    st16 W (no_index (Proc.devRef .tc r)) = W (Proc.devRef .tc r) :=
  StableHlo.after_of_writes_sub sMean2 W wr16_sub h

/-- The contents after stage 17, from contents `W` before it. Second layer: the column variances over the nodes. -/
def st17 (W : Vals) : Vals := StableHlo.after sVar2 W
/-- The buffers stage 17 writes. -/
abbrev wr17 : List (Ref sig .tc) :=
  [main_c_28, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref]
theorem wr17_sub : (sVar2 : List (HloOp τ sig (Elt Ideal))).Forall fun op => op.writes ⊆ (wr17.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩
/-- Stage 17 leaves every buffer it does not write as it was. -/
theorem st17_of (W : Vals) {r : Ref sig .tc} (h : r ∉ wr17) :
    st17 W (no_index (Proc.devRef .tc r)) = W (Proc.devRef .tc r) :=
  StableHlo.after_of_writes_sub sVar2 W wr17_sub h

/-- The contents after stage 18, from contents `W` before it. Second layer: centre, scale, learned scale and shift. -/
def st18 (W : Vals) : Vals := StableHlo.after sNorm2 W
/-- The buffers stage 18 writes. -/
abbrev wr18 : List (Ref sig .tc) :=
  [main_v115, main_v116, main_v117, main_cst_29, main_v118, main_v119, main_v120, main_v121, main_v122, main_v123, main_v124, main_v125, main_v126, main_v127, main_v128, main_v129]
theorem wr18_sub : (sNorm2 : List (HloOp τ sig (Elt Ideal))).Forall fun op => op.writes ⊆ (wr18.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩
/-- Stage 18 leaves every buffer it does not write as it was. -/
theorem st18_of (W : Vals) {r : Ref sig .tc} (h : r ∉ wr18) :
    st18 W (no_index (Proc.devRef .tc r)) = W (Proc.devRef .tc r) :=
  StableHlo.after_of_writes_sub sNorm2 W wr18_sub h

/-- The contents after stage 19, from contents `W` before it. Second layer: the maximum with zero. -/
def st19 (W : Vals) : Vals := StableHlo.after sRelu2 W
/-- The buffers stage 19 writes. -/
abbrev wr19 : List (Ref sig .tc) :=
  [main_call5.cst.ref, main_call5.v0.ref, main_call5.v1.ref]
theorem wr19_sub : (sRelu2 : List (HloOp τ sig (Elt Ideal))).Forall fun op => op.writes ⊆ (wr19.map (Proc.devRef (τ := τ) .tc)).toFinset :=
  ⟨single_sub_of_mem (by decide), single_sub_of_mem (by decide), single_sub_of_mem (by decide)⟩
/-- Stage 19 leaves every buffer it does not write as it was. -/
theorem st19_of (W : Vals) {r : Ref sig .tc} (h : r ∉ wr19) :
    st19 W (no_index (Proc.devRef .tc r)) = W (Proc.devRef .tc r) :=
  StableHlo.after_of_writes_sub sRelu2 W wr19_sub h

/-- The contents after stage 20, from contents `W` before it. The output layer: the matrix product with the last weight matrix plus its bias row. -/
def st20 (W : Vals) : Vals := StableHlo.after sHead W
/-- The buffers stage 20 writes. -/
abbrev wr20 : List (Ref sig .tc) :=
  [main_v131, main_v132, main_v133, main_v134]
theorem wr20_sub : (sHead : List (HloOp τ sig (Elt Ideal))).Forall fun op => op.writes ⊆ (wr20.map (Proc.devRef (τ := τ) .tc)).toFinset :=
  ⟨single_sub_of_mem (by decide), single_sub_of_mem (by decide), single_sub_of_mem (by decide), single_sub_of_mem (by decide)⟩
/-- Stage 20 leaves every buffer it does not write as it was. -/
theorem st20_of (W : Vals) {r : Ref sig .tc} (h : r ∉ wr20) :
    st20 W (no_index (Proc.devRef .tc r)) = W (Proc.devRef .tc r) :=
  StableHlo.after_of_writes_sub sHead W wr20_sub h

/-! ## What each stage computes -/

set_option maxRecDepth 8192 in
/-- The edge list's two rows, each flattened and followed by the node numbers 0 … n−1 (one self-loop per node). -/
theorem st01_row₀ (W : Vals) :
    st01 W (Proc.devRef .tc main_v3) = rowV (W (Proc.devRef .tc main_arg1)) := by
  unfold st01
  after_results_simp
  rfl
theorem st01_row (W : Vals) :
    st01 W (no_index (Proc.devRef .tc main_v3)) = rowV (W (Proc.devRef .tc main_arg1)) := st01_row₀ W

set_option maxRecDepth 8192 in
/-- The edge list's two rows, each flattened and followed by the node numbers 0 … n−1 (one self-loop per node). -/
theorem st01_col₀ (W : Vals) :
    st01 W (Proc.devRef .tc main_v6) = colV (W (Proc.devRef .tc main_arg1)) := by
  unfold st01
  after_results_simp
  rfl
theorem st01_col (W : Vals) :
    st01 W (no_index (Proc.devRef .tc main_v6)) = colV (W (Proc.devRef .tc main_arg1)) := st01_col₀ W

set_option maxRecDepth 8192 in
/-- The first layer's matrix product of the node features with its weight matrix. -/
theorem st02_val₀ (W : Vals) :
    st02 W (Proc.devRef .tc main_v7) = (Host.dotGeneral (φ₁ := .f32) (φ₂ := .f32) dot_S50000x128_S128x128_S50000x128_1_0_0_1_n_n none (W (Proc.devRef .tc main_arg0)) (W (Proc.devRef .tc main_arg2)) : FVec Ideal S50000x128 .f32) := by
  unfold st02
  after_results_simp
theorem st02_val (W : Vals) :
    st02 W (no_index (Proc.devRef .tc main_v7)) = (Host.dotGeneral (φ₁ := .f32) (φ₂ := .f32) dot_S50000x128_S128x128_S50000x128_1_0_0_1_n_n none (W (Proc.devRef .tc main_arg0)) (W (Proc.devRef .tc main_arg2)) : FVec Ideal S50000x128 .f32) := st02_val₀ W

set_option maxRecDepth 8192 in
/-- First layer: the in-degree of every node (ones summed at the target indices) and its inverse square root, zero where the degree is zero. -/
theorem st03_val₀ (W : Vals) :
    st03 W (Proc.devRef .tc main_v17) = dinvV (F := Ideal) (W (Proc.devRef .tc main_v6)) := by
  unfold st03
  rw [sDinv1_plain]
  after_results_simp
  rfl
theorem st03_val (W : Vals) :
    st03 W (no_index (Proc.devRef .tc main_v17)) = dinvV (F := Ideal) (W (Proc.devRef .tc main_v6)) := st03_val₀ W

set_option maxRecDepth 8192 in
/-- First layer: the weight of every edge, the product of the inverse square roots of the degrees at its two ends. -/
theorem st04_val₀ (W : Vals) :
    st04 W (Proc.devRef .tc main_v32) = (mulf (Host.gather gather_S50000_S650000x1_S650000_n_0_n_n_0_1_1 (W (Proc.devRef .tc main_v17)) (wrapIdx (W (Proc.devRef .tc main_v3)))) (Host.gather gather_S50000_S650000x1_S650000_n_0_n_n_0_1_1 (W (Proc.devRef .tc main_v17)) (wrapIdx (W (Proc.devRef .tc main_v6)))) : FVec Ideal S650000 .f32) := by
  unfold st04
  after_results_simp
  rfl
theorem st04_val (W : Vals) :
    st04 W (no_index (Proc.devRef .tc main_v32)) = (mulf (Host.gather gather_S50000_S650000x1_S650000_n_0_n_n_0_1_1 (W (Proc.devRef .tc main_v17)) (wrapIdx (W (Proc.devRef .tc main_v3)))) (Host.gather gather_S50000_S650000x1_S650000_n_0_n_n_0_1_1 (W (Proc.devRef .tc main_v17)) (wrapIdx (W (Proc.devRef .tc main_v6)))) : FVec Ideal S650000 .f32) := st04_val₀ W

set_option maxRecDepth 8192 in
/-- First layer: every edge carries its weight times its source node's row to its target node, where the contributions are summed. -/
theorem st05_val₀ (W : Vals) :
    st05 W (Proc.devRef .tc main_v45) = aggV (F := Ideal) (W (Proc.devRef .tc main_v7)) (W (Proc.devRef .tc main_v32)) (W (Proc.devRef .tc main_v3)) (W (Proc.devRef .tc main_v6)) := by
  unfold st05
  after_results_simp
  rfl
theorem st05_val (W : Vals) :
    st05 W (no_index (Proc.devRef .tc main_v45)) = aggV (F := Ideal) (W (Proc.devRef .tc main_v7)) (W (Proc.devRef .tc main_v32)) (W (Proc.devRef .tc main_v3)) (W (Proc.devRef .tc main_v6)) := st05_val₀ W

set_option maxRecDepth 8192 in
/-- First layer: the bias row added to every node's row. -/
theorem st06_val₀ (W : Vals) :
    st06 W (Proc.devRef .tc main_v48) = addBiasV (W (Proc.devRef .tc main_v45)) (W (Proc.devRef .tc main_arg3)) := by
  unfold st06
  after_results_simp
  rfl
theorem st06_val (W : Vals) :
    st06 W (no_index (Proc.devRef .tc main_v48)) = addBiasV (W (Proc.devRef .tc main_v45)) (W (Proc.devRef .tc main_arg3)) := st06_val₀ W

set_option maxRecDepth 8192 in
/-- First layer: the column means over the nodes. -/
theorem st07_val₀ (W : Vals) :
    st07 W (Proc.devRef .tc main_v51) = meanV (W (Proc.devRef .tc main_v48)) := by
  unfold st07
  after_results_simp
  rfl
theorem st07_val (W : Vals) :
    st07 W (no_index (Proc.devRef .tc main_v51)) = meanV (W (Proc.devRef .tc main_v48)) := st07_val₀ W

set_option maxRecDepth 8192 in
/-- First layer: the column variances over the nodes (mean of squared deviations, divisor n − 0). -/
theorem st08_val₀ (W : Vals) :
    st08 W (Proc.devRef .tc main_v52) = varV (W (Proc.devRef .tc main_v48)) := by
  unfold st08
  rw [sVar1_plain]
  after_results_simp
  rfl
theorem st08_val (W : Vals) :
    st08 W (no_index (Proc.devRef .tc main_v52)) = varV (W (Proc.devRef .tc main_v48)) := st08_val₀ W

set_option maxRecDepth 8192 in
/-- First layer: centre by the mean, scale by the inverse square root of variance plus ε, then the learned scale and shift. -/
theorem st09_val₀ (W : Vals) :
    st09 W (Proc.devRef .tc main_v67) = normV (W (Proc.devRef .tc main_v48)) (W (Proc.devRef .tc main_v51)) (W (Proc.devRef .tc main_v52)) (W (Proc.devRef .tc main_arg4)) (W (Proc.devRef .tc main_arg5)) := by
  unfold st09
  after_results_simp
  rfl
theorem st09_val (W : Vals) :
    st09 W (no_index (Proc.devRef .tc main_v67)) = normV (W (Proc.devRef .tc main_v48)) (W (Proc.devRef .tc main_v51)) (W (Proc.devRef .tc main_v52)) (W (Proc.devRef .tc main_arg4)) (W (Proc.devRef .tc main_arg5)) := st09_val₀ W

set_option maxRecDepth 8192 in
/-- First layer: the maximum with zero. -/
theorem st10_val₀ (W : Vals) :
    st10 W (Proc.devRef .tc main_v68) = reluV (W (Proc.devRef .tc main_v67)) := by
  unfold st10
  rw [sRelu1_plain]
  after_results_simp
  rfl
theorem st10_val (W : Vals) :
    st10 W (no_index (Proc.devRef .tc main_v68)) = reluV (W (Proc.devRef .tc main_v67)) := st10_val₀ W

set_option maxRecDepth 8192 in
/-- The second layer's matrix product. -/
theorem st11_val₀ (W : Vals) :
    st11 W (Proc.devRef .tc main_v69) = (Host.dotGeneral (φ₁ := .f32) (φ₂ := .f32) dot_S50000x128_S128x128_S50000x128_1_0_0_1_n_n none (W (Proc.devRef .tc main_v68)) (W (Proc.devRef .tc main_arg6)) : FVec Ideal S50000x128 .f32) := by
  unfold st11
  after_results_simp
theorem st11_val (W : Vals) :
    st11 W (no_index (Proc.devRef .tc main_v69)) = (Host.dotGeneral (φ₁ := .f32) (φ₂ := .f32) dot_S50000x128_S128x128_S50000x128_1_0_0_1_n_n none (W (Proc.devRef .tc main_v68)) (W (Proc.devRef .tc main_arg6)) : FVec Ideal S50000x128 .f32) := st11_val₀ W

set_option maxRecDepth 8192 in
/-- Second layer: the in-degrees and their inverse square roots, computed again from the same edge list. -/
theorem st12_val₀ (W : Vals) :
    st12 W (Proc.devRef .tc main_v79) = dinvV (F := Ideal) (W (Proc.devRef .tc main_v6)) := by
  unfold st12
  rw [sDinv2_plain]
  after_results_simp
  rfl
theorem st12_val (W : Vals) :
    st12 W (no_index (Proc.devRef .tc main_v79)) = dinvV (F := Ideal) (W (Proc.devRef .tc main_v6)) := st12_val₀ W

set_option maxRecDepth 8192 in
/-- Second layer: the edge weights, computed again. -/
theorem st13_val₀ (W : Vals) :
    st13 W (Proc.devRef .tc main_v94) = (mulf (Host.gather gather_S50000_S650000x1_S650000_n_0_n_n_0_1_1 (W (Proc.devRef .tc main_v79)) (wrapIdx (W (Proc.devRef .tc main_v3)))) (Host.gather gather_S50000_S650000x1_S650000_n_0_n_n_0_1_1 (W (Proc.devRef .tc main_v79)) (wrapIdx (W (Proc.devRef .tc main_v6)))) : FVec Ideal S650000 .f32) := by
  unfold st13
  after_results_simp
  rfl
theorem st13_val (W : Vals) :
    st13 W (no_index (Proc.devRef .tc main_v94)) = (mulf (Host.gather gather_S50000_S650000x1_S650000_n_0_n_n_0_1_1 (W (Proc.devRef .tc main_v79)) (wrapIdx (W (Proc.devRef .tc main_v3)))) (Host.gather gather_S50000_S650000x1_S650000_n_0_n_n_0_1_1 (W (Proc.devRef .tc main_v79)) (wrapIdx (W (Proc.devRef .tc main_v6)))) : FVec Ideal S650000 .f32) := st13_val₀ W

set_option maxRecDepth 8192 in
/-- Second layer: the weighted neighbourhood sum. -/
theorem st14_val₀ (W : Vals) :
    st14 W (Proc.devRef .tc main_v107) = aggV (F := Ideal) (W (Proc.devRef .tc main_v69)) (W (Proc.devRef .tc main_v94)) (W (Proc.devRef .tc main_v3)) (W (Proc.devRef .tc main_v6)) := by
  unfold st14
  after_results_simp
  rfl
theorem st14_val (W : Vals) :
    st14 W (no_index (Proc.devRef .tc main_v107)) = aggV (F := Ideal) (W (Proc.devRef .tc main_v69)) (W (Proc.devRef .tc main_v94)) (W (Proc.devRef .tc main_v3)) (W (Proc.devRef .tc main_v6)) := st14_val₀ W

set_option maxRecDepth 8192 in
/-- Second layer: the bias row added to every node's row. -/
theorem st15_val₀ (W : Vals) :
    st15 W (Proc.devRef .tc main_v110) = addBiasV (W (Proc.devRef .tc main_v107)) (W (Proc.devRef .tc main_arg7)) := by
  unfold st15
  after_results_simp
  rfl
theorem st15_val (W : Vals) :
    st15 W (no_index (Proc.devRef .tc main_v110)) = addBiasV (W (Proc.devRef .tc main_v107)) (W (Proc.devRef .tc main_arg7)) := st15_val₀ W

set_option maxRecDepth 8192 in
/-- Second layer: the column means over the nodes. -/
theorem st16_val₀ (W : Vals) :
    st16 W (Proc.devRef .tc main_v113) = meanV (W (Proc.devRef .tc main_v110)) := by
  unfold st16
  after_results_simp
  rfl
theorem st16_val (W : Vals) :
    st16 W (no_index (Proc.devRef .tc main_v113)) = meanV (W (Proc.devRef .tc main_v110)) := st16_val₀ W

set_option maxRecDepth 8192 in
/-- Second layer: the column variances over the nodes. -/
theorem st17_val₀ (W : Vals) :
    st17 W (Proc.devRef .tc main_v114) = varV (W (Proc.devRef .tc main_v110)) := by
  unfold st17
  rw [sVar2_plain]
  after_results_simp
  rfl
theorem st17_val (W : Vals) :
    st17 W (no_index (Proc.devRef .tc main_v114)) = varV (W (Proc.devRef .tc main_v110)) := st17_val₀ W

set_option maxRecDepth 8192 in
/-- Second layer: centre, scale, learned scale and shift. -/
theorem st18_val₀ (W : Vals) :
    st18 W (Proc.devRef .tc main_v129) = normV (W (Proc.devRef .tc main_v110)) (W (Proc.devRef .tc main_v113)) (W (Proc.devRef .tc main_v114)) (W (Proc.devRef .tc main_arg8)) (W (Proc.devRef .tc main_arg9)) := by
  unfold st18
  after_results_simp
  rfl
theorem st18_val (W : Vals) :
    st18 W (no_index (Proc.devRef .tc main_v129)) = normV (W (Proc.devRef .tc main_v110)) (W (Proc.devRef .tc main_v113)) (W (Proc.devRef .tc main_v114)) (W (Proc.devRef .tc main_arg8)) (W (Proc.devRef .tc main_arg9)) := st18_val₀ W

set_option maxRecDepth 8192 in
/-- Second layer: the maximum with zero. -/
theorem st19_val₀ (W : Vals) :
    st19 W (Proc.devRef .tc main_v130) = reluV (W (Proc.devRef .tc main_v129)) := by
  unfold st19
  rw [sRelu2_plain]
  after_results_simp
  rfl
theorem st19_val (W : Vals) :
    st19 W (no_index (Proc.devRef .tc main_v130)) = reluV (W (Proc.devRef .tc main_v129)) := st19_val₀ W

set_option maxRecDepth 8192 in
/-- The output layer: the matrix product with the last weight matrix plus its bias row. -/
theorem st20_val₀ (W : Vals) :
    st20 W (Proc.devRef .tc main_v134) = headV (W (Proc.devRef .tc main_v130)) (W (Proc.devRef .tc main_arg10)) (W (Proc.devRef .tc main_arg11)) := by
  unfold st20
  after_results_simp
  rfl
theorem st20_val (W : Vals) :
    st20 W (no_index (Proc.devRef .tc main_v134)) = headV (W (Proc.devRef .tc main_v130)) (W (Proc.devRef .tc main_arg10)) (W (Proc.devRef .tc main_arg11)) := st20_val₀ W

/-! ## The whole run -/

/-- The whole line is the twenty stages in turn. -/
theorem after_ops (V : Vals) : StableHlo.after ops V = st20 (st19 (st18 (st17 (st16 (st15 (st14 (st13 (st12 (st11 (st10 (st09 (st08 (st07 (st06 (st05 (st04 (st03 (st02 (st01 (V)))))))))))))))))))) := by
  simp only [ops, after_app]
  rfl

set_option maxRecDepth 8192 in
set_option maxHeartbeats 2000000 in
/-- After the run the result buffer holds `refOut` of the twelve argument buffers' contents before it. -/
theorem out_eq (V : Vals) :
    StableHlo.after ops V (main_v134 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_ops]
  simp (disch := decide) only [st01_row, st01_col, st02_val, st03_val, st04_val, st05_val, st06_val, st07_val, st08_val, st09_val, st10_val, st11_val, st12_val, st13_val, st14_val, st15_val, st16_val, st17_val, st18_val, st19_val, st20_val,
    st01_of, st02_of, st03_of, st04_of, st05_of, st06_of, st07_of, st08_of, st09_of, st10_of, st11_of, st12_of, st13_of, st14_of, st15_of, st16_of, st17_of, st18_of, st19_of, st20_of]
  unfold refOut layerV preV coefV
  rfl

set_option maxHeartbeats 2000000 in
/-- Argument 0 is never written: it holds after the run what it held before. -/
theorem arg_eq0 (V : Vals) : StableHlo.after ops V (main_arg0 : DevRef τ sig) = V (main_arg0 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

set_option maxHeartbeats 2000000 in
/-- Argument 1 is never written: it holds after the run what it held before. -/
theorem arg_eq1 (V : Vals) : StableHlo.after ops V (main_arg1 : DevRef τ sig) = V (main_arg1 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

set_option maxHeartbeats 2000000 in
/-- Argument 2 is never written: it holds after the run what it held before. -/
theorem arg_eq2 (V : Vals) : StableHlo.after ops V (main_arg2 : DevRef τ sig) = V (main_arg2 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

set_option maxHeartbeats 2000000 in
/-- Argument 3 is never written: it holds after the run what it held before. -/
theorem arg_eq3 (V : Vals) : StableHlo.after ops V (main_arg3 : DevRef τ sig) = V (main_arg3 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

set_option maxHeartbeats 2000000 in
/-- Argument 4 is never written: it holds after the run what it held before. -/
theorem arg_eq4 (V : Vals) : StableHlo.after ops V (main_arg4 : DevRef τ sig) = V (main_arg4 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

set_option maxHeartbeats 2000000 in
/-- Argument 5 is never written: it holds after the run what it held before. -/
theorem arg_eq5 (V : Vals) : StableHlo.after ops V (main_arg5 : DevRef τ sig) = V (main_arg5 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

set_option maxHeartbeats 2000000 in
/-- Argument 6 is never written: it holds after the run what it held before. -/
theorem arg_eq6 (V : Vals) : StableHlo.after ops V (main_arg6 : DevRef τ sig) = V (main_arg6 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

set_option maxHeartbeats 2000000 in
/-- Argument 7 is never written: it holds after the run what it held before. -/
theorem arg_eq7 (V : Vals) : StableHlo.after ops V (main_arg7 : DevRef τ sig) = V (main_arg7 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

set_option maxHeartbeats 2000000 in
/-- Argument 8 is never written: it holds after the run what it held before. -/
theorem arg_eq8 (V : Vals) : StableHlo.after ops V (main_arg8 : DevRef τ sig) = V (main_arg8 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

set_option maxHeartbeats 2000000 in
/-- Argument 9 is never written: it holds after the run what it held before. -/
theorem arg_eq9 (V : Vals) : StableHlo.after ops V (main_arg9 : DevRef τ sig) = V (main_arg9 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

set_option maxHeartbeats 2000000 in
/-- Argument 10 is never written: it holds after the run what it held before. -/
theorem arg_eq10 (V : Vals) : StableHlo.after ops V (main_arg10 : DevRef τ sig) = V (main_arg10 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

set_option maxHeartbeats 2000000 in
/-- Argument 11 is never written: it holds after the run what it held before. -/
theorem arg_eq11 (V : Vals) : StableHlo.after ops V (main_arg11 : DevRef τ sig) = V (main_arg11 : DevRef τ sig) := by
  rw [after_ops]
  simp (disch := decide) only [st01_of, st02_of, st03_of, st04_of, st05_of, st06_of, st07_of, st08_of, st09_of, st10_of, st11_of, st12_of, st13_of, st14_of, st15_of, st16_of, st17_of, st18_of, st19_of, st20_of]

end Cert.ReferenceIdeal.RefRun

end
-- ==== Proof.LibRealArith.lean ====
/-
  Arithmetic over the extended reals on operands that are real numbers.

  A float is read as an extended real; sums, products, maxima, quotients by a nonzero real and
  reciprocal square roots of positive reals of REAL operands are real again, and on real operands
  the two ways of computing a variance agree exactly:

      max( (1/n) Σ z² − ((1/n) Σ z)² , 0 )  =  (1/n) Σ (z − (1/n) Σ z)² .
-/
import Idealize.ShloMosaic.PureOps.Ideal

noncomputable section

open scoped BigOperators

namespace Cert.Gcn.Arith

open Idealize.ShloMosaic

/-! ### Real-valued extended reals -/

/-- An extended real that is a real number (neither of the two infinities). -/
def IsReal (x : EReal) : Prop := ∃ r : ℝ, x = (r : EReal)

/-- A coerced real is real. -/
theorem isReal_coe (r : ℝ) : IsReal (r : EReal) := ⟨r, rfl⟩

/-- Zero is real. -/
theorem isReal_zero : IsReal 0 := ⟨0, EReal.coe_zero.symm⟩

/-- One is real. -/
theorem isReal_one : IsReal 1 := ⟨1, EReal.coe_one.symm⟩

/-- A real extended real is not `⊤`. -/
theorem IsReal.ne_top {x : EReal} (hx : IsReal x) : x ≠ ⊤ := by
  obtain ⟨a, rfl⟩ := hx; exact EReal.coe_ne_top a

/-- A real extended real is not `⊥`. -/
theorem IsReal.ne_bot {x : EReal} (hx : IsReal x) : x ≠ ⊥ := by
  obtain ⟨a, rfl⟩ := hx; exact EReal.coe_ne_bot a

/-- The sum of two reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negative of a real is real. -/
theorem IsReal.neg {x : EReal} (hx : IsReal x) : IsReal (-x) := by
  obtain ⟨a, rfl⟩ := hx
  exact ⟨-a, (EReal.coe_neg a).symm⟩

/-- The coercion of reals into the extended reals commutes with `max`. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The larger of two reals is real. -/
theorem isReal_max {x y : EReal} (hx : IsReal x) (hy : IsReal y) : IsReal (max x y) := by
  obtain ⟨a, rfl⟩ := hx; obtain ⟨b, rfl⟩ := hy
  exact ⟨Max.max a b, (coe_max a b).symm⟩

/-- The coercion of reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of products of reals is real: an entry of a product of two real matrices. -/
theorem isReal_sum_mul {ι : Type*} [Fintype ι] (a b : ι → EReal) (ha : ∀ k, IsReal (a k))
    (hb : ∀ k, IsReal (b k)) : IsReal (∑ k, a k * b k) :=
  isReal_sum _ _ fun k _ => (ha k).mul (hb k)

/-! ### Division and the reciprocal square root -/

/-- The quotient of real numbers, with a nonzero divisor, is the real quotient. -/
theorem div_coe_coe (a : ℝ) {c : ℝ} (hc : c ≠ 0) :
    Ideal.div (a : EReal) (c : EReal) = ((a / c : ℝ) : EReal) := by
  rw [Ideal.div_coe hc, ← EReal.coe_mul, mul_one_div]

/-- A real divided by a nonzero real is real. -/
theorem IsReal.div {x y : EReal} (hx : IsReal x) {c : ℝ} (hc : c ≠ 0) (hy : y = (c : EReal)) :
    IsReal (Ideal.div x y) := by
  obtain ⟨a, rfl⟩ := hx
  subst hy
  exact ⟨a / c, div_coe_coe a hc⟩

/-- The reciprocal square root of a positive real `r` is the real `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal square root of a positive real is a positive real. -/
theorem rsqrt_coe_pos' {r : ℝ} (hr : 0 < r) :
    ∃ t : ℝ, 0 < t ∧ Ideal.rsqrt (r : EReal) = (t : EReal) :=
  ⟨(Real.sqrt r)⁻¹, inv_pos.mpr (Real.sqrt_pos.mpr hr), rsqrt_coe_pos hr⟩

/-- The reciprocal square root of a positive real is real. -/
theorem isReal_rsqrt {x : EReal} {r : ℝ} (hx : x = (r : EReal)) (hr : 0 < r) : IsReal (Ideal.rsqrt x) := by
  subst hx
  exact ⟨_, rsqrt_coe_pos hr⟩

/-- The reciprocal square root of `v + e`, for a real `v ≥ 0` and a real `e > 0`, is real. -/
theorem isReal_rsqrt_add {v e : ℝ} (hv : 0 ≤ v) (he : 0 < e) :
    IsReal (Ideal.rsqrt ((v : EReal) + (e : EReal))) := by
  rw [← EReal.coe_add]
  exact isReal_rsqrt rfl (add_pos_of_nonneg_of_pos hv he)

/-! ### The single-precision words this computation spells -/

/-- The word of `+0.0` denotes `0`. -/
theorem ofBits_zero : Ideal.ofBits .f32 0x00000000#32 = 0 := by
  simp [Ideal.ofBits, Ideal.ieee]

/-- The word `0x3F800000` denotes `1`. -/
theorem ofBits_one : Ideal.ofBits .f32 0x3F800000#32 = 1 := by
  rw [show (1 : EReal) = ((1 : ℝ) : EReal) by norm_cast]
  simp [Ideal.ofBits, Ideal.ieee, -EReal.coe_mul]; norm_num

/-- The word `0x47435000` denotes the real `50000` (`12800000 · 2⁻⁸`). -/
theorem ofBits_50000 : Ideal.ofBits .f32 0x47435000#32 = ((50000 : ℝ) : EReal) := by
  simp [Ideal.ofBits, Ideal.ieee, -EReal.coe_mul]; norm_num

/-- The word `0x47435000` denotes the natural number `50000`, as a real. -/
theorem ofBits_50000_nat : Ideal.ofBits .f32 0x47435000#32 = (((50000 : ℕ) : ℝ) : EReal) := by
  rw [ofBits_50000]; norm_num

/-- The word `0x3727C5AC` (the single-precision number nearest `10⁻⁵`) denotes the real `10995116 · 2⁻⁴⁰`. -/
theorem ofBits_eps : Ideal.ofBits .f32 0x3727C5AC#32 = ((10995116 * (2 : ℝ) ^ (-40 : Int) : ℝ) : EReal) := by
  simp [Ideal.ofBits, Ideal.ieee, -EReal.coe_mul]

/-- The word `0x3727C5AC` denotes a positive real. -/
theorem ofBits_eps_pos : ∃ e : ℝ, 0 < e ∧ Ideal.ofBits .f32 0x3727C5AC#32 = (e : EReal) :=
  ⟨10995116 * (2 : ℝ) ^ (-40 : Int), by positivity, ofBits_eps⟩

/-- The word of `+0.0` is real. -/
theorem isReal_ofBits_zero : IsReal (Ideal.ofBits .f32 0x00000000#32) := ofBits_zero ▸ isReal_zero

/-- The word of `1.0` is real. -/
theorem isReal_ofBits_one : IsReal (Ideal.ofBits .f32 0x3F800000#32) := ofBits_one ▸ isReal_one

/-- The word of `50000.0` is real. -/
theorem isReal_ofBits_50000 : IsReal (Ideal.ofBits .f32 0x47435000#32) := ⟨50000, ofBits_50000⟩

/-- The word `0x3727C5AC` is real. -/
theorem isReal_ofBits_eps : IsReal (Ideal.ofBits .f32 0x3727C5AC#32) := ⟨_, ofBits_eps⟩

/-- The integer word `0`, converted to a float, is `0`. -/
theorem sitofp_zero : FloatOps.sitofp (F := Ideal) .f32 (0#32 : BitVec 32) = 0 := by
  show ((((0#32 : BitVec 32).toInt : ℤ) : ℝ) : EReal) = 0
  simp

/-- `50000 − float(0) = 50000`, on the words. -/
theorem sub_zero_word :
    (Ideal.ofBits .f32 0x47435000#32 : EReal) - FloatOps.sitofp (F := Ideal) .f32 (0#32 : BitVec 32)
      = Ideal.ofBits .f32 0x47435000#32 := by
  rw [sitofp_zero, sub_zero]

/-- A positive extended real compares greater than the word of `+0.0`. -/
theorem cmpf_ogt_pos {x : EReal} (hx : 0 < x) :
    FloatOps.cmpf (F := Ideal) (φ := .f32) .ogt x (Ideal.ofBits .f32 0x00000000#32) = 1#1 := by
  show BitVec.ofBool (decide ((Ideal.ofBits .f32 0x00000000#32 : EReal) < x)) = 1#1
  rw [ofBits_zero, decide_eq_true hx]; rfl

/-- `50000 > 0`, on the words. -/
theorem cmpf_ogt_50000 :
    FloatOps.cmpf (F := Ideal) (φ := .f32) .ogt (Ideal.ofBits .f32 0x47435000#32)
        (Ideal.ofBits .f32 0x00000000#32) = 1#1 := by
  apply cmpf_ogt_pos
  rw [ofBits_50000]
  exact_mod_cast (by norm_num : (0 : ℝ) < 50000)

/-- `50000 − float(0) > 0`, on the words. -/
theorem cmpf_ogt_count :
    FloatOps.cmpf (F := Ideal) (φ := .f32) .ogt
        ((Ideal.ofBits .f32 0x47435000#32 : EReal) - FloatOps.sitofp (F := Ideal) .f32 (0#32 : BitVec 32))
        (Ideal.ofBits .f32 0x00000000#32) = 1#1 := by
  rw [sub_zero_word]
  exact cmpf_ogt_50000

/-- The reciprocal square root of `x + ε`, for a real `x ≥ 0` and `ε` the word `0x3727C5AC`, is real. -/
theorem isReal_rsqrt_add_eps {x : EReal} {v : ℝ} (hx : x = (v : EReal)) (hv : 0 ≤ v) :
    IsReal (Ideal.rsqrt (x + Ideal.ofBits .f32 0x3727C5AC#32)) := by
  obtain ⟨e, he, h⟩ := ofBits_eps_pos
  rw [hx, h]
  exact isReal_rsqrt_add hv he

/-- Clamping a real below at the word of `+0.0` leaves a real. -/
theorem isReal_max_zeroWord {x : EReal} (hx : IsReal x) : IsReal (max x (Ideal.ofBits .f32 0x00000000#32)) :=
  isReal_max hx isReal_ofBits_zero

/-! ### The variance law -/

/-- The real identity behind the variance law: the mean of the squares minus the square of the mean
    is the mean of the squared deviations from the mean. -/
theorem var_core (n : ℕ) (hn : 0 < n) (r : Fin n → ℝ) :
    (∑ p, r p * r p) / (n : ℝ) - (∑ p, r p) / (n : ℝ) * ((∑ p, r p) / (n : ℝ))
      = (∑ p, (r p - (∑ q, r q) / (n : ℝ)) * (r p - (∑ q, r q) / (n : ℝ))) / (n : ℝ) := by
  have hn' : (n : ℝ) ≠ 0 := Nat.cast_ne_zero.mpr hn.ne'
  generalize hS : (∑ p, r p) = S
  have h1 : ∀ m : ℝ, ∑ p, (r p - m) * (r p - m) = ∑ p, r p * r p - 2 * m * S + (n : ℝ) * (m * m) := by
    intro m
    have h2 : ∀ p, (r p - m) * (r p - m) = r p * r p - 2 * m * r p + m * m := fun p => by ring
    simp_rw [h2]
    rw [Finset.sum_add_distrib, Finset.sum_sub_distrib, ← Finset.mul_sum, hS, Finset.sum_const,
      Finset.card_univ, Fintype.card_fin, nsmul_eq_mul]
  rw [h1]
  field_simp
  ring

/-- The mean of squared deviations is nonnegative. -/
theorem var_rhs_nonneg (n : ℕ) (r : Fin n → ℝ) (m : ℝ) :
    0 ≤ (∑ p, (r p - m) * (r p - m)) / (n : ℝ) :=
  div_nonneg (Finset.sum_nonneg fun p _ => mul_self_nonneg _) (Nat.cast_nonneg n)

/-- **The variance law.** For `n > 0` real numbers `z`, with `N` the real `n`:
    `max( (Σ z²)/N − ((Σ z)/N)² , 0 ) = (Σ (z − (Σ z)/N)²)/N`. -/
theorem var_eq {n : ℕ} (hn : 0 < n) {N : EReal} (hN : N = ((n : ℝ) : EReal)) (z : Fin n → EReal)
    (hz : ∀ p, IsReal (z p)) :
    max (Ideal.div (∑ p, z p * z p) N - Ideal.div (∑ p, z p) N * Ideal.div (∑ p, z p) N) 0
      = Ideal.div (∑ p, (z p - Ideal.div (∑ q, z q) N) * (z p - Ideal.div (∑ q, z q) N)) N := by
  choose r hr using hz
  subst hN
  have hn' : (n : ℝ) ≠ 0 := Nat.cast_ne_zero.mpr hn.ne'
  simp only [hr, ← EReal.coe_mul, ← coe_sum, div_coe_coe _ hn', ← EReal.coe_sub]
  rw [var_core n hn r]
  exact max_eq_left (EReal.coe_nonneg.mpr (var_rhs_nonneg n r _))

/-- The variance is a nonnegative real: for `n > 0` real numbers `z`, with `N` the real `n`,
    `(Σ (z − (Σ z)/N)²)/N` is a real `v ≥ 0`. -/
theorem var_nonneg_real {n : ℕ} (hn : 0 < n) {N : EReal} (hN : N = ((n : ℝ) : EReal)) (z : Fin n → EReal)
    (hz : ∀ p, IsReal (z p)) :
    ∃ v : ℝ, 0 ≤ v ∧
      Ideal.div (∑ p, (z p - Ideal.div (∑ q, z q) N) * (z p - Ideal.div (∑ q, z q) N)) N = (v : EReal) := by
  choose r hr using hz
  subst hN
  have hn' : (n : ℝ) ≠ 0 := Nat.cast_ne_zero.mpr hn.ne'
  simp only [hr, ← EReal.coe_mul, ← coe_sum, div_coe_coe _ hn', ← EReal.coe_sub]
  exact ⟨_, var_rhs_nonneg n r _, rfl⟩

/-- The variance law with the outer divisor of the right side named separately (`N' = N`). -/
theorem var_eq' {n : ℕ} (hn : 0 < n) {N N' : EReal} (hN : N = ((n : ℝ) : EReal)) (hN' : N' = N)
    (z : Fin n → EReal) (hz : ∀ p, IsReal (z p)) :
    max (Ideal.div (∑ p, z p * z p) N - Ideal.div (∑ p, z p) N * Ideal.div (∑ p, z p) N) 0
      = Ideal.div (∑ p, (z p - Ideal.div (∑ q, z q) N) * (z p - Ideal.div (∑ q, z q) N)) N' := by
  rw [hN']
  exact var_eq hn hN z hz

/-- The mean of `n > 0` reals is real. -/
theorem isReal_mean {n : ℕ} (hn : 0 < n) {N : EReal} (hN : N = ((n : ℝ) : EReal)) (z : Fin n → EReal)
    (hz : ∀ p, IsReal (z p)) : IsReal (Ideal.div (∑ p, z p) N) :=
  (isReal_sum _ _ fun p _ => hz p).div (Nat.cast_ne_zero.mpr hn.ne') hN

/-- The variance law at `n = 50000` on the words: the divisor is the word of `50000.0`, the clamp is at the
    word of `+0.0`, and the outer divisor on the right is `50000 − float(0)`. -/
theorem var_eq_words (z : Fin 50000 → EReal) (hz : ∀ p, IsReal (z p)) :
    max (Ideal.div (∑ p, z p * z p) (Ideal.ofBits .f32 0x47435000#32)
          - Ideal.div (∑ p, z p) (Ideal.ofBits .f32 0x47435000#32)
            * Ideal.div (∑ p, z p) (Ideal.ofBits .f32 0x47435000#32))
        (Ideal.ofBits .f32 0x00000000#32)
      = Ideal.div (∑ p, (z p - Ideal.div (∑ q, z q) (Ideal.ofBits .f32 0x47435000#32))
                        * (z p - Ideal.div (∑ q, z q) (Ideal.ofBits .f32 0x47435000#32)))
          ((Ideal.ofBits .f32 0x47435000#32 : EReal) - FloatOps.sitofp (F := Ideal) .f32 (0#32 : BitVec 32)) := by
  rw [ofBits_zero]
  exact var_eq' (by norm_num) ofBits_50000_nat sub_zero_word z hz

/-- The variance at `n = 50000` on the words is a nonnegative real. -/
theorem var_nonneg_real_words (z : Fin 50000 → EReal) (hz : ∀ p, IsReal (z p)) :
    ∃ v : ℝ, 0 ≤ v ∧
      Ideal.div (∑ p, (z p - Ideal.div (∑ q, z q) (Ideal.ofBits .f32 0x47435000#32))
                        * (z p - Ideal.div (∑ q, z q) (Ideal.ofBits .f32 0x47435000#32)))
          (Ideal.ofBits .f32 0x47435000#32) = (v : EReal) :=
  var_nonneg_real (by norm_num) ofBits_50000_nat z hz

end Cert.Gcn.Arith

end
-- ==== Proof.BridgeOps.lean ====
/-
  The host operations of the reference read as the mathematics' functions, at the extended reals:
  the host's matrix product is `mm`; its column sum is a sum over the rows; gathering rows and accumulating
  weighted rows at target nodes keep every entry a real number when their operands are.
-/
import proofs.«150636_j78039555768704_1_alg».proof.Proof.GraphChain
import proofs.«150636_j78039555768704_1_alg».proof.Proof.Spec
import proofs.«150636_j78039555768704_1_alg».proof.Proof.LibRealArith
import Idealize.ShloMosaic.PureOps.Ideal.Laws
import Idealize.ShloMosaic.Lib.ValueIdx

noncomputable section

open scoped BigOperators

namespace Cert.ReferenceIdeal.BridgeOps

open Cert.ReferenceIdeal Cert.ReferenceIdeal.Graph Idealize.ShloMosaic Idealize.ShloMosaic.ValueIdx
open Cert.ReferenceIdeal.Facts₀ Cert.ReferenceIdeal.Facts
open Cert.Gcn Cert.Gcn.Arith

/-- Every entry is a real number. -/
def AllReal {ι : Type} (v : ι → EReal) : Prop := ∀ i, IsReal (v i)

/-! ## The host's matrix products -/

/-- The host's product of a 50000×128 by a 128×128 matrix is the matrix product, entry by entry. -/
theorem dot128 (x : FVec Ideal S50000x128 .f32) (w : FVec Ideal S128x128 .f32) :
    Host.dotGeneral (F := Ideal) dot_S50000x128_S128x128_S50000x128_1_0_0_1_n_n none x w = Cert.Gcn.mm x w := by
  funext j
  simp only [Host.dotGeneral]
  rw [Ideal.dotGeneral_apply]
  unfold Cert.Gcn.mm
  rw [← Equiv.sum_comp (contrEquiv1 dot_S50000x128_S128x128_S50000x128_1_0_0_1_n_n 128 rfl rfl).symm]
  refine Finset.sum_congr rfl fun q _ => ?_
  congr 1
  · refine congrArg x ?_
    funext a
    match a with
    | ⟨0, _⟩ => rfl
    | ⟨1, _⟩ =>
      apply Fin.ext
      exact (DotDims.lhsIdx_val_of_single _ rfl j _).trans (contrEquiv1_symm_val _ 128 rfl rfl q)
  · refine congrArg w ?_
    funext a
    match a with
    | ⟨0, _⟩ =>
      apply Fin.ext
      exact (DotDims.rhsIdx_val_of_single _ rfl j _).trans (contrEquiv1_symm_val _ 128 rfl rfl q)
    | ⟨1, _⟩ => rfl

/-- The host's product of a 50000×128 by a 128×64 matrix is the matrix product, entry by entry. -/
theorem dot64 (x : FVec Ideal S50000x128 .f32) (w : FVec Ideal S128x64 .f32) :
    Host.dotGeneral (F := Ideal) dot_S50000x128_S128x64_S50000x64_1_0_0_1_n_n none x w = Cert.Gcn.mm x w := by
  funext j
  simp only [Host.dotGeneral]
  rw [Ideal.dotGeneral_apply]
  unfold Cert.Gcn.mm
  rw [← Equiv.sum_comp (contrEquiv1 dot_S50000x128_S128x64_S50000x64_1_0_0_1_n_n 128 rfl rfl).symm]
  refine Finset.sum_congr rfl fun q _ => ?_
  congr 1
  · refine congrArg x ?_
    funext a
    match a with
    | ⟨0, _⟩ => rfl
    | ⟨1, _⟩ =>
      apply Fin.ext
      exact (DotDims.lhsIdx_val_of_single _ rfl j _).trans (contrEquiv1_symm_val _ 128 rfl rfl q)
  · refine congrArg w ?_
    funext a
    match a with
    | ⟨0, _⟩ =>
      apply Fin.ext
      exact (DotDims.rhsIdx_val_of_single _ rfl j _).trans (contrEquiv1_symm_val _ 128 rfl rfl q)
    | ⟨1, _⟩ => rfl

/-! ## The host's column sum -/

/-- The host's sum over the rows, started from the zero word, is the plain sum over the 50000 rows. -/
theorem colsum_apply (z : FVec Ideal S50000x128 .f32) (j : S128.Idx) :
    Host.reduceAdd (F := Ideal) z (constant (F := Ideal) S_ .f32 0x00000000#32) reducesTo_S50000x128_S128_d0 h_S_ j
      = ∑ p : Fin 50000, z (ix2 p (⟨(j 0).val, (j 0).isLt⟩ : Fin 128)) := by
  have hred : S50000x128.Reduces [0] S128 := by decide
  show Ideal.hostReduceAdd reducesTo_S50000x128_S128_d0 z (Ideal.ofBits .f32 0x00000000#32) j = _
  rw [Ideal.hostReduceAdd_single reducesTo_S50000x128_S128_d0 hred, ofBits_zero, zero_add]
  refine Finset.sum_congr rfl fun p _ => congrArg z ?_
  funext a
  match a with
  | ⟨0, _⟩ => rfl
  | ⟨1, _⟩ => rfl

/-! ## Real entries are kept -/

theorem real_const (S : Shape) (w : BitVec 32) (hw : IsReal (Ideal.ofBits .f32 w)) :
    AllReal (constant (F := Ideal) S .f32 w) := fun _ => hw

theorem real_bcast {s t : Shape} (dims : Fin s.rank → Fin t.rank) (h : s.BroadcastsInDim t dims) (x : s.Idx → EReal)
    (hx : AllReal x) : AllReal (broadcastInDim t dims h x) := fun _ => hx _

theorem real_gather {s si t : Shape} {w : Nat} (d : GatherDims s si t) (x : s.Idx → EReal) (idx : IVec si w)
    (hx : AllReal x) : AllReal (Host.gather d x idx) := fun _ => hx _

theorem real_mulf {s : Shape} (a b : FVec Ideal s .f32) (ha : AllReal a) (hb : AllReal b) : AllReal (mulf a b) :=
  fun i => (ha i).mul (hb i)

theorem real_addf {s : Shape} (a b : FVec Ideal s .f32) (ha : AllReal a) (hb : AllReal b) : AllReal (addf a b) :=
  fun i => (ha i).add (hb i)

/-- Accumulating real updates onto real entries gives real entries: each entry is its start plus a finite sum. -/
theorem real_scatterAdd {s si su : Shape} {w : Nat} (d : ScatterDims s si su) (x : FVec Ideal s .f32) (idx : IVec si w)
    (upd : FVec Ideal su .f32) (hx : AllReal x) (hu : AllReal upd) : AllReal (Host.scatterAdd (F := Ideal) d x idx upd) := by
  intro i
  show IsReal (Ideal.hostScatterAdd d x idx upd i)
  unfold Ideal.hostScatterAdd
  exact (hx i).add (isReal_sum _ _ fun j _ => hu j)

/-- Every degree is a real number. -/
theorem real_deg (col : IVec S650000 32) : AllReal (degV (F := Ideal) col) :=
  real_scatterAdd _ _ _ _ (real_bcast _ _ _ (real_const _ _ isReal_ofBits_zero)) (real_bcast _ _ _ (real_const _ _ isReal_ofBits_one))

theorem real_select {s : Shape} (c : IVec s 1) (a b : s.Idx → EReal) (ha : AllReal a) (hb : AllReal b) :
    AllReal (select c a b) := by
  intro i
  show IsReal (Scalar.select (c i) (a i) (b i))
  unfold Scalar.select
  split
  · exact ha i
  · exact hb i

/-- The inverse square root of max(a, 1) is real wherever a is: the argument is a real number ≥ 1. -/
theorem real_rsqrt_max_one {s : Shape} (a one : FVec Ideal s .f32) (ha : AllReal a) (h1 : ∀ i, one i = 1) :
    AllReal (Host.rsqrt (maximumf a one)) := by
  intro i
  show IsReal (Ideal.rsqrt (max (a i) (one i)))
  obtain ⟨d, hd⟩ := ha i
  rw [hd, h1 i, ← EReal.coe_one, ← coe_max]
  exact isReal_rsqrt rfl (lt_of_lt_of_le one_pos (le_max_right _ _))

/-- deg⁻¹ᐟ² is a real number at every node: it is either zero or the inverse root of a real ≥ 1. -/
theorem real_dinv (col : IVec S650000 32) : AllReal (dinvV (F := Ideal) col) :=
  real_select _ _ _
    (real_rsqrt_max_one _ _ (real_deg col) (fun _ => ofBits_one))
    (real_bcast _ _ _ (real_const _ _ isReal_ofBits_zero))

/-- Every edge weight is a real number. -/
theorem real_coef (row col : IVec S650000 32) : AllReal (coefV (F := Ideal) row col) :=
  real_mulf _ _ (real_gather _ _ _ (real_dinv col)) (real_gather _ _ _ (real_dinv col))

/-- The neighbourhood sum of a real matrix with real weights is a real matrix. -/
theorem real_agg (h : FVec Ideal S50000x128 .f32) (coef : FVec Ideal S650000 .f32) (row col : IVec S650000 32)
    (hh : AllReal h) (hc : AllReal coef) : AllReal (aggV (F := Ideal) h coef row col) :=
  real_scatterAdd _ _ _ _ (real_bcast _ _ _ (real_const _ _ isReal_ofBits_zero))
    (real_mulf _ _ (real_bcast _ _ _ (real_bcast _ _ _ hc)) (real_gather _ _ _ hh))

/-- A product of real matrices is real. -/
theorem real_mm {r k c : Nat} (x : Mat r k) (w : Mat k c) (hx : AllReal x) (hw : AllReal w) : AllReal (mm x w) :=
  fun _ => isReal_sum_mul _ _ (fun _ => hx _) (fun _ => hw _)

theorem real_addRow {r c : Nat} (x : Mat r c) (b : Mat 1 c) (hx : AllReal x) (hb : AllReal b) : AllReal (addRow x b) :=
  fun i => (hx i).add (hb _)

/-- The normalised, clamped matrix is real when its inputs are and the variances are non-negative reals. -/
theorem real_bnRelu {r c : Nat} (x : Mat r c) (b mu var g be : Mat 1 c) (hx : AllReal x) (hb : AllReal b)
    (hmu : AllReal mu) (hvar : ∀ j, ∃ v : ℝ, 0 ≤ v ∧ var j = (v : EReal)) (hg : AllReal g) (hbe : AllReal be) :
    AllReal (bnRelu x b mu var g be) := by
  intro i
  unfold bnRelu zeroW eps
  obtain ⟨v, hv0, hv⟩ := hvar (ix2 (0 : Fin 1) (colOf i))
  exact isReal_max_zeroWord
    (((((hx i).add (hb _)).sub (hmu _)).mul (isReal_rsqrt_add_eps hv hv0)).mul (hg _) |>.add (hbe _))

end Cert.ReferenceIdeal.BridgeOps

end
-- ==== Proof.Bridge.lean ====
/-
  One layer of the reference equals one layer of the kernel's value, entry by entry.

  Both normalise z = A + b (A the neighbourhood sum, b the bias row) by its column statistics. They agree on
  the mean Σz/n. The reference's variance is Σ(z − mean)²/n; the kernel's is max(Σz²/n − mean², 0) from the two
  column sums its statistics regions accumulate. For REAL entries these are the same number
  (Σz²/n − mean² = Σ(z − mean)²/n ≥ 0), which is the one law the certificate needs; everything else is the same
  arithmetic in the same order, read through the two programs' different layouts of a row vector
  (a one-row matrix on the kernel's side, a vector spread over the rows on the reference's).
-/
import proofs.«150636_j78039555768704_1_alg».proof.Proof.BridgeOps
import proofs.«150636_j78039555768704_1_alg».proof.Proof.RefStages
import proofs.«150636_j78039555768704_1_alg».proof.Proof.KStages
import Idealize.ShloMosaic.Lib.Pipeline.Value

noncomputable section

open scoped BigOperators

namespace Cert.Bridge

open Cert.ReferenceIdeal Cert.ReferenceIdeal.Graph Cert.ReferenceIdeal.RefRun Cert.ReferenceIdeal.BridgeOps
open Idealize.ShloMosaic Idealize.ShloMosaic.ValueIdx
open Cert.ReferenceIdeal.Facts₀ Cert.ReferenceIdeal.Facts
open Cert.Gcn Cert.Gcn.Arith
open Cert.KernelIdeal.Val (rowvec128 rowvec64 nrow zrow meanK varK)

/-! ## Row vectors in the two layouts -/

/-- A vector spread over the 50000 rows, read at an entry: the vector at the entry's column. -/
theorem spread_apply (v : FVec Ideal S128 .f32) (i : S50000x128.Idx) :
    broadcastInDim S50000x128 ![0, 1] bcast_S1x128_S50000x128_0_1 (broadcastInDim S1x128 ![1] bcast_S128_S1x128_1 v) i
      = v (ix1 (colOf i)) := by
  rw [broadcastInDim_apply _ _ _ i (ix2 (0 : Fin 1) (colOf i)) (fun a => by match a with | ⟨0, _⟩ => rfl | ⟨1, _⟩ => rfl)]
  rw [broadcastInDim_apply _ _ _ (ix2 (0 : Fin 1) (colOf i)) (ix1 (colOf i)) (fun a => by match a with | ⟨0, _⟩ => rfl)]

/-- The same for the 64-column bias of the output layer. -/
theorem spread64_apply (v : FVec Ideal S64 .f32) (i : S50000x64.Idx) :
    broadcastInDim S50000x64 ![0, 1] bcast_S1x64_S50000x64_0_1 (broadcastInDim S1x64 ![1] bcast_S64_S1x64_1 v) i
      = v (ix1 (colOf i)) := by
  rw [broadcastInDim_apply _ _ _ i (ix2 (0 : Fin 1) (colOf i)) (fun a => by match a with | ⟨0, _⟩ => rfl | ⟨1, _⟩ => rfl)]
  rw [broadcastInDim_apply _ _ _ (ix2 (0 : Fin 1) (colOf i)) (ix1 (colOf i)) (fun a => by match a with | ⟨0, _⟩ => rfl)]

/-- A vector laid out as a one-row matrix, read at a column: the vector there. -/
theorem rowvec128_apply (b : FVec Ideal S128 .f32) (q : Fin 128) : rowvec128 b (ix2 (0 : Fin 1) q) = b (ix1 q) := by
  unfold rowvec128
  rw [shapeCast_addUnit_apply]
  exact congrArg b (funext fun a => by match a with | ⟨0, _⟩ => rfl)

theorem rowvec64_apply (b : FVec Ideal S64 .f32) (q : Fin 64) : rowvec64 b (ix2 (0 : Fin 1) q) = b (ix1 q) := by
  unfold rowvec64
  rw [shapeCast_addUnit_apply]
  exact congrArg b (funext fun a => by match a with | ⟨0, _⟩ => rfl)

/-! ## The statistics, column by column -/

/-- The node count as a real: the single-precision word of 50000. -/
abbrev nW : EReal := Ideal.ofBits .f32 0x47435000#32

/-- The biased matrix on the reference's side, at an entry. -/
theorem addBiasV_apply (a : FVec Ideal S50000x128 .f32) (b : FVec Ideal S128 .f32) (i : S50000x128.Idx) :
    addBiasV a b i = a i + b (ix1 (colOf i)) := by
  unfold addBiasV
  show a i + _ = _
  rw [spread_apply]

/-- The biased matrix on the kernel's side is the same matrix. -/
theorem addRow_eq_addBiasV (a : FVec Ideal S50000x128 .f32) (b : FVec Ideal S128 .f32) :
    addRow a (rowvec128 b) = addBiasV a b := by
  funext i
  rw [addBiasV_apply]
  unfold addRow
  rw [rowvec128_apply]

/-- The reference's column mean at column q: the column's sum over n. -/
theorem meanV_apply (z : FVec Ideal S50000x128 .f32) (q : Fin 128) :
    meanV z (ix1 q) = Ideal.div (∑ p : Fin 50000, z (ix2 p q)) nW := by
  unfold meanV
  show Ideal.div (Host.reduceAdd (F := Ideal) z (constant (F := Ideal) S_ .f32 0x00000000#32) reducesTo_S50000x128_S128_d0 h_S_ (ix1 q)) nW = _
  rw [colsum_apply]

/-- The reference's deviation at an entry: the entry minus its column's mean. -/
theorem devV_apply (z : FVec Ideal S50000x128 .f32) (p : Fin 50000) (q : Fin 128) :
    devV z (ix2 p q) = z (ix2 p q) - Ideal.div (∑ p' : Fin 50000, z (ix2 p' q)) nW := by
  unfold devV
  show z (ix2 p q) - _ = _
  rw [broadcastInDim_apply _ _ _ (ix2 p q) (ix2 (0 : Fin 1) q) (fun a => by match a with | ⟨0, _⟩ => rfl | ⟨1, _⟩ => rfl)]
  show z (ix2 p q) - Ideal.div (broadcastInDim S1x128 ![1] bcast_S128_S1x128_1
      (Host.reduceAdd (F := Ideal) z (constant (F := Ideal) S_ .f32 0x00000000#32) reducesTo_S50000x128_S128_d0 h_S_) (ix2 (0 : Fin 1) q)) nW = _
  rw [broadcastInDim_apply _ _ _ (ix2 (0 : Fin 1) q) (ix1 q) (fun a => by match a with | ⟨0, _⟩ => rfl), colsum_apply]

/-- The reference's column variance at column q: the column's sum of squared deviations over n − 0. -/
theorem varV_apply (z : FVec Ideal S50000x128 .f32) (q : Fin 128) :
    varV z (ix1 q)
      = Ideal.div (∑ p : Fin 50000, (z (ix2 p q) - Ideal.div (∑ p' : Fin 50000, z (ix2 p' q)) nW)
                                    * (z (ix2 p q) - Ideal.div (∑ p' : Fin 50000, z (ix2 p' q)) nW))
          (nW - FloatOps.sitofp (F := Ideal) .f32 (0#32 : BitVec 32)) := by
  unfold varV
  show Scalar.select (FloatOps.cmpf (F := Ideal) (φ := .f32) .ogt (nW - FloatOps.sitofp (F := Ideal) .f32 (0#32 : BitVec 32)) (Ideal.ofBits .f32 0x00000000#32))
      (Ideal.div (Host.reduceAdd (F := Ideal) (mulf (devV z) (devV z)) (constant (F := Ideal) S_ .f32 0x00000000#32) reducesTo_S50000x128_S128_d0 h_S_ (ix1 q))
        (nW - FloatOps.sitofp (F := Ideal) .f32 (0#32 : BitVec 32))) _ = _
  rw [cmpf_ogt_count]
  show Ideal.div _ _ = _
  rw [colsum_apply]
  refine congrArg (fun s => Ideal.div s (nW - FloatOps.sitofp (F := Ideal) .f32 (0#32 : BitVec 32))) ?_
  refine Finset.sum_congr rfl fun p _ => ?_
  show devV z (ix2 p q) * devV z (ix2 p q) = _
  rw [devV_apply]

/-- The kernel's column mean at column q, from the column sum. -/
theorem meanK_apply (s : FVec Ideal Cert.KernelIdeal.S1x128 .f32) (j : Cert.KernelIdeal.S1x128.Idx) :
    meanK s j = Ideal.div (s j) nW := rfl

/-- The kernel's column variance at column q, from the two column sums. -/
theorem varK_apply (s sq : FVec Ideal Cert.KernelIdeal.S1x128 .f32) (j : Cert.KernelIdeal.S1x128.Idx) :
    varK s sq j = max (Ideal.div (sq j) nW - Ideal.div (s j) nW * Ideal.div (s j) nW) (Ideal.ofBits .f32 0x00000000#32) := rfl

/-- THE LAW: for a real matrix, the kernel's variance from its two column sums is the reference's variance. -/
theorem var_agree (z : FVec Ideal S50000x128 .f32) (hz : AllReal z) (q : Fin 128) :
    varK (colSum z) (colSum (sqr z)) (ix2 (0 : Fin 1) q) = varV z (ix1 q) := by
  rw [varK_apply, varV_apply]
  exact var_eq_words (fun p => z (ix2 p q)) (fun p => hz _)

/-- The means agree (no finiteness needed: the same sum over the same divisor). -/
theorem mean_agree (z : FVec Ideal S50000x128 .f32) (q : Fin 128) :
    meanK (colSum z) (ix2 (0 : Fin 1) q) = meanV z (ix1 q) := by
  rw [meanK_apply, meanV_apply]
  rfl

/-- The reference's variance of a real matrix is a non-negative real. -/
theorem varV_nonneg (z : FVec Ideal S50000x128 .f32) (hz : AllReal z) (q : Fin 128) :
    ∃ v : ℝ, 0 ≤ v ∧ varV z (ix1 q) = (v : EReal) := by
  rw [varV_apply, sub_zero_word]
  exact var_nonneg_real_words (fun p => z (ix2 p q)) (fun p => hz _)

/-! ## One layer -/

/-- Normalising with the reference's statistics and clamping, at an entry. -/
theorem relu_norm_apply (z : FVec Ideal S50000x128 .f32) (mean var g be : FVec Ideal S128 .f32) (i : S50000x128.Idx) :
    reluV (normV z mean var g be) i
      = max ((((z i - mean (ix1 (colOf i))) * Ideal.rsqrt (var (ix1 (colOf i)) + Ideal.ofBits .f32 0x3727C5AC#32))
              * g (ix1 (colOf i))) + be (ix1 (colOf i)))
          (Ideal.ofBits .f32 0x00000000#32) := by
  unfold reluV normV
  show max ((((z i - _) * _) * _) + _) (Ideal.ofBits .f32 0x00000000#32) = _
  rw [spread_apply, spread_apply, spread_apply, spread_apply]
  rfl

/-- ONE LAYER: with A real and b real, the reference's normalise-and-clamp of z = A + b by its own statistics is
    the kernel's `bnRelu` of A with the bias row, the statistics its two column sums give, and the scale and shift
    rows. -/
theorem layer_agree (A : FVec Ideal S50000x128 .f32) (b g be : FVec Ideal S128 .f32) (hA : AllReal A) (hb : AllReal b) :
    reluV (normV (addBiasV A b) (meanV (addBiasV A b)) (varV (addBiasV A b)) g be)
      = bnRelu A (rowvec128 b) (meanK (colSum (addRow A (rowvec128 b))))
          (varK (colSum (addRow A (rowvec128 b))) (colSum (sqr (addRow A (rowvec128 b))))) (rowvec128 g) (rowvec128 be) := by
  have hz : AllReal (addBiasV A b) := fun i => by rw [addBiasV_apply]; exact (hA i).add (hb _)
  funext i
  rw [relu_norm_apply, addRow_eq_addBiasV]
  unfold bnRelu zeroW eps
  rw [rowvec128_apply, rowvec128_apply, rowvec128_apply, mean_agree, var_agree _ hz, addBiasV_apply]

/-- The output of a layer with real inputs is real. -/
theorem layer_real (A : FVec Ideal S50000x128 .f32) (b g be : FVec Ideal S128 .f32) (hA : AllReal A) (hb : AllReal b)
    (hg : AllReal g) (hbe : AllReal be) :
    AllReal (reluV (normV (addBiasV A b) (meanV (addBiasV A b)) (varV (addBiasV A b)) g be)) := by
  have hz : AllReal (addBiasV A b) := fun i => by rw [addBiasV_apply]; exact (hA i).add (hb _)
  intro i
  rw [relu_norm_apply]
  obtain ⟨v, hv0, hv⟩ := varV_nonneg _ hz (colOf i)
  have hm : IsReal (meanV (addBiasV A b) (ix1 (colOf i))) := by
    rw [meanV_apply]
    exact (isReal_sum _ _ fun p _ => hz _).div (c := 50000) (by norm_num) ofBits_50000
  exact isReal_max_zeroWord (((((hz i).sub hm).mul (isReal_rsqrt_add_eps hv hv0)).mul (hg _)).add (hbe _))

end Cert.Bridge

end
-- ==== Proof.FinalBridge.lean ====
/-
  The two programs compute one function: with every float argument real, the reference's result term is the
  kernel's value. Layer by layer: the host's matrix product is the matrix product; the neighbourhood sum is the
  same function on both sides; a layer's normalise-and-clamp agrees by the variance law (real entries, which each
  layer keeps); the output layer adds the same bias row.
-/
import proofs.«150636_j78039555768704_1_alg».proof.Proof.Bridge
import proofs.«150636_j78039555768704_1_alg».proof.Proof.KValue

noncomputable section

open scoped BigOperators

namespace Cert.Bridge

open Cert.ReferenceIdeal Cert.ReferenceIdeal.Graph Cert.ReferenceIdeal.RefRun Cert.ReferenceIdeal.BridgeOps
open Idealize.ShloMosaic Idealize.ShloMosaic.ValueIdx
open Cert.ReferenceIdeal.Facts₀ Cert.ReferenceIdeal.Facts
open Cert.Gcn Cert.Gcn.Arith
open Cert.KernelIdeal.Val

/-- The output layer: the host's product plus the spread bias is the product plus the bias row. -/
theorem head_agree (h : FVec Ideal S50000x128 .f32) (w : FVec Ideal S128x64 .f32) (b : FVec Ideal S64 .f32) :
    headV h w b = addRow (mm h w) (rowvec64 b) := by
  funext i
  unfold headV
  show Host.dotGeneral (F := Ideal) dot_S50000x128_S128x64_S50000x64_1_0_0_1_n_n none h w i + _ = _
  rw [dot64, spread64_apply]
  unfold addRow
  rw [rowvec64_apply]

/-- A whole layer: the reference's layer on a real input with real parameters is the kernel's, and is real. -/
theorem whole_layer (x : FVec Ideal S50000x128 .f32) (W : FVec Ideal S128x128 .f32) (b g be : FVec Ideal S128 .f32)
    (row col : IVec S650000 32) (hx : AllReal x) (hW : AllReal W) (hb : AllReal b) (hg : AllReal g) (hbe : AllReal be) :
    layerV x W b g be row col
        = bnRelu (aggV (F := Ideal) (mm x W) (coefV (F := Ideal) row col) row col) (rowvec128 b)
            (meanK (colSum (addRow (aggV (F := Ideal) (mm x W) (coefV (F := Ideal) row col) row col) (rowvec128 b))))
            (varK (colSum (addRow (aggV (F := Ideal) (mm x W) (coefV (F := Ideal) row col) row col) (rowvec128 b)))
                  (colSum (sqr (addRow (aggV (F := Ideal) (mm x W) (coefV (F := Ideal) row col) row col) (rowvec128 b)))))
            (rowvec128 g) (rowvec128 be)
      ∧ AllReal (layerV x W b g be row col) := by
  have hA : AllReal (aggV (F := Ideal) (mm x W) (coefV (F := Ideal) row col) row col) :=
    real_agg _ _ _ _ (real_mm _ _ hx hW) (real_coef row col)
  unfold layerV preV
  rw [dot128]
  exact ⟨layer_agree _ b g be hA hb, layer_real _ b g be hA hb hg hbe⟩

/-- THE BRIDGE: on real arguments the reference's result term is the kernel's value. -/
theorem out_agree (m : (ℓ : Loc Cert.KernelIdeal.nD Cert.KernelIdeal.τ Cert.KernelIdeal.sig) → Buf (Elt Ideal) ℓ)
    (c : Dev Cert.KernelIdeal.nD)
    (h0 : AllReal (a0 m c)) (h2 : AllReal (a2 m c)) (h3 : AllReal (a3 m c)) (h4 : AllReal (a4 m c)) (h5 : AllReal (a5 m c))
    (h6 : AllReal (a6 m c)) (h7 : AllReal (a7 m c)) (h8 : AllReal (a8 m c)) (h9 : AllReal (a9 m c))
    (h10 : AllReal (a10 m c)) (h11 : AllReal (a11 m c)) :
    refOut (a0 m c) (a1 m c) (a2 m c) (a3 m c) (a4 m c) (a5 m c) (a6 m c) (a7 m c) (a8 m c) (a9 m c) (a10 m c) (a11 m c)
      = out m c := by
  obtain ⟨e1, r1⟩ := whole_layer (a0 m c) (a2 m c) (a3 m c) (a4 m c) (a5 m c) (rowV (a1 m c)) (colV (a1 m c)) h0 h2 h3 h4 h5
  have e1' : layerV (a0 m c) (a2 m c) (a3 m c) (a4 m c) (a5 m c) (rowV (a1 m c)) (colV (a1 m c)) = x1 m c := e1
  rw [e1'] at r1
  obtain ⟨e2, -⟩ := whole_layer (x1 m c) (a6 m c) (a7 m c) (a8 m c) (a9 m c) (rowV (a1 m c)) (colV (a1 m c)) r1 h6 h7 h8 h9
  have e2' : layerV (x1 m c) (a6 m c) (a7 m c) (a8 m c) (a9 m c) (rowV (a1 m c)) (colV (a1 m c)) = x2 m c := e2
  unfold refOut
  rw [e1', e2', head_agree]
  rfl

end Cert.Bridge

end
-- ==== Proof.PreReal.lean ====
/-
  From the precondition "every float argument is finite" to "every entry of every float argument is a real number".

  The precondition computes, for each float argument `a`, the conjunction over all entries of `|a i| < +∞`, and
  conjoins the eleven results. If the whole conjunction holds then each entry's `max (a i) (−a i)` lies strictly
  below `⊤`, so `a i` is neither `⊤` nor `⊥`: it is a real.
-/
import proofs.«150636_j78039555768704_1_alg».proof.Proof.Gen.Pre_finite_inputs
import proofs.«150636_j78039555768704_1_alg».proof.Proof.LibRealArith
import Idealize.ShloMosaic.Lib.ReduceAll
import Idealize.ShloMosaic.Lib.ValueIdx
import Idealize.ShloMosaic.Lib.KernelVsHost

noncomputable section

namespace Cert.Gcn.PreReal

open Idealize.ShloMosaic Cert.Gcn.Arith Cert.Pre_finite_inputs

/-- The scalar shape has exactly one index. -/
instance subsingleton_S_ : Subsingleton S_.Idx := ⟨fun a b => funext fun d => d.elim0⟩

/-- An extended real `x` with `|x| < +∞` — the comparison of `max x (−x)` against the word of `+∞` says "less" —
    is a real number. -/
theorem isReal_of_abs_lt_inf (x : Ideal .f32)
    (h : FloatOps.cmpf .olt (FloatOps.hostAbsf x) (FloatOps.ofBits (F := Ideal) .f32 0x7F800000#32) = 1#1) :
    IsReal x := by
  rw [← Ideal.xori_weird_eq_hostAbsf_olt_inf] at h
  change IntOp.xori (BitVec.ofBool (decide ((x : EReal) = ⊤ ∨ (x : EReal) = ⊥))) 1#1 = 1#1 at h
  induction x using EReal.rec with
  | bot => simp [IntOp.xori] at h
  | coe r => exact ⟨r, rfl⟩
  | top => simp [IntOp.xori] at h

/-- One array: if the conjunction over all entries of `|a i| < +∞` holds, every entry of `a` is a real number. -/
theorem isReal_of_all {s : Shape} {axes : List (Fin s.rank)} (a : FVec Ideal s .f32)
    (hb : S_.BroadcastsInDim s (![] : Fin 0 → Fin s.rank)) (hred : s.ReducesTo axes S_) (hS : 0 < S_.numel)
    (h : Host.reduce IntOp.andi
          (cmpf .olt (Host.absf a) (broadcastInDim s ![] hb (constant S_ .f32 0x7F800000#32)))
          (constantI S_ 1 1#1) hred hS ValueIdx.ix0 = 1#1) :
    ∀ i, IsReal (a i) := by
  intro i
  exact isReal_of_abs_lt_inf (a i) (Host.reduce_andi_all _ _ hred hS ValueIdx.ix0 h i)

/-- **Every entry of every float argument is a real number**, given the precondition: the conjunction, over the
    eleven float arguments and all their entries, of `|entry| < +∞`. -/
theorem reals_of_pre (x : FVec Ideal S50000x128 .f32) (e : IVec S2x600000 32) (W1 : FVec Ideal S128x128 .f32)
    (b1 g1 be1 : FVec Ideal S128 .f32) (W2 : FVec Ideal S128x128 .f32) (b2 g2 be2 : FVec Ideal S128 .f32)
    (Wfc : FVec Ideal S128x64 .f32) (bfc : FVec Ideal S64 .f32)
    (h : fn (F := Ideal) x e W1 b1 g1 be1 W2 b2 g2 be2 Wfc bfc = fun _ => 1#1) :
    (∀ i, IsReal (x i)) ∧ (∀ i, IsReal (W1 i)) ∧ (∀ i, IsReal (b1 i)) ∧ (∀ i, IsReal (g1 i)) ∧ (∀ i, IsReal (be1 i))
      ∧ (∀ i, IsReal (W2 i)) ∧ (∀ i, IsReal (b2 i)) ∧ (∀ i, IsReal (g2 i)) ∧ (∀ i, IsReal (be2 i))
      ∧ (∀ i, IsReal (Wfc i)) ∧ (∀ i, IsReal (bfc i)) := by
  have h0 := congrFun h ValueIdx.ix0
  dsimp only [fn, fn_part1, fn_part2, fn_part3] at h0
  simp only [andi, IntOp.andi_eq_one] at h0
  obtain ⟨⟨⟨⟨⟨⟨⟨⟨⟨⟨hx, hW1⟩, hb1⟩, hg1⟩, hbe1⟩, hW2⟩, hb2⟩, hg2⟩, hbe2⟩, hWfc⟩, hbfc⟩ := h0
  exact ⟨isReal_of_all x _ _ _ hx, isReal_of_all W1 _ _ _ hW1, isReal_of_all b1 _ _ _ hb1,
    isReal_of_all g1 _ _ _ hg1, isReal_of_all be1 _ _ _ hbe1, isReal_of_all W2 _ _ _ hW2,
    isReal_of_all b2 _ _ _ hb2, isReal_of_all g2 _ _ _ hg2, isReal_of_all be2 _ _ _ hbe2,
    isReal_of_all Wfc _ _ _ hWfc, isReal_of_all bfc _ _ _ hbfc⟩

end Cert.Gcn.PreReal

end
-- ==== Proof.lean ====
/-
  Two-layer graph convolution with batch normalisation: a seven-region tiled kernel against its plain reference.

  The claim's five parts. The two kernel programs' frames are the generated frame theorems. The reference is a
  straight line of host operations: it runs, and every buffer ends at the operations' fold over the launch memory,
  which keeps the arguments. The idealization changed no operation. For the value claim both results are one
  function of the arguments at the extended reals:
    · each matrix-product region leaves x·W (tile by tile, the tiles covering the rows), the host's product is x·W;
    · the neighbourhood sum (gather, weight, accumulate at the target nodes) is the same host function on both sides;
    · each statistics region accumulates the column sums Σz and Σz² of z = A + b over the ten row tiles;
      the kernel normalises with μ = Σz/n and σ² = max(Σz²/n − μ², 0), the reference with μ and Σ(z − μ)²/n;
      these agree because every entry of z is a real number — the precondition makes the arguments real, and
      products, finite sums, the degree normalisation and each layer keep entries real — and for reals
      Σz²/n − μ² = Σ(z − μ)²/n ≥ 0;
    · the normalise-and-clamp regions and the output layer are the same arithmetic in the same order.
-/
import proofs.«150636_j78039555768704_1_alg».proof.Defs
import proofs.«150636_j78039555768704_1_alg».proof.Proof.Gen.Kernel
import proofs.«150636_j78039555768704_1_alg».proof.Proof.Gen.Kernel.Frame
import proofs.«150636_j78039555768704_1_alg».proof.Proof.Gen.KernelIdeal
import proofs.«150636_j78039555768704_1_alg».proof.Proof.Gen.KernelIdeal.Frame
import proofs.«150636_j78039555768704_1_alg».proof.Proof.Gen.ReferenceIdeal
import proofs.«150636_j78039555768704_1_alg».proof.Proof.Gen.Pre_finite_inputs
import proofs.«150636_j78039555768704_1_alg».proof.Proof.KernelRun
import proofs.«150636_j78039555768704_1_alg».proof.Proof.KernelVal
import proofs.«150636_j78039555768704_1_alg».proof.Proof.LinRegions
import proofs.«150636_j78039555768704_1_alg».proof.Proof.NormRegions
import proofs.«150636_j78039555768704_1_alg».proof.Proof.StatRegions
import proofs.«150636_j78039555768704_1_alg».proof.Proof.RefOps
import proofs.«150636_j78039555768704_1_alg».proof.Proof.RefVal
import proofs.«150636_j78039555768704_1_alg».proof.Proof.FinalBridge
import proofs.«150636_j78039555768704_1_alg».proof.Proof.PreReal
import Idealize.ShloMosaic.Adequacy
import Idealize.ShloMosaic.Init

noncomputable section

namespace Cert.Proof

open Idealize.ShloMosaic Idealize.ShloMosaic.TcCoe Idealize.SL.Sem

/-- What the seven regions leave in their output arrays. -/
theorem regionFinals : Cert.KernelIdeal.Val.RegionFinals where
  final0 := Cert.KernelIdeal.LinRegions.final0
  final1_sum := Cert.KernelIdeal.StatRegions.final1_sum
  final1_sq := Cert.KernelIdeal.StatRegions.final1_sq
  final2 := Cert.KernelIdeal.NormRegions.final2
  final3 := Cert.KernelIdeal.LinRegions.final3
  final4_sum := Cert.KernelIdeal.StatRegions.final4_sum
  final4_sq := Cert.KernelIdeal.StatRegions.final4_sq
  final5 := Cert.KernelIdeal.NormRegions.final5
  final6 := Cert.KernelIdeal.LinRegions.final6

theorem frame_k : Cert.frame_Kernel := fun m ρ _ => Cert.Kernel.Gen.frame m ρ
theorem frame_ki : Cert.frame_KernelIdeal := fun m ρ _ => Cert.KernelIdeal.Gen.frame m ρ

/-- The reference runs, and its fold over the launch memory keeps every argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.arg_eq0 _),
     (h c Cert.ReferenceIdeal.main_arg1).trans (Cert.ReferenceIdeal.RefRun.arg_eq1 _),
     (h c Cert.ReferenceIdeal.main_arg2).trans (Cert.ReferenceIdeal.RefRun.arg_eq2 _),
     (h c Cert.ReferenceIdeal.main_arg3).trans (Cert.ReferenceIdeal.RefRun.arg_eq3 _),
     (h c Cert.ReferenceIdeal.main_arg4).trans (Cert.ReferenceIdeal.RefRun.arg_eq4 _),
     (h c Cert.ReferenceIdeal.main_arg5).trans (Cert.ReferenceIdeal.RefRun.arg_eq5 _),
     (h c Cert.ReferenceIdeal.main_arg6).trans (Cert.ReferenceIdeal.RefRun.arg_eq6 _),
     (h c Cert.ReferenceIdeal.main_arg7).trans (Cert.ReferenceIdeal.RefRun.arg_eq7 _),
     (h c Cert.ReferenceIdeal.main_arg8).trans (Cert.ReferenceIdeal.RefRun.arg_eq8 _),
     (h c Cert.ReferenceIdeal.main_arg9).trans (Cert.ReferenceIdeal.RefRun.arg_eq9 _),
     (h c Cert.ReferenceIdeal.main_arg10).trans (Cert.ReferenceIdeal.RefRun.arg_eq10 _),
     (h c Cert.ReferenceIdeal.main_arg11).trans (Cert.ReferenceIdeal.RefRun.arg_eq11 _)⟩)
    (Cert.ReferenceIdeal.RefRun.run_main (F := Ideal) m ρ)

theorem preserves : Cert.preserves_Kernel_KernelIdeal := trivial

/-- Both programs end with the kernel's value `out` of the launch memory in the result buffer. -/
theorem algebraic : Cert.algebraic_KernelIdeal_ReferenceIdeal := by
  intro m ρ m' ρ' hpre hagree
  refine ⟨fun c => Cert.KernelIdeal.Val.out m c, ?_, ?_⟩
  · exact (θ_run Cert.KernelIdeal.defs _ _).mono
      (fun r h c => ⟨(h c).1.trans (Cert.KernelIdeal.Val.kernel_value regionFinals m ρ c), (h c).2⟩)
      (Cert.KernelIdeal.Run.run (F := Ideal) m ρ)
  · refine (θ_run Cert.ReferenceIdeal.defs _ _).mono (fun r h c => ?_) (Cert.ReferenceIdeal.RefRun.run_main (F := Ideal) m' ρ')
    obtain ⟨e0, e1, e2, e3, e4, e5, e6, e7, e8, e9, e10, e11⟩ := hagree c
    obtain ⟨r0, r2, r3, r4, r5, r6, r7, r8, r9, r10, r11⟩ := Cert.Gcn.PreReal.reals_of_pre _ _ _ _ _ _ _ _ _ _ _ _ (hpre c)
    refine ⟨?_, (h c Cert.ReferenceIdeal.main_arg0).trans (Cert.ReferenceIdeal.RefRun.arg_eq0 _),
      (h c Cert.ReferenceIdeal.main_arg1).trans (Cert.ReferenceIdeal.RefRun.arg_eq1 _),
      (h c Cert.ReferenceIdeal.main_arg2).trans (Cert.ReferenceIdeal.RefRun.arg_eq2 _),
      (h c Cert.ReferenceIdeal.main_arg3).trans (Cert.ReferenceIdeal.RefRun.arg_eq3 _),
      (h c Cert.ReferenceIdeal.main_arg4).trans (Cert.ReferenceIdeal.RefRun.arg_eq4 _),
      (h c Cert.ReferenceIdeal.main_arg5).trans (Cert.ReferenceIdeal.RefRun.arg_eq5 _),
      (h c Cert.ReferenceIdeal.main_arg6).trans (Cert.ReferenceIdeal.RefRun.arg_eq6 _),
      (h c Cert.ReferenceIdeal.main_arg7).trans (Cert.ReferenceIdeal.RefRun.arg_eq7 _),
      (h c Cert.ReferenceIdeal.main_arg8).trans (Cert.ReferenceIdeal.RefRun.arg_eq8 _),
      (h c Cert.ReferenceIdeal.main_arg9).trans (Cert.ReferenceIdeal.RefRun.arg_eq9 _),
      (h c Cert.ReferenceIdeal.main_arg10).trans (Cert.ReferenceIdeal.RefRun.arg_eq10 _),
      (h c Cert.ReferenceIdeal.main_arg11).trans (Cert.ReferenceIdeal.RefRun.arg_eq11 _)⟩
    refine (h c Cert.ReferenceIdeal.main_v134).trans ((Cert.ReferenceIdeal.RefRun.out_eq _).trans ?_)
    have hargs : Cert.ReferenceIdeal.RefRun.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        = Cert.ReferenceIdeal.RefRun.refOut (Cert.KernelIdeal.Val.a0 m c) (Cert.KernelIdeal.Val.a1 m c) (Cert.KernelIdeal.Val.a2 m c) (Cert.KernelIdeal.Val.a3 m c) (Cert.KernelIdeal.Val.a4 m c) (Cert.KernelIdeal.Val.a5 m c) (Cert.KernelIdeal.Val.a6 m c) (Cert.KernelIdeal.Val.a7 m c) (Cert.KernelIdeal.Val.a8 m c) (Cert.KernelIdeal.Val.a9 m c) (Cert.KernelIdeal.Val.a10 m c) (Cert.KernelIdeal.Val.a11 m c) := by
      rw [e0, e1, e2, e3, e4, e5, e6, e7, e8, e9, e10, e11]
    exact hargs.trans (Cert.Bridge.out_agree m c r0 r2 r3 r4 r5 r6 r7 r8 r9 r10 r11)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
